-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel

variable [Facts]

def fn {F : FTy → Type} [FloatOps F] (main_arg0 : FVec F S4x4096x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  main_v3
-- ==== Kernel.lean ====
abbrev S4x4096x2048 : Shape := ⟨3, ![4, 4096, 2048]⟩
abbrev S4x8388608 : Shape := ⟨2, ![4, 8388608]⟩
abbrev S3x16x2048 : Shape := ⟨3, ![3, 16, 2048]⟩
abbrev S3 : Shape := ⟨1, ![3]⟩
abbrev S1x16x2048 : Shape := ⟨3, ![1, 16, 2048]⟩
abbrev S16x2048 : Shape := ⟨2, ![16, 2048]⟩
abbrev S1 : Shape := ⟨1, ![1]⟩
abbrev S_ : Shape := ⟨0, ![]⟩
abbrev S1x2048 : Shape := ⟨2, ![1, 2048]⟩
abbrev S2048 : Shape := ⟨1, ![2048]⟩

abbrev nBuf : Table → Nat
  | .hbm => 2
  | .local .scVector .vmem => 1
  | _ => 0

abbrev bufTy : (tb : Table) → Fin (nBuf tb) → BufTy
  | .hbm, ⟨0, _⟩ => ⟨S4x4096x2048, .f32⟩
  | .hbm, ⟨1, _⟩ => ⟨S4x8388608, .f32⟩
  | .local .scVector .vmem, ⟨0, _⟩ => ⟨S3x16x2048, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v31 : BitVec 32 := Scalar.addi v29 c0_i32_10
  let c0_i32_15 : BitVec 32 := 0#32
  ![v18.toNat, v31.toNat, 0]
@[reducible] def k0_t1_loop : Scf.Loop 32 :=
  let c0_i32_44 : BitVec 32 := 0#32
  let c16_i32_45 : BitVec 32 := 16#32
  let v75 : BitVec 32 := Scalar.addi c0_i32_44 c16_i32_45
  let c1_i32_46 : BitVec 32 := 1#32
  ⟨c0_i32_44, v75, c1_i32_46⟩
def k0_off2 (k0_t1 : Fin k0_t1_loop.trips) : Fin 2 → Nat :=
  let c0_i32_44 : BitVec 32 := 0#32
  let c1_i32_46 : BitVec 32 := 1#32
  let arg7 : BitVec 32 := Scf.iv c0_i32_44 c1_i32_46 k0_t1
  let c0_i32_817 : BitVec 32 := 0#32
  ![arg7.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c0_i32_811 : BitVec 32 := 0#32
  let v799 : BitVec 32 := Scalar.addi v30 c0_i32_811
  let c0_i32_44 : BitVec 32 := 0#32
  let c1_i32_46 : BitVec 32 := 1#32
  let arg7 : BitVec 32 := Scf.iv c0_i32_44 c1_i32_46 k0_t1
  let c2048_i32_812 : BitVec 32 := 2048#32
  let v800 : BitVec 32 := Scalar.muli arg7 c2048_i32_812
  let v801 : BitVec 32 := Scalar.addi v799 v800
  ![v18.toNat, v801.toNat]
@[reducible] def k0_t2_loop : Scf.Loop 32 :=
  let c0_i32_48 : BitVec 32 := 0#32
  let c16_i32_49 : BitVec 32 := 16#32
  let v76 : BitVec 32 := Scalar.addi c0_i32_48 c16_i32_49
  let c1_i32_50 : BitVec 32 := 1#32
  ⟨c0_i32_48, v76, c1_i32_50⟩
def k0_off4 (k0_t2 : Fin k0_t2_loop.trips) : Fin 2 → Nat :=
  let c0_i32_48 : BitVec 32 := 0#32
  let c1_i32_50 : BitVec 32 := 1#32
  let arg7 : BitVec 32 := Scf.iv c0_i32_48 c1_i32_50 k0_t2
  let c0_i32_817 : BitVec 32 := 0#32
  ![arg7.toNat, 0]
def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c0_i32_811 : BitVec 32 := 0#32
  let v799 : BitVec 32 := Scalar.addi v30 c0_i32_811
  let c0_i32_48 : BitVec 32 := 0#32
  let c1_i32_50 : BitVec 32 := 1#32
  let arg7 : BitVec 32 := Scf.iv c0_i32_48 c1_i32_50 k0_t2
  let c2048_i32_812 : BitVec 32 := 2048#32
  let v800 : BitVec 32 := Scalar.muli arg7 c2048_i32_812
  let v801 : BitVec 32 := Scalar.addi v799 v800
  ![v18.toNat, v801.toNat]
@[reducible] def k0_t3_loop : Scf.Loop 32 :=
  let c0_i32_69 : BitVec 32 := 0#32
  let c16_i32_70 : BitVec 32 := 16#32
  let v99 : BitVec 32 := Scalar.addi c0_i32_69 c16_i32_70
  let c1_i32_71 : BitVec 32 := 1#32
  ⟨c0_i32_69, v99, c1_i32_71⟩
def k0_off6 (k0_t3 : Fin k0_t3_loop.trips) : Fin 2 → Nat :=
  let c0_i32_69 : BitVec 32 := 0#32
  let c1_i32_71 : BitVec 32 := 1#32
  let arg7 : BitVec 32 := Scf.iv c0_i32_69 c1_i32_71 k0_t3
  let c0_i32_816 : BitVec 32 := 0#32
  ![arg7.toNat, 0]
def k0_off7 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c32768_i32 : BitVec 32 := 32768#32
  let v799 : BitVec 32 := Scalar.addi v30 c32768_i32
  let c0_i32_69 : BitVec 32 := 0#32
  let c1_i32_71 : BitVec 32 := 1#32
  let arg7 : BitVec 32 := Scf.iv c0_i32_69 c1_i32_71 k0_t3
  let c2048_i32_811 : BitVec 32 := 2048#32
  let v800 : BitVec 32 := Scalar.muli arg7 c2048_i32_811
  let v801 : BitVec 32 := Scalar.addi v799 v800
  ![v18.toNat, v801.toNat]
@[reducible] def k0_t4_loop : Scf.Loop 32 :=
  let c0_i32_73 : BitVec 32 := 0#32
  let c16_i32_74 : BitVec 32 := 16#32
  let v100 : BitVec 32 := Scalar.addi c0_i32_73 c16_i32_74
  let c1_i32_75 : BitVec 32 := 1#32
  ⟨c0_i32_73, v100, c1_i32_75⟩
def k0_off8 (k0_t4 : Fin k0_t4_loop.trips) : Fin 2 → Nat :=
  let c0_i32_73 : BitVec 32 := 0#32
  let c1_i32_75 : BitVec 32 := 1#32
  let arg7 : BitVec 32 := Scf.iv c0_i32_73 c1_i32_75 k0_t4
  let c0_i32_816 : BitVec 32 := 0#32
  ![arg7.toNat, 0]
def k0_off9 (i : grid0.Coords) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c32768_i32 : BitVec 32 := 32768#32
  let v799 : BitVec 32 := Scalar.addi v30 c32768_i32
  let c0_i32_73 : BitVec 32 := 0#32
  let c1_i32_75 : BitVec 32 := 1#32
  let arg7 : BitVec 32 := Scf.iv c0_i32_73 c1_i32_75 k0_t4
  let c2048_i32_811 : BitVec 32 := 2048#32
  let v800 : BitVec 32 := Scalar.muli arg7 c2048_i32_811
  let v801 : BitVec 32 := Scalar.addi v799 v800
  ![v18.toNat, v801.toNat]
@[reducible] def k0_t5_loop : Scf.Loop 32 :=
  let c0_i32_94 : BitVec 32 := 0#32
  let c16_i32_95 : BitVec 32 := 16#32
  let v123 : BitVec 32 := Scalar.addi c0_i32_94 c16_i32_95
  let c1_i32_96 : BitVec 32 := 1#32
  ⟨c0_i32_94, v123, c1_i32_96⟩
def k0_off10 (k0_t5 : Fin k0_t5_loop.trips) : Fin 2 → Nat :=
  let c0_i32_94 : BitVec 32 := 0#32
  let c1_i32_96 : BitVec 32 := 1#32
  let arg7 : BitVec 32 := Scf.iv c0_i32_94 c1_i32_96 k0_t5
  let c0_i32_816 : BitVec 32 := 0#32
  ![arg7.toNat, 0]
def k0_off11 (i : grid0.Coords) (k0_t5 : Fin k0_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c65536_i32 : BitVec 32 := 65536#32
  let v799 : BitVec 32 := Scalar.addi v30 c65536_i32
  let c0_i32_94 : BitVec 32 := 0#32
  let c1_i32_96 : BitVec 32 := 1#32
  let arg7 : BitVec 32 := Scf.iv c0_i32_94 c1_i32_96 k0_t5
  let c2048_i32_811 : BitVec 32 := 2048#32
  let v800 : BitVec 32 := Scalar.muli arg7 c2048_i32_811
  let v801 : BitVec 32 := Scalar.addi v799 v800
  ![v18.toNat, v801.toNat]
@[reducible] def k0_t6_loop : Scf.Loop 32 :=
  let c0_i32_98 : BitVec 32 := 0#32
  let c16_i32_99 : BitVec 32 := 16#32
  let v124 : BitVec 32 := Scalar.addi c0_i32_98 c16_i32_99
  let c1_i32_100 : BitVec 32 := 1#32
  ⟨c0_i32_98, v124, c1_i32_100⟩
def k0_off12 (k0_t6 : Fin k0_t6_loop.trips) : Fin 2 → Nat :=
  let c0_i32_98 : BitVec 32 := 0#32
  let c1_i32_100 : BitVec 32 := 1#32
  let arg7 : BitVec 32 := Scf.iv c0_i32_98 c1_i32_100 k0_t6
  let c0_i32_816 : BitVec 32 := 0#32
  ![arg7.toNat, 0]
def k0_off13 (i : grid0.Coords) (k0_t6 : Fin k0_t6_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c65536_i32 : BitVec 32 := 65536#32
  let v799 : BitVec 32 := Scalar.addi v30 c65536_i32
  let c0_i32_98 : BitVec 32 := 0#32
  let c1_i32_100 : BitVec 32 := 1#32
  let arg7 : BitVec 32 := Scf.iv c0_i32_98 c1_i32_100 k0_t6
  let c2048_i32_811 : BitVec 32 := 2048#32
  let v800 : BitVec 32 := Scalar.muli arg7 c2048_i32_811
  let v801 : BitVec 32 := Scalar.addi v799 v800
  ![v18.toNat, v801.toNat]
@[reducible] def k0_t7_loop : Scf.Loop 32 :=
  let c0_i32_119 : BitVec 32 := 0#32
  let c16_i32_120 : BitVec 32 := 16#32
  let v147 : BitVec 32 := Scalar.addi c0_i32_119 c16_i32_120
  let c1_i32_121 : BitVec 32 := 1#32
  ⟨c0_i32_119, v147, c1_i32_121⟩
def k0_off14 (k0_t7 : Fin k0_t7_loop.trips) : Fin 2 → Nat :=
  let c0_i32_119 : BitVec 32 := 0#32
  let c1_i32_121 : BitVec 32 := 1#32
  let arg7 : BitVec 32 := Scf.iv c0_i32_119 c1_i32_121 k0_t7
  let c0_i32_816 : BitVec 32 := 0#32
  ![arg7.toNat, 0]
def k0_off15 (i : grid0.Coords) (k0_t7 : Fin k0_t7_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c98304_i32 : BitVec 32 := 98304#32
  let v799 : BitVec 32 := Scalar.addi v30 c98304_i32
  let c0_i32_119 : BitVec 32 := 0#32
  let c1_i32_121 : BitVec 32 := 1#32
  let arg7 : BitVec 32 := Scf.iv c0_i32_119 c1_i32_121 k0_t7
  let c2048_i32_811 : BitVec 32 := 2048#32
  let v800 : BitVec 32 := Scalar.muli arg7 c2048_i32_811
  let v801 : BitVec 32 := Scalar.addi v799 v800
  ![v18.toNat, v801.toNat]
@[reducible] def k0_t8_loop : Scf.Loop 32 :=
  let c0_i32_123 : BitVec 32 := 0#32
  let c16_i32_124 : BitVec 32 := 16#32
  let v148 : BitVec 32 := Scalar.addi c0_i32_123 c16_i32_124
  let c1_i32_125 : BitVec 32 := 1#32
  ⟨c0_i32_123, v148, c1_i32_125⟩
def k0_off16 (k0_t8 : Fin k0_t8_loop.trips) : Fin 2 → Nat :=
  let c0_i32_123 : BitVec 32 := 0#32
  let c1_i32_125 : BitVec 32 := 1#32
  let arg7 : BitVec 32 := Scf.iv c0_i32_123 c1_i32_125 k0_t8
  let c0_i32_816 : BitVec 32 := 0#32
  ![arg7.toNat, 0]
def k0_off17 (i : grid0.Coords) (k0_t8 : Fin k0_t8_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c98304_i32 : BitVec 32 := 98304#32
  let v799 : BitVec 32 := Scalar.addi v30 c98304_i32
  let c0_i32_123 : BitVec 32 := 0#32
  let c1_i32_125 : BitVec 32 := 1#32
  let arg7 : BitVec 32 := Scf.iv c0_i32_123 c1_i32_125 k0_t8
  let c2048_i32_811 : BitVec 32 := 2048#32
  let v800 : BitVec 32 := Scalar.muli arg7 c2048_i32_811
  let v801 : BitVec 32 := Scalar.addi v799 v800
  ![v18.toNat, v801.toNat]
@[reducible] def k0_t9_loop : Scf.Loop 32 :=
  let c0_i32_144 : BitVec 32 := 0#32
  let c16_i32_145 : BitVec 32 := 16#32
  let v171 : BitVec 32 := Scalar.addi c0_i32_144 c16_i32_145
  let c1_i32_146 : BitVec 32 := 1#32
  ⟨c0_i32_144, v171, c1_i32_146⟩
def k0_off18 (k0_t9 : Fin k0_t9_loop.trips) : Fin 2 → Nat :=
  let c0_i32_144 : BitVec 32 := 0#32
  let c1_i32_146 : BitVec 32 := 1#32
  let arg7 : BitVec 32 := Scf.iv c0_i32_144 c1_i32_146 k0_t9
  let c0_i32_816 : BitVec 32 := 0#32
  ![arg7.toNat, 0]
def k0_off19 (i : grid0.Coords) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c131072_i32 : BitVec 32 := 131072#32
  let v799 : BitVec 32 := Scalar.addi v30 c131072_i32
  let c0_i32_144 : BitVec 32 := 0#32
  let c1_i32_146 : BitVec 32 := 1#32
  let arg7 : BitVec 32 := Scf.iv c0_i32_144 c1_i32_146 k0_t9
  let c2048_i32_811 : BitVec 32 := 2048#32
  let v800 : BitVec 32 := Scalar.muli arg7 c2048_i32_811
  let v801 : BitVec 32 := Scalar.addi v799 v800
  ![v18.toNat, v801.toNat]
@[reducible] def k0_t10_loop : Scf.Loop 32 :=
  let c0_i32_148 : BitVec 32 := 0#32
  let c16_i32_149 : BitVec 32 := 16#32
  let v172 : BitVec 32 := Scalar.addi c0_i32_148 c16_i32_149
  let c1_i32_150 : BitVec 32 := 1#32
  ⟨c0_i32_148, v172, c1_i32_150⟩
def k0_off20 (k0_t10 : Fin k0_t10_loop.trips) : Fin 2 → Nat :=
  let c0_i32_148 : BitVec 32 := 0#32
  let c1_i32_150 : BitVec 32 := 1#32
  let arg7 : BitVec 32 := Scf.iv c0_i32_148 c1_i32_150 k0_t10
  let c0_i32_816 : BitVec 32 := 0#32
  ![arg7.toNat, 0]
def k0_off21 (i : grid0.Coords) (k0_t10 : Fin k0_t10_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c131072_i32 : BitVec 32 := 131072#32
  let v799 : BitVec 32 := Scalar.addi v30 c131072_i32
  let c0_i32_148 : BitVec 32 := 0#32
  let c1_i32_150 : BitVec 32 := 1#32
  let arg7 : BitVec 32 := Scf.iv c0_i32_148 c1_i32_150 k0_t10
  let c2048_i32_811 : BitVec 32 := 2048#32
  let v800 : BitVec 32 := Scalar.muli arg7 c2048_i32_811
  let v801 : BitVec 32 := Scalar.addi v799 v800
  ![v18.toNat, v801.toNat]
@[reducible] def k0_t11_loop : Scf.Loop 32 :=
  let c0_i32_169 : BitVec 32 := 0#32
  let c16_i32_170 : BitVec 32 := 16#32
  let v195 : BitVec 32 := Scalar.addi c0_i32_169 c16_i32_170
  let c1_i32_171 : BitVec 32 := 1#32
  ⟨c0_i32_169, v195, c1_i32_171⟩
def k0_off22 (k0_t11 : Fin k0_t11_loop.trips) : Fin 2 → Nat :=
  let c0_i32_169 : BitVec 32 := 0#32
  let c1_i32_171 : BitVec 32 := 1#32
  let arg7 : BitVec 32 := Scf.iv c0_i32_169 c1_i32_171 k0_t11
  let c0_i32_816 : BitVec 32 := 0#32
  ![arg7.toNat, 0]
def k0_off23 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c163840_i32 : BitVec 32 := 163840#32
  let v799 : BitVec 32 := Scalar.addi v30 c163840_i32
  let c0_i32_169 : BitVec 32 := 0#32
  let c1_i32_171 : BitVec 32 := 1#32
  let arg7 : BitVec 32 := Scf.iv c0_i32_169 c1_i32_171 k0_t11
  let c2048_i32_811 : BitVec 32 := 2048#32
  let v800 : BitVec 32 := Scalar.muli arg7 c2048_i32_811
  let v801 : BitVec 32 := Scalar.addi v799 v800
  ![v18.toNat, v801.toNat]
@[reducible] def k0_t12_loop : Scf.Loop 32 :=
  let c0_i32_173 : BitVec 32 := 0#32
  let c16_i32_174 : BitVec 32 := 16#32
  let v196 : BitVec 32 := Scalar.addi c0_i32_173 c16_i32_174
  let c1_i32_175 : BitVec 32 := 1#32
  ⟨c0_i32_173, v196, c1_i32_175⟩
def k0_off24 (k0_t12 : Fin k0_t12_loop.trips) : Fin 2 → Nat :=
  let c0_i32_173 : BitVec 32 := 0#32
  let c1_i32_175 : BitVec 32 := 1#32
  let arg7 : BitVec 32 := Scf.iv c0_i32_173 c1_i32_175 k0_t12
  let c0_i32_816 : BitVec 32 := 0#32
  ![arg7.toNat, 0]
def k0_off25 (i : grid0.Coords) (k0_t12 : Fin k0_t12_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c163840_i32 : BitVec 32 := 163840#32
  let v799 : BitVec 32 := Scalar.addi v30 c163840_i32
  let c0_i32_173 : BitVec 32 := 0#32
  let c1_i32_175 : BitVec 32 := 1#32
  let arg7 : BitVec 32 := Scf.iv c0_i32_173 c1_i32_175 k0_t12
  let c2048_i32_811 : BitVec 32 := 2048#32
  let v800 : BitVec 32 := Scalar.muli arg7 c2048_i32_811
  let v801 : BitVec 32 := Scalar.addi v799 v800
  ![v18.toNat, v801.toNat]
@[reducible] def k0_t13_loop : Scf.Loop 32 :=
  let c0_i32_194 : BitVec 32 := 0#32
  let c16_i32_195 : BitVec 32 := 16#32
  let v219 : BitVec 32 := Scalar.addi c0_i32_194 c16_i32_195
  let c1_i32_196 : BitVec 32 := 1#32
  ⟨c0_i32_194, v219, c1_i32_196⟩
def k0_off26 (k0_t13 : Fin k0_t13_loop.trips) : Fin 2 → Nat :=
  let c0_i32_194 : BitVec 32 := 0#32
  let c1_i32_196 : BitVec 32 := 1#32
  let arg7 : BitVec 32 := Scf.iv c0_i32_194 c1_i32_196 k0_t13
  let c0_i32_816 : BitVec 32 := 0#32
  ![arg7.toNat, 0]
def k0_off27 (i : grid0.Coords) (k0_t13 : Fin k0_t13_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c196608_i32 : BitVec 32 := 196608#32
  let v799 : BitVec 32 := Scalar.addi v30 c196608_i32
  let c0_i32_194 : BitVec 32 := 0#32
  let c1_i32_196 : BitVec 32 := 1#32
  let arg7 : BitVec 32 := Scf.iv c0_i32_194 c1_i32_196 k0_t13
  let c2048_i32_811 : BitVec 32 := 2048#32
  let v800 : BitVec 32 := Scalar.muli arg7 c2048_i32_811
  let v801 : BitVec 32 := Scalar.addi v799 v800
  ![v18.toNat, v801.toNat]
@[reducible] def k0_t14_loop : Scf.Loop 32 :=
  let c0_i32_198 : BitVec 32 := 0#32
  let c16_i32_199 : BitVec 32 := 16#32
  let v220 : BitVec 32 := Scalar.addi c0_i32_198 c16_i32_199
  let c1_i32_200 : BitVec 32 := 1#32
  ⟨c0_i32_198, v220, c1_i32_200⟩
def k0_off28 (k0_t14 : Fin k0_t14_loop.trips) : Fin 2 → Nat :=
  let c0_i32_198 : BitVec 32 := 0#32
  let c1_i32_200 : BitVec 32 := 1#32
  let arg7 : BitVec 32 := Scf.iv c0_i32_198 c1_i32_200 k0_t14
  let c0_i32_816 : BitVec 32 := 0#32
  ![arg7.toNat, 0]
def k0_off29 (i : grid0.Coords) (k0_t14 : Fin k0_t14_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c196608_i32 : BitVec 32 := 196608#32
  let v799 : BitVec 32 := Scalar.addi v30 c196608_i32
  let c0_i32_198 : BitVec 32 := 0#32
  let c1_i32_200 : BitVec 32 := 1#32
  let arg7 : BitVec 32 := Scf.iv c0_i32_198 c1_i32_200 k0_t14
  let c2048_i32_811 : BitVec 32 := 2048#32
  let v800 : BitVec 32 := Scalar.muli arg7 c2048_i32_811
  let v801 : BitVec 32 := Scalar.addi v799 v800
  ![v18.toNat, v801.toNat]
@[reducible] def k0_t15_loop : Scf.Loop 32 :=
  let c0_i32_219 : BitVec 32 := 0#32
  let c16_i32_220 : BitVec 32 := 16#32
  let v243 : BitVec 32 := Scalar.addi c0_i32_219 c16_i32_220
  let c1_i32_221 : BitVec 32 := 1#32
  ⟨c0_i32_219, v243, c1_i32_221⟩
def k0_off30 (k0_t15 : Fin k0_t15_loop.trips) : Fin 2 → Nat :=
  let c0_i32_219 : BitVec 32 := 0#32
  let c1_i32_221 : BitVec 32 := 1#32
  let arg7 : BitVec 32 := Scf.iv c0_i32_219 c1_i32_221 k0_t15
  let c0_i32_816 : BitVec 32 := 0#32
  ![arg7.toNat, 0]
def k0_off31 (i : grid0.Coords) (k0_t15 : Fin k0_t15_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c229376_i32 : BitVec 32 := 229376#32
  let v799 : BitVec 32 := Scalar.addi v30 c229376_i32
  let c0_i32_219 : BitVec 32 := 0#32
  let c1_i32_221 : BitVec 32 := 1#32
  let arg7 : BitVec 32 := Scf.iv c0_i32_219 c1_i32_221 k0_t15
  let c2048_i32_811 : BitVec 32 := 2048#32
  let v800 : BitVec 32 := Scalar.muli arg7 c2048_i32_811
  let v801 : BitVec 32 := Scalar.addi v799 v800
  ![v18.toNat, v801.toNat]
@[reducible] def k0_t16_loop : Scf.Loop 32 :=
  let c0_i32_223 : BitVec 32 := 0#32
  let c16_i32_224 : BitVec 32 := 16#32
  let v244 : BitVec 32 := Scalar.addi c0_i32_223 c16_i32_224
  let c1_i32_225 : BitVec 32 := 1#32
  ⟨c0_i32_223, v244, c1_i32_225⟩
def k0_off32 (k0_t16 : Fin k0_t16_loop.trips) : Fin 2 → Nat :=
  let c0_i32_223 : BitVec 32 := 0#32
  let c1_i32_225 : BitVec 32 := 1#32
  let arg7 : BitVec 32 := Scf.iv c0_i32_223 c1_i32_225 k0_t16
  let c0_i32_816 : BitVec 32 := 0#32
  ![arg7.toNat, 0]
def k0_off33 (i : grid0.Coords) (k0_t16 : Fin k0_t16_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c229376_i32 : BitVec 32 := 229376#32
  let v799 : BitVec 32 := Scalar.addi v30 c229376_i32
  let c0_i32_223 : BitVec 32 := 0#32
  let c1_i32_225 : BitVec 32 := 1#32
  let arg7 : BitVec 32 := Scf.iv c0_i32_223 c1_i32_225 k0_t16
  let c2048_i32_811 : BitVec 32 := 2048#32
  let v800 : BitVec 32 := Scalar.muli arg7 c2048_i32_811
  let v801 : BitVec 32 := Scalar.addi v799 v800
  ![v18.toNat, v801.toNat]
@[reducible] def k0_t17_loop : Scf.Loop 32 :=
  let c0_i32_244 : BitVec 32 := 0#32
  let c16_i32_245 : BitVec 32 := 16#32
  let v267 : BitVec 32 := Scalar.addi c0_i32_244 c16_i32_245
  let c1_i32_246 : BitVec 32 := 1#32
  ⟨c0_i32_244, v267, c1_i32_246⟩
def k0_off34 (k0_t17 : Fin k0_t17_loop.trips) : Fin 2 → Nat :=
  let c0_i32_244 : BitVec 32 := 0#32
  let c1_i32_246 : BitVec 32 := 1#32
  let arg7 : BitVec 32 := Scf.iv c0_i32_244 c1_i32_246 k0_t17
  let c0_i32_816 : BitVec 32 := 0#32
  ![arg7.toNat, 0]
def k0_off35 (i : grid0.Coords) (k0_t17 : Fin k0_t17_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c262144_i32 : BitVec 32 := 262144#32
  let v799 : BitVec 32 := Scalar.addi v30 c262144_i32
  let c0_i32_244 : BitVec 32 := 0#32
  let c1_i32_246 : BitVec 32 := 1#32
  let arg7 : BitVec 32 := Scf.iv c0_i32_244 c1_i32_246 k0_t17
  let c2048_i32_811 : BitVec 32 := 2048#32
  let v800 : BitVec 32 := Scalar.muli arg7 c2048_i32_811
  let v801 : BitVec 32 := Scalar.addi v799 v800
  ![v18.toNat, v801.toNat]
@[reducible] def k0_t18_loop : Scf.Loop 32 :=
  let c0_i32_248 : BitVec 32 := 0#32
  let c16_i32_249 : BitVec 32 := 16#32
  let v268 : BitVec 32 := Scalar.addi c0_i32_248 c16_i32_249
  let c1_i32_250 : BitVec 32 := 1#32
  ⟨c0_i32_248, v268, c1_i32_250⟩
def k0_off36 (k0_t18 : Fin k0_t18_loop.trips) : Fin 2 → Nat :=
  let c0_i32_248 : BitVec 32 := 0#32
  let c1_i32_250 : BitVec 32 := 1#32
  let arg7 : BitVec 32 := Scf.iv c0_i32_248 c1_i32_250 k0_t18
  let c0_i32_816 : BitVec 32 := 0#32
  ![arg7.toNat, 0]
def k0_off37 (i : grid0.Coords) (k0_t18 : Fin k0_t18_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c262144_i32 : BitVec 32 := 262144#32
  let v799 : BitVec 32 := Scalar.addi v30 c262144_i32
  let c0_i32_248 : BitVec 32 := 0#32
  let c1_i32_250 : BitVec 32 := 1#32
  let arg7 : BitVec 32 := Scf.iv c0_i32_248 c1_i32_250 k0_t18
  let c2048_i32_811 : BitVec 32 := 2048#32
  let v800 : BitVec 32 := Scalar.muli arg7 c2048_i32_811
  let v801 : BitVec 32 := Scalar.addi v799 v800
  ![v18.toNat, v801.toNat]
@[reducible] def k0_t19_loop : Scf.Loop 32 :=
  let c0_i32_269 : BitVec 32 := 0#32
  let c16_i32_270 : BitVec 32 := 16#32
  let v291 : BitVec 32 := Scalar.addi c0_i32_269 c16_i32_270
  let c1_i32_271 : BitVec 32 := 1#32
  ⟨c0_i32_269, v291, c1_i32_271⟩
def k0_off38 (k0_t19 : Fin k0_t19_loop.trips) : Fin 2 → Nat :=
  let c0_i32_269 : BitVec 32 := 0#32
  let c1_i32_271 : BitVec 32 := 1#32
  let arg7 : BitVec 32 := Scf.iv c0_i32_269 c1_i32_271 k0_t19
  let c0_i32_816 : BitVec 32 := 0#32
  ![arg7.toNat, 0]
def k0_off39 (i : grid0.Coords) (k0_t19 : Fin k0_t19_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c294912_i32 : BitVec 32 := 294912#32
  let v799 : BitVec 32 := Scalar.addi v30 c294912_i32
  let c0_i32_269 : BitVec 32 := 0#32
  let c1_i32_271 : BitVec 32 := 1#32
  let arg7 : BitVec 32 := Scf.iv c0_i32_269 c1_i32_271 k0_t19
  let c2048_i32_811 : BitVec 32 := 2048#32
  let v800 : BitVec 32 := Scalar.muli arg7 c2048_i32_811
  let v801 : BitVec 32 := Scalar.addi v799 v800
  ![v18.toNat, v801.toNat]
@[reducible] def k0_t20_loop : Scf.Loop 32 :=
  let c0_i32_273 : BitVec 32 := 0#32
  let c16_i32_274 : BitVec 32 := 16#32
  let v292 : BitVec 32 := Scalar.addi c0_i32_273 c16_i32_274
  let c1_i32_275 : BitVec 32 := 1#32
  ⟨c0_i32_273, v292, c1_i32_275⟩
def k0_off40 (k0_t20 : Fin k0_t20_loop.trips) : Fin 2 → Nat :=
  let c0_i32_273 : BitVec 32 := 0#32
  let c1_i32_275 : BitVec 32 := 1#32
  let arg7 : BitVec 32 := Scf.iv c0_i32_273 c1_i32_275 k0_t20
  let c0_i32_816 : BitVec 32 := 0#32
  ![arg7.toNat, 0]
def k0_off41 (i : grid0.Coords) (k0_t20 : Fin k0_t20_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c294912_i32 : BitVec 32 := 294912#32
  let v799 : BitVec 32 := Scalar.addi v30 c294912_i32
  let c0_i32_273 : BitVec 32 := 0#32
  let c1_i32_275 : BitVec 32 := 1#32
  let arg7 : BitVec 32 := Scf.iv c0_i32_273 c1_i32_275 k0_t20
  let c2048_i32_811 : BitVec 32 := 2048#32
  let v800 : BitVec 32 := Scalar.muli arg7 c2048_i32_811
  let v801 : BitVec 32 := Scalar.addi v799 v800
  ![v18.toNat, v801.toNat]
@[reducible] def k0_t21_loop : Scf.Loop 32 :=
  let c0_i32_294 : BitVec 32 := 0#32
  let c16_i32_295 : BitVec 32 := 16#32
  let v315 : BitVec 32 := Scalar.addi c0_i32_294 c16_i32_295
  let c1_i32_296 : BitVec 32 := 1#32
  ⟨c0_i32_294, v315, c1_i32_296⟩
def k0_off42 (k0_t21 : Fin k0_t21_loop.trips) : Fin 2 → Nat :=
  let c0_i32_294 : BitVec 32 := 0#32
  let c1_i32_296 : BitVec 32 := 1#32
  let arg7 : BitVec 32 := Scf.iv c0_i32_294 c1_i32_296 k0_t21
  let c0_i32_816 : BitVec 32 := 0#32
  ![arg7.toNat, 0]
def k0_off43 (i : grid0.Coords) (k0_t21 : Fin k0_t21_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c327680_i32 : BitVec 32 := 327680#32
  let v799 : BitVec 32 := Scalar.addi v30 c327680_i32
  let c0_i32_294 : BitVec 32 := 0#32
  let c1_i32_296 : BitVec 32 := 1#32
  let arg7 : BitVec 32 := Scf.iv c0_i32_294 c1_i32_296 k0_t21
  let c2048_i32_811 : BitVec 32 := 2048#32
  let v800 : BitVec 32 := Scalar.muli arg7 c2048_i32_811
  let v801 : BitVec 32 := Scalar.addi v799 v800
  ![v18.toNat, v801.toNat]
@[reducible] def k0_t22_loop : Scf.Loop 32 :=
  let c0_i32_298 : BitVec 32 := 0#32
  let c16_i32_299 : BitVec 32 := 16#32
  let v316 : BitVec 32 := Scalar.addi c0_i32_298 c16_i32_299
  let c1_i32_300 : BitVec 32 := 1#32
  ⟨c0_i32_298, v316, c1_i32_300⟩
def k0_off44 (k0_t22 : Fin k0_t22_loop.trips) : Fin 2 → Nat :=
  let c0_i32_298 : BitVec 32 := 0#32
  let c1_i32_300 : BitVec 32 := 1#32
  let arg7 : BitVec 32 := Scf.iv c0_i32_298 c1_i32_300 k0_t22
  let c0_i32_816 : BitVec 32 := 0#32
  ![arg7.toNat, 0]
def k0_off45 (i : grid0.Coords) (k0_t22 : Fin k0_t22_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c327680_i32 : BitVec 32 := 327680#32
  let v799 : BitVec 32 := Scalar.addi v30 c327680_i32
  let c0_i32_298 : BitVec 32 := 0#32
  let c1_i32_300 : BitVec 32 := 1#32
  let arg7 : BitVec 32 := Scf.iv c0_i32_298 c1_i32_300 k0_t22
  let c2048_i32_811 : BitVec 32 := 2048#32
  let v800 : BitVec 32 := Scalar.muli arg7 c2048_i32_811
  let v801 : BitVec 32 := Scalar.addi v799 v800
  ![v18.toNat, v801.toNat]
@[reducible] def k0_t23_loop : Scf.Loop 32 :=
  let c0_i32_319 : BitVec 32 := 0#32
  let c16_i32_320 : BitVec 32 := 16#32
  let v339 : BitVec 32 := Scalar.addi c0_i32_319 c16_i32_320
  let c1_i32_321 : BitVec 32 := 1#32
  ⟨c0_i32_319, v339, c1_i32_321⟩
def k0_off46 (k0_t23 : Fin k0_t23_loop.trips) : Fin 2 → Nat :=
  let c0_i32_319 : BitVec 32 := 0#32
  let c1_i32_321 : BitVec 32 := 1#32
  let arg7 : BitVec 32 := Scf.iv c0_i32_319 c1_i32_321 k0_t23
  let c0_i32_816 : BitVec 32 := 0#32
  ![arg7.toNat, 0]
def k0_off47 (i : grid0.Coords) (k0_t23 : Fin k0_t23_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c360448_i32 : BitVec 32 := 360448#32
  let v799 : BitVec 32 := Scalar.addi v30 c360448_i32
  let c0_i32_319 : BitVec 32 := 0#32
  let c1_i32_321 : BitVec 32 := 1#32
  let arg7 : BitVec 32 := Scf.iv c0_i32_319 c1_i32_321 k0_t23
  let c2048_i32_811 : BitVec 32 := 2048#32
  let v800 : BitVec 32 := Scalar.muli arg7 c2048_i32_811
  let v801 : BitVec 32 := Scalar.addi v799 v800
  ![v18.toNat, v801.toNat]
@[reducible] def k0_t24_loop : Scf.Loop 32 :=
  let c0_i32_323 : BitVec 32 := 0#32
  let c16_i32_324 : BitVec 32 := 16#32
  let v340 : BitVec 32 := Scalar.addi c0_i32_323 c16_i32_324
  let c1_i32_325 : BitVec 32 := 1#32
  ⟨c0_i32_323, v340, c1_i32_325⟩
def k0_off48 (k0_t24 : Fin k0_t24_loop.trips) : Fin 2 → Nat :=
  let c0_i32_323 : BitVec 32 := 0#32
  let c1_i32_325 : BitVec 32 := 1#32
  let arg7 : BitVec 32 := Scf.iv c0_i32_323 c1_i32_325 k0_t24
  let c0_i32_816 : BitVec 32 := 0#32
  ![arg7.toNat, 0]
def k0_off49 (i : grid0.Coords) (k0_t24 : Fin k0_t24_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c360448_i32 : BitVec 32 := 360448#32
  let v799 : BitVec 32 := Scalar.addi v30 c360448_i32
  let c0_i32_323 : BitVec 32 := 0#32
  let c1_i32_325 : BitVec 32 := 1#32
  let arg7 : BitVec 32 := Scf.iv c0_i32_323 c1_i32_325 k0_t24
  let c2048_i32_811 : BitVec 32 := 2048#32
  let v800 : BitVec 32 := Scalar.muli arg7 c2048_i32_811
  let v801 : BitVec 32 := Scalar.addi v799 v800
  ![v18.toNat, v801.toNat]
@[reducible] def k0_t25_loop : Scf.Loop 32 :=
  let c0_i32_344 : BitVec 32 := 0#32
  let c16_i32_345 : BitVec 32 := 16#32
  let v363 : BitVec 32 := Scalar.addi c0_i32_344 c16_i32_345
  let c1_i32_346 : BitVec 32 := 1#32
  ⟨c0_i32_344, v363, c1_i32_346⟩
def k0_off50 (k0_t25 : Fin k0_t25_loop.trips) : Fin 2 → Nat :=
  let c0_i32_344 : BitVec 32 := 0#32
  let c1_i32_346 : BitVec 32 := 1#32
  let arg7 : BitVec 32 := Scf.iv c0_i32_344 c1_i32_346 k0_t25
  let c0_i32_816 : BitVec 32 := 0#32
  ![arg7.toNat, 0]
def k0_off51 (i : grid0.Coords) (k0_t25 : Fin k0_t25_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c393216_i32 : BitVec 32 := 393216#32
  let v799 : BitVec 32 := Scalar.addi v30 c393216_i32
  let c0_i32_344 : BitVec 32 := 0#32
  let c1_i32_346 : BitVec 32 := 1#32
  let arg7 : BitVec 32 := Scf.iv c0_i32_344 c1_i32_346 k0_t25
  let c2048_i32_811 : BitVec 32 := 2048#32
  let v800 : BitVec 32 := Scalar.muli arg7 c2048_i32_811
  let v801 : BitVec 32 := Scalar.addi v799 v800
  ![v18.toNat, v801.toNat]
@[reducible] def k0_t26_loop : Scf.Loop 32 :=
  let c0_i32_348 : BitVec 32 := 0#32
  let c16_i32_349 : BitVec 32 := 16#32
  let v364 : BitVec 32 := Scalar.addi c0_i32_348 c16_i32_349
  let c1_i32_350 : BitVec 32 := 1#32
  ⟨c0_i32_348, v364, c1_i32_350⟩
def k0_off52 (k0_t26 : Fin k0_t26_loop.trips) : Fin 2 → Nat :=
  let c0_i32_348 : BitVec 32 := 0#32
  let c1_i32_350 : BitVec 32 := 1#32
  let arg7 : BitVec 32 := Scf.iv c0_i32_348 c1_i32_350 k0_t26
  let c0_i32_816 : BitVec 32 := 0#32
  ![arg7.toNat, 0]
def k0_off53 (i : grid0.Coords) (k0_t26 : Fin k0_t26_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c393216_i32 : BitVec 32 := 393216#32
  let v799 : BitVec 32 := Scalar.addi v30 c393216_i32
  let c0_i32_348 : BitVec 32 := 0#32
  let c1_i32_350 : BitVec 32 := 1#32
  let arg7 : BitVec 32 := Scf.iv c0_i32_348 c1_i32_350 k0_t26
  let c2048_i32_811 : BitVec 32 := 2048#32
  let v800 : BitVec 32 := Scalar.muli arg7 c2048_i32_811
  let v801 : BitVec 32 := Scalar.addi v799 v800
  ![v18.toNat, v801.toNat]
@[reducible] def k0_t27_loop : Scf.Loop 32 :=
  let c0_i32_369 : BitVec 32 := 0#32
  let c16_i32_370 : BitVec 32 := 16#32
  let v387 : BitVec 32 := Scalar.addi c0_i32_369 c16_i32_370
  let c1_i32_371 : BitVec 32 := 1#32
  ⟨c0_i32_369, v387, c1_i32_371⟩
def k0_off54 (k0_t27 : Fin k0_t27_loop.trips) : Fin 2 → Nat :=
  let c0_i32_369 : BitVec 32 := 0#32
  let c1_i32_371 : BitVec 32 := 1#32
  let arg7 : BitVec 32 := Scf.iv c0_i32_369 c1_i32_371 k0_t27
  let c0_i32_816 : BitVec 32 := 0#32
  ![arg7.toNat, 0]
def k0_off55 (i : grid0.Coords) (k0_t27 : Fin k0_t27_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c425984_i32 : BitVec 32 := 425984#32
  let v799 : BitVec 32 := Scalar.addi v30 c425984_i32
  let c0_i32_369 : BitVec 32 := 0#32
  let c1_i32_371 : BitVec 32 := 1#32
  let arg7 : BitVec 32 := Scf.iv c0_i32_369 c1_i32_371 k0_t27
  let c2048_i32_811 : BitVec 32 := 2048#32
  let v800 : BitVec 32 := Scalar.muli arg7 c2048_i32_811
  let v801 : BitVec 32 := Scalar.addi v799 v800
  ![v18.toNat, v801.toNat]
@[reducible] def k0_t28_loop : Scf.Loop 32 :=
  let c0_i32_373 : BitVec 32 := 0#32
  let c16_i32_374 : BitVec 32 := 16#32
  let v388 : BitVec 32 := Scalar.addi c0_i32_373 c16_i32_374
  let c1_i32_375 : BitVec 32 := 1#32
  ⟨c0_i32_373, v388, c1_i32_375⟩
def k0_off56 (k0_t28 : Fin k0_t28_loop.trips) : Fin 2 → Nat :=
  let c0_i32_373 : BitVec 32 := 0#32
  let c1_i32_375 : BitVec 32 := 1#32
  let arg7 : BitVec 32 := Scf.iv c0_i32_373 c1_i32_375 k0_t28
  let c0_i32_816 : BitVec 32 := 0#32
  ![arg7.toNat, 0]
def k0_off57 (i : grid0.Coords) (k0_t28 : Fin k0_t28_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c425984_i32 : BitVec 32 := 425984#32
  let v799 : BitVec 32 := Scalar.addi v30 c425984_i32
  let c0_i32_373 : BitVec 32 := 0#32
  let c1_i32_375 : BitVec 32 := 1#32
  let arg7 : BitVec 32 := Scf.iv c0_i32_373 c1_i32_375 k0_t28
  let c2048_i32_811 : BitVec 32 := 2048#32
  let v800 : BitVec 32 := Scalar.muli arg7 c2048_i32_811
  let v801 : BitVec 32 := Scalar.addi v799 v800
  ![v18.toNat, v801.toNat]
@[reducible] def k0_t29_loop : Scf.Loop 32 :=
  let c0_i32_394 : BitVec 32 := 0#32
  let c16_i32_395 : BitVec 32 := 16#32
  let v411 : BitVec 32 := Scalar.addi c0_i32_394 c16_i32_395
  let c1_i32_396 : BitVec 32 := 1#32
  ⟨c0_i32_394, v411, c1_i32_396⟩
def k0_off58 (k0_t29 : Fin k0_t29_loop.trips) : Fin 2 → Nat :=
  let c0_i32_394 : BitVec 32 := 0#32
  let c1_i32_396 : BitVec 32 := 1#32
  let arg7 : BitVec 32 := Scf.iv c0_i32_394 c1_i32_396 k0_t29
  let c0_i32_816 : BitVec 32 := 0#32
  ![arg7.toNat, 0]
def k0_off59 (i : grid0.Coords) (k0_t29 : Fin k0_t29_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c458752_i32 : BitVec 32 := 458752#32
  let v799 : BitVec 32 := Scalar.addi v30 c458752_i32
  let c0_i32_394 : BitVec 32 := 0#32
  let c1_i32_396 : BitVec 32 := 1#32
  let arg7 : BitVec 32 := Scf.iv c0_i32_394 c1_i32_396 k0_t29
  let c2048_i32_811 : BitVec 32 := 2048#32
  let v800 : BitVec 32 := Scalar.muli arg7 c2048_i32_811
  let v801 : BitVec 32 := Scalar.addi v799 v800
  ![v18.toNat, v801.toNat]
@[reducible] def k0_t30_loop : Scf.Loop 32 :=
  let c0_i32_398 : BitVec 32 := 0#32
  let c16_i32_399 : BitVec 32 := 16#32
  let v412 : BitVec 32 := Scalar.addi c0_i32_398 c16_i32_399
  let c1_i32_400 : BitVec 32 := 1#32
  ⟨c0_i32_398, v412, c1_i32_400⟩
def k0_off60 (k0_t30 : Fin k0_t30_loop.trips) : Fin 2 → Nat :=
  let c0_i32_398 : BitVec 32 := 0#32
  let c1_i32_400 : BitVec 32 := 1#32
  let arg7 : BitVec 32 := Scf.iv c0_i32_398 c1_i32_400 k0_t30
  let c0_i32_816 : BitVec 32 := 0#32
  ![arg7.toNat, 0]
def k0_off61 (i : grid0.Coords) (k0_t30 : Fin k0_t30_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c458752_i32 : BitVec 32 := 458752#32
  let v799 : BitVec 32 := Scalar.addi v30 c458752_i32
  let c0_i32_398 : BitVec 32 := 0#32
  let c1_i32_400 : BitVec 32 := 1#32
  let arg7 : BitVec 32 := Scf.iv c0_i32_398 c1_i32_400 k0_t30
  let c2048_i32_811 : BitVec 32 := 2048#32
  let v800 : BitVec 32 := Scalar.muli arg7 c2048_i32_811
  let v801 : BitVec 32 := Scalar.addi v799 v800
  ![v18.toNat, v801.toNat]
@[reducible] def k0_t31_loop : Scf.Loop 32 :=
  let c0_i32_419 : BitVec 32 := 0#32
  let c16_i32_420 : BitVec 32 := 16#32
  let v435 : BitVec 32 := Scalar.addi c0_i32_419 c16_i32_420
  let c1_i32_421 : BitVec 32 := 1#32
  ⟨c0_i32_419, v435, c1_i32_421⟩
def k0_off62 (k0_t31 : Fin k0_t31_loop.trips) : Fin 2 → Nat :=
  let c0_i32_419 : BitVec 32 := 0#32
  let c1_i32_421 : BitVec 32 := 1#32
  let arg7 : BitVec 32 := Scf.iv c0_i32_419 c1_i32_421 k0_t31
  let c0_i32_816 : BitVec 32 := 0#32
  ![arg7.toNat, 0]
def k0_off63 (i : grid0.Coords) (k0_t31 : Fin k0_t31_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c491520_i32 : BitVec 32 := 491520#32
  let v799 : BitVec 32 := Scalar.addi v30 c491520_i32
  let c0_i32_419 : BitVec 32 := 0#32
  let c1_i32_421 : BitVec 32 := 1#32
  let arg7 : BitVec 32 := Scf.iv c0_i32_419 c1_i32_421 k0_t31
  let c2048_i32_811 : BitVec 32 := 2048#32
  let v800 : BitVec 32 := Scalar.muli arg7 c2048_i32_811
  let v801 : BitVec 32 := Scalar.addi v799 v800
  ![v18.toNat, v801.toNat]
@[reducible] def k0_t32_loop : Scf.Loop 32 :=
  let c0_i32_423 : BitVec 32 := 0#32
  let c16_i32_424 : BitVec 32 := 16#32
  let v436 : BitVec 32 := Scalar.addi c0_i32_423 c16_i32_424
  let c1_i32_425 : BitVec 32 := 1#32
  ⟨c0_i32_423, v436, c1_i32_425⟩
def k0_off64 (k0_t32 : Fin k0_t32_loop.trips) : Fin 2 → Nat :=
  let c0_i32_423 : BitVec 32 := 0#32
  let c1_i32_425 : BitVec 32 := 1#32
  let arg7 : BitVec 32 := Scf.iv c0_i32_423 c1_i32_425 k0_t32
  let c0_i32_816 : BitVec 32 := 0#32
  ![arg7.toNat, 0]
def k0_off65 (i : grid0.Coords) (k0_t32 : Fin k0_t32_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c491520_i32 : BitVec 32 := 491520#32
  let v799 : BitVec 32 := Scalar.addi v30 c491520_i32
  let c0_i32_423 : BitVec 32 := 0#32
  let c1_i32_425 : BitVec 32 := 1#32
  let arg7 : BitVec 32 := Scf.iv c0_i32_423 c1_i32_425 k0_t32
  let c2048_i32_811 : BitVec 32 := 2048#32
  let v800 : BitVec 32 := Scalar.muli arg7 c2048_i32_811
  let v801 : BitVec 32 := Scalar.addi v799 v800
  ![v18.toNat, v801.toNat]
@[reducible] def k0_t33_loop : Scf.Loop 32 :=
  let c0_i32_444 : BitVec 32 := 0#32
  let c16_i32_445 : BitVec 32 := 16#32
  let v459 : BitVec 32 := Scalar.addi c0_i32_444 c16_i32_445
  let c1_i32_446 : BitVec 32 := 1#32
  ⟨c0_i32_444, v459, c1_i32_446⟩
def k0_off66 (k0_t33 : Fin k0_t33_loop.trips) : Fin 2 → Nat :=
  let c0_i32_444 : BitVec 32 := 0#32
  let c1_i32_446 : BitVec 32 := 1#32
  let arg7 : BitVec 32 := Scf.iv c0_i32_444 c1_i32_446 k0_t33
  let c0_i32_816 : BitVec 32 := 0#32
  ![arg7.toNat, 0]
def k0_off67 (i : grid0.Coords) (k0_t33 : Fin k0_t33_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c524288_i32 : BitVec 32 := 524288#32
  let v799 : BitVec 32 := Scalar.addi v30 c524288_i32
  let c0_i32_444 : BitVec 32 := 0#32
  let c1_i32_446 : BitVec 32 := 1#32
  let arg7 : BitVec 32 := Scf.iv c0_i32_444 c1_i32_446 k0_t33
  let c2048_i32_811 : BitVec 32 := 2048#32
  let v800 : BitVec 32 := Scalar.muli arg7 c2048_i32_811
  let v801 : BitVec 32 := Scalar.addi v799 v800
  ![v18.toNat, v801.toNat]
@[reducible] def k0_t34_loop : Scf.Loop 32 :=
  let c0_i32_448 : BitVec 32 := 0#32
  let c16_i32_449 : BitVec 32 := 16#32
  let v460 : BitVec 32 := Scalar.addi c0_i32_448 c16_i32_449
  let c1_i32_450 : BitVec 32 := 1#32
  ⟨c0_i32_448, v460, c1_i32_450⟩
def k0_off68 (k0_t34 : Fin k0_t34_loop.trips) : Fin 2 → Nat :=
  let c0_i32_448 : BitVec 32 := 0#32
  let c1_i32_450 : BitVec 32 := 1#32
  let arg7 : BitVec 32 := Scf.iv c0_i32_448 c1_i32_450 k0_t34
  let c0_i32_816 : BitVec 32 := 0#32
  ![arg7.toNat, 0]
def k0_off69 (i : grid0.Coords) (k0_t34 : Fin k0_t34_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c524288_i32 : BitVec 32 := 524288#32
  let v799 : BitVec 32 := Scalar.addi v30 c524288_i32
  let c0_i32_448 : BitVec 32 := 0#32
  let c1_i32_450 : BitVec 32 := 1#32
  let arg7 : BitVec 32 := Scf.iv c0_i32_448 c1_i32_450 k0_t34
  let c2048_i32_811 : BitVec 32 := 2048#32
  let v800 : BitVec 32 := Scalar.muli arg7 c2048_i32_811
  let v801 : BitVec 32 := Scalar.addi v799 v800
  ![v18.toNat, v801.toNat]
@[reducible] def k0_t35_loop : Scf.Loop 32 :=
  let c0_i32_469 : BitVec 32 := 0#32
  let c16_i32_470 : BitVec 32 := 16#32
  let v483 : BitVec 32 := Scalar.addi c0_i32_469 c16_i32_470
  let c1_i32_471 : BitVec 32 := 1#32
  ⟨c0_i32_469, v483, c1_i32_471⟩
def k0_off70 (k0_t35 : Fin k0_t35_loop.trips) : Fin 2 → Nat :=
  let c0_i32_469 : BitVec 32 := 0#32
  let c1_i32_471 : BitVec 32 := 1#32
  let arg7 : BitVec 32 := Scf.iv c0_i32_469 c1_i32_471 k0_t35
  let c0_i32_816 : BitVec 32 := 0#32
  ![arg7.toNat, 0]
def k0_off71 (i : grid0.Coords) (k0_t35 : Fin k0_t35_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c557056_i32 : BitVec 32 := 557056#32
  let v799 : BitVec 32 := Scalar.addi v30 c557056_i32
  let c0_i32_469 : BitVec 32 := 0#32
  let c1_i32_471 : BitVec 32 := 1#32
  let arg7 : BitVec 32 := Scf.iv c0_i32_469 c1_i32_471 k0_t35
  let c2048_i32_811 : BitVec 32 := 2048#32
  let v800 : BitVec 32 := Scalar.muli arg7 c2048_i32_811
  let v801 : BitVec 32 := Scalar.addi v799 v800
  ![v18.toNat, v801.toNat]
@[reducible] def k0_t36_loop : Scf.Loop 32 :=
  let c0_i32_473 : BitVec 32 := 0#32
  let c16_i32_474 : BitVec 32 := 16#32
  let v484 : BitVec 32 := Scalar.addi c0_i32_473 c16_i32_474
  let c1_i32_475 : BitVec 32 := 1#32
  ⟨c0_i32_473, v484, c1_i32_475⟩
def k0_off72 (k0_t36 : Fin k0_t36_loop.trips) : Fin 2 → Nat :=
  let c0_i32_473 : BitVec 32 := 0#32
  let c1_i32_475 : BitVec 32 := 1#32
  let arg7 : BitVec 32 := Scf.iv c0_i32_473 c1_i32_475 k0_t36
  let c0_i32_816 : BitVec 32 := 0#32
  ![arg7.toNat, 0]
def k0_off73 (i : grid0.Coords) (k0_t36 : Fin k0_t36_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c557056_i32 : BitVec 32 := 557056#32
  let v799 : BitVec 32 := Scalar.addi v30 c557056_i32
  let c0_i32_473 : BitVec 32 := 0#32
  let c1_i32_475 : BitVec 32 := 1#32
  let arg7 : BitVec 32 := Scf.iv c0_i32_473 c1_i32_475 k0_t36
  let c2048_i32_811 : BitVec 32 := 2048#32
  let v800 : BitVec 32 := Scalar.muli arg7 c2048_i32_811
  let v801 : BitVec 32 := Scalar.addi v799 v800
  ![v18.toNat, v801.toNat]
@[reducible] def k0_t37_loop : Scf.Loop 32 :=
  let c0_i32_494 : BitVec 32 := 0#32
  let c16_i32_495 : BitVec 32 := 16#32
  let v507 : BitVec 32 := Scalar.addi c0_i32_494 c16_i32_495
  let c1_i32_496 : BitVec 32 := 1#32
  ⟨c0_i32_494, v507, c1_i32_496⟩
def k0_off74 (k0_t37 : Fin k0_t37_loop.trips) : Fin 2 → Nat :=
  let c0_i32_494 : BitVec 32 := 0#32
  let c1_i32_496 : BitVec 32 := 1#32
  let arg7 : BitVec 32 := Scf.iv c0_i32_494 c1_i32_496 k0_t37
  let c0_i32_816 : BitVec 32 := 0#32
  ![arg7.toNat, 0]
def k0_off75 (i : grid0.Coords) (k0_t37 : Fin k0_t37_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c589824_i32 : BitVec 32 := 589824#32
  let v799 : BitVec 32 := Scalar.addi v30 c589824_i32
  let c0_i32_494 : BitVec 32 := 0#32
  let c1_i32_496 : BitVec 32 := 1#32
  let arg7 : BitVec 32 := Scf.iv c0_i32_494 c1_i32_496 k0_t37
  let c2048_i32_811 : BitVec 32 := 2048#32
  let v800 : BitVec 32 := Scalar.muli arg7 c2048_i32_811
  let v801 : BitVec 32 := Scalar.addi v799 v800
  ![v18.toNat, v801.toNat]
@[reducible] def k0_t38_loop : Scf.Loop 32 :=
  let c0_i32_498 : BitVec 32 := 0#32
  let c16_i32_499 : BitVec 32 := 16#32
  let v508 : BitVec 32 := Scalar.addi c0_i32_498 c16_i32_499
  let c1_i32_500 : BitVec 32 := 1#32
  ⟨c0_i32_498, v508, c1_i32_500⟩
def k0_off76 (k0_t38 : Fin k0_t38_loop.trips) : Fin 2 → Nat :=
  let c0_i32_498 : BitVec 32 := 0#32
  let c1_i32_500 : BitVec 32 := 1#32
  let arg7 : BitVec 32 := Scf.iv c0_i32_498 c1_i32_500 k0_t38
  let c0_i32_816 : BitVec 32 := 0#32
  ![arg7.toNat, 0]
def k0_off77 (i : grid0.Coords) (k0_t38 : Fin k0_t38_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c589824_i32 : BitVec 32 := 589824#32
  let v799 : BitVec 32 := Scalar.addi v30 c589824_i32
  let c0_i32_498 : BitVec 32 := 0#32
  let c1_i32_500 : BitVec 32 := 1#32
  let arg7 : BitVec 32 := Scf.iv c0_i32_498 c1_i32_500 k0_t38
  let c2048_i32_811 : BitVec 32 := 2048#32
  let v800 : BitVec 32 := Scalar.muli arg7 c2048_i32_811
  let v801 : BitVec 32 := Scalar.addi v799 v800
  ![v18.toNat, v801.toNat]
@[reducible] def k0_t39_loop : Scf.Loop 32 :=
  let c0_i32_519 : BitVec 32 := 0#32
  let c16_i32_520 : BitVec 32 := 16#32
  let v531 : BitVec 32 := Scalar.addi c0_i32_519 c16_i32_520
  let c1_i32_521 : BitVec 32 := 1#32
  ⟨c0_i32_519, v531, c1_i32_521⟩
def k0_off78 (k0_t39 : Fin k0_t39_loop.trips) : Fin 2 → Nat :=
  let c0_i32_519 : BitVec 32 := 0#32
  let c1_i32_521 : BitVec 32 := 1#32
  let arg7 : BitVec 32 := Scf.iv c0_i32_519 c1_i32_521 k0_t39
  let c0_i32_816 : BitVec 32 := 0#32
  ![arg7.toNat, 0]
def k0_off79 (i : grid0.Coords) (k0_t39 : Fin k0_t39_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c622592_i32 : BitVec 32 := 622592#32
  let v799 : BitVec 32 := Scalar.addi v30 c622592_i32
  let c0_i32_519 : BitVec 32 := 0#32
  let c1_i32_521 : BitVec 32 := 1#32
  let arg7 : BitVec 32 := Scf.iv c0_i32_519 c1_i32_521 k0_t39
  let c2048_i32_811 : BitVec 32 := 2048#32
  let v800 : BitVec 32 := Scalar.muli arg7 c2048_i32_811
  let v801 : BitVec 32 := Scalar.addi v799 v800
  ![v18.toNat, v801.toNat]
@[reducible] def k0_t40_loop : Scf.Loop 32 :=
  let c0_i32_523 : BitVec 32 := 0#32
  let c16_i32_524 : BitVec 32 := 16#32
  let v532 : BitVec 32 := Scalar.addi c0_i32_523 c16_i32_524
  let c1_i32_525 : BitVec 32 := 1#32
  ⟨c0_i32_523, v532, c1_i32_525⟩
def k0_off80 (k0_t40 : Fin k0_t40_loop.trips) : Fin 2 → Nat :=
  let c0_i32_523 : BitVec 32 := 0#32
  let c1_i32_525 : BitVec 32 := 1#32
  let arg7 : BitVec 32 := Scf.iv c0_i32_523 c1_i32_525 k0_t40
  let c0_i32_816 : BitVec 32 := 0#32
  ![arg7.toNat, 0]
def k0_off81 (i : grid0.Coords) (k0_t40 : Fin k0_t40_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c622592_i32 : BitVec 32 := 622592#32
  let v799 : BitVec 32 := Scalar.addi v30 c622592_i32
  let c0_i32_523 : BitVec 32 := 0#32
  let c1_i32_525 : BitVec 32 := 1#32
  let arg7 : BitVec 32 := Scf.iv c0_i32_523 c1_i32_525 k0_t40
  let c2048_i32_811 : BitVec 32 := 2048#32
  let v800 : BitVec 32 := Scalar.muli arg7 c2048_i32_811
  let v801 : BitVec 32 := Scalar.addi v799 v800
  ![v18.toNat, v801.toNat]
@[reducible] def k0_t41_loop : Scf.Loop 32 :=
  let c0_i32_544 : BitVec 32 := 0#32
  let c16_i32_545 : BitVec 32 := 16#32
  let v555 : BitVec 32 := Scalar.addi c0_i32_544 c16_i32_545
  let c1_i32_546 : BitVec 32 := 1#32
  ⟨c0_i32_544, v555, c1_i32_546⟩
def k0_off82 (k0_t41 : Fin k0_t41_loop.trips) : Fin 2 → Nat :=
  let c0_i32_544 : BitVec 32 := 0#32
  let c1_i32_546 : BitVec 32 := 1#32
  let arg7 : BitVec 32 := Scf.iv c0_i32_544 c1_i32_546 k0_t41
  let c0_i32_816 : BitVec 32 := 0#32
  ![arg7.toNat, 0]
def k0_off83 (i : grid0.Coords) (k0_t41 : Fin k0_t41_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c655360_i32 : BitVec 32 := 655360#32
  let v799 : BitVec 32 := Scalar.addi v30 c655360_i32
  let c0_i32_544 : BitVec 32 := 0#32
  let c1_i32_546 : BitVec 32 := 1#32
  let arg7 : BitVec 32 := Scf.iv c0_i32_544 c1_i32_546 k0_t41
  let c2048_i32_811 : BitVec 32 := 2048#32
  let v800 : BitVec 32 := Scalar.muli arg7 c2048_i32_811
  let v801 : BitVec 32 := Scalar.addi v799 v800
  ![v18.toNat, v801.toNat]
@[reducible] def k0_t42_loop : Scf.Loop 32 :=
  let c0_i32_548 : BitVec 32 := 0#32
  let c16_i32_549 : BitVec 32 := 16#32
  let v556 : BitVec 32 := Scalar.addi c0_i32_548 c16_i32_549
  let c1_i32_550 : BitVec 32 := 1#32
  ⟨c0_i32_548, v556, c1_i32_550⟩
def k0_off84 (k0_t42 : Fin k0_t42_loop.trips) : Fin 2 → Nat :=
  let c0_i32_548 : BitVec 32 := 0#32
  let c1_i32_550 : BitVec 32 := 1#32
  let arg7 : BitVec 32 := Scf.iv c0_i32_548 c1_i32_550 k0_t42
  let c0_i32_816 : BitVec 32 := 0#32
  ![arg7.toNat, 0]
def k0_off85 (i : grid0.Coords) (k0_t42 : Fin k0_t42_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c655360_i32 : BitVec 32 := 655360#32
  let v799 : BitVec 32 := Scalar.addi v30 c655360_i32
  let c0_i32_548 : BitVec 32 := 0#32
  let c1_i32_550 : BitVec 32 := 1#32
  let arg7 : BitVec 32 := Scf.iv c0_i32_548 c1_i32_550 k0_t42
  let c2048_i32_811 : BitVec 32 := 2048#32
  let v800 : BitVec 32 := Scalar.muli arg7 c2048_i32_811
  let v801 : BitVec 32 := Scalar.addi v799 v800
  ![v18.toNat, v801.toNat]
@[reducible] def k0_t43_loop : Scf.Loop 32 :=
  let c0_i32_569 : BitVec 32 := 0#32
  let c16_i32_570 : BitVec 32 := 16#32
  let v579 : BitVec 32 := Scalar.addi c0_i32_569 c16_i32_570
  let c1_i32_571 : BitVec 32 := 1#32
  ⟨c0_i32_569, v579, c1_i32_571⟩
def k0_off86 (k0_t43 : Fin k0_t43_loop.trips) : Fin 2 → Nat :=
  let c0_i32_569 : BitVec 32 := 0#32
  let c1_i32_571 : BitVec 32 := 1#32
  let arg7 : BitVec 32 := Scf.iv c0_i32_569 c1_i32_571 k0_t43
  let c0_i32_816 : BitVec 32 := 0#32
  ![arg7.toNat, 0]
def k0_off87 (i : grid0.Coords) (k0_t43 : Fin k0_t43_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c688128_i32 : BitVec 32 := 688128#32
  let v799 : BitVec 32 := Scalar.addi v30 c688128_i32
  let c0_i32_569 : BitVec 32 := 0#32
  let c1_i32_571 : BitVec 32 := 1#32
  let arg7 : BitVec 32 := Scf.iv c0_i32_569 c1_i32_571 k0_t43
  let c2048_i32_811 : BitVec 32 := 2048#32
  let v800 : BitVec 32 := Scalar.muli arg7 c2048_i32_811
  let v801 : BitVec 32 := Scalar.addi v799 v800
  ![v18.toNat, v801.toNat]
@[reducible] def k0_t44_loop : Scf.Loop 32 :=
  let c0_i32_573 : BitVec 32 := 0#32
  let c16_i32_574 : BitVec 32 := 16#32
  let v580 : BitVec 32 := Scalar.addi c0_i32_573 c16_i32_574
  let c1_i32_575 : BitVec 32 := 1#32
  ⟨c0_i32_573, v580, c1_i32_575⟩
def k0_off88 (k0_t44 : Fin k0_t44_loop.trips) : Fin 2 → Nat :=
  let c0_i32_573 : BitVec 32 := 0#32
  let c1_i32_575 : BitVec 32 := 1#32
  let arg7 : BitVec 32 := Scf.iv c0_i32_573 c1_i32_575 k0_t44
  let c0_i32_816 : BitVec 32 := 0#32
  ![arg7.toNat, 0]
def k0_off89 (i : grid0.Coords) (k0_t44 : Fin k0_t44_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c688128_i32 : BitVec 32 := 688128#32
  let v799 : BitVec 32 := Scalar.addi v30 c688128_i32
  let c0_i32_573 : BitVec 32 := 0#32
  let c1_i32_575 : BitVec 32 := 1#32
  let arg7 : BitVec 32 := Scf.iv c0_i32_573 c1_i32_575 k0_t44
  let c2048_i32_811 : BitVec 32 := 2048#32
  let v800 : BitVec 32 := Scalar.muli arg7 c2048_i32_811
  let v801 : BitVec 32 := Scalar.addi v799 v800
  ![v18.toNat, v801.toNat]
@[reducible] def k0_t45_loop : Scf.Loop 32 :=
  let c0_i32_594 : BitVec 32 := 0#32
  let c16_i32_595 : BitVec 32 := 16#32
  let v603 : BitVec 32 := Scalar.addi c0_i32_594 c16_i32_595
  let c1_i32_596 : BitVec 32 := 1#32
  ⟨c0_i32_594, v603, c1_i32_596⟩
def k0_off90 (k0_t45 : Fin k0_t45_loop.trips) : Fin 2 → Nat :=
  let c0_i32_594 : BitVec 32 := 0#32
  let c1_i32_596 : BitVec 32 := 1#32
  let arg7 : BitVec 32 := Scf.iv c0_i32_594 c1_i32_596 k0_t45
  let c0_i32_816 : BitVec 32 := 0#32
  ![arg7.toNat, 0]
def k0_off91 (i : grid0.Coords) (k0_t45 : Fin k0_t45_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c720896_i32 : BitVec 32 := 720896#32
  let v799 : BitVec 32 := Scalar.addi v30 c720896_i32
  let c0_i32_594 : BitVec 32 := 0#32
  let c1_i32_596 : BitVec 32 := 1#32
  let arg7 : BitVec 32 := Scf.iv c0_i32_594 c1_i32_596 k0_t45
  let c2048_i32_811 : BitVec 32 := 2048#32
  let v800 : BitVec 32 := Scalar.muli arg7 c2048_i32_811
  let v801 : BitVec 32 := Scalar.addi v799 v800
  ![v18.toNat, v801.toNat]
@[reducible] def k0_t46_loop : Scf.Loop 32 :=
  let c0_i32_598 : BitVec 32 := 0#32
  let c16_i32_599 : BitVec 32 := 16#32
  let v604 : BitVec 32 := Scalar.addi c0_i32_598 c16_i32_599
  let c1_i32_600 : BitVec 32 := 1#32
  ⟨c0_i32_598, v604, c1_i32_600⟩
def k0_off92 (k0_t46 : Fin k0_t46_loop.trips) : Fin 2 → Nat :=
  let c0_i32_598 : BitVec 32 := 0#32
  let c1_i32_600 : BitVec 32 := 1#32
  let arg7 : BitVec 32 := Scf.iv c0_i32_598 c1_i32_600 k0_t46
  let c0_i32_816 : BitVec 32 := 0#32
  ![arg7.toNat, 0]
def k0_off93 (i : grid0.Coords) (k0_t46 : Fin k0_t46_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c720896_i32 : BitVec 32 := 720896#32
  let v799 : BitVec 32 := Scalar.addi v30 c720896_i32
  let c0_i32_598 : BitVec 32 := 0#32
  let c1_i32_600 : BitVec 32 := 1#32
  let arg7 : BitVec 32 := Scf.iv c0_i32_598 c1_i32_600 k0_t46
  let c2048_i32_811 : BitVec 32 := 2048#32
  let v800 : BitVec 32 := Scalar.muli arg7 c2048_i32_811
  let v801 : BitVec 32 := Scalar.addi v799 v800
  ![v18.toNat, v801.toNat]
@[reducible] def k0_t47_loop : Scf.Loop 32 :=
  let c0_i32_619 : BitVec 32 := 0#32
  let c16_i32_620 : BitVec 32 := 16#32
  let v627 : BitVec 32 := Scalar.addi c0_i32_619 c16_i32_620
  let c1_i32_621 : BitVec 32 := 1#32
  ⟨c0_i32_619, v627, c1_i32_621⟩
def k0_off94 (k0_t47 : Fin k0_t47_loop.trips) : Fin 2 → Nat :=
  let c0_i32_619 : BitVec 32 := 0#32
  let c1_i32_621 : BitVec 32 := 1#32
  let arg7 : BitVec 32 := Scf.iv c0_i32_619 c1_i32_621 k0_t47
  let c0_i32_816 : BitVec 32 := 0#32
  ![arg7.toNat, 0]
def k0_off95 (i : grid0.Coords) (k0_t47 : Fin k0_t47_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c753664_i32 : BitVec 32 := 753664#32
  let v799 : BitVec 32 := Scalar.addi v30 c753664_i32
  let c0_i32_619 : BitVec 32 := 0#32
  let c1_i32_621 : BitVec 32 := 1#32
  let arg7 : BitVec 32 := Scf.iv c0_i32_619 c1_i32_621 k0_t47
  let c2048_i32_811 : BitVec 32 := 2048#32
  let v800 : BitVec 32 := Scalar.muli arg7 c2048_i32_811
  let v801 : BitVec 32 := Scalar.addi v799 v800
  ![v18.toNat, v801.toNat]
@[reducible] def k0_t48_loop : Scf.Loop 32 :=
  let c0_i32_623 : BitVec 32 := 0#32
  let c16_i32_624 : BitVec 32 := 16#32
  let v628 : BitVec 32 := Scalar.addi c0_i32_623 c16_i32_624
  let c1_i32_625 : BitVec 32 := 1#32
  ⟨c0_i32_623, v628, c1_i32_625⟩
def k0_off96 (k0_t48 : Fin k0_t48_loop.trips) : Fin 2 → Nat :=
  let c0_i32_623 : BitVec 32 := 0#32
  let c1_i32_625 : BitVec 32 := 1#32
  let arg7 : BitVec 32 := Scf.iv c0_i32_623 c1_i32_625 k0_t48
  let c0_i32_816 : BitVec 32 := 0#32
  ![arg7.toNat, 0]
def k0_off97 (i : grid0.Coords) (k0_t48 : Fin k0_t48_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c753664_i32 : BitVec 32 := 753664#32
  let v799 : BitVec 32 := Scalar.addi v30 c753664_i32
  let c0_i32_623 : BitVec 32 := 0#32
  let c1_i32_625 : BitVec 32 := 1#32
  let arg7 : BitVec 32 := Scf.iv c0_i32_623 c1_i32_625 k0_t48
  let c2048_i32_811 : BitVec 32 := 2048#32
  let v800 : BitVec 32 := Scalar.muli arg7 c2048_i32_811
  let v801 : BitVec 32 := Scalar.addi v799 v800
  ![v18.toNat, v801.toNat]
@[reducible] def k0_t49_loop : Scf.Loop 32 :=
  let c0_i32_644 : BitVec 32 := 0#32
  let c16_i32_645 : BitVec 32 := 16#32
  let v651 : BitVec 32 := Scalar.addi c0_i32_644 c16_i32_645
  let c1_i32_646 : BitVec 32 := 1#32
  ⟨c0_i32_644, v651, c1_i32_646⟩
def k0_off98 (k0_t49 : Fin k0_t49_loop.trips) : Fin 2 → Nat :=
  let c0_i32_644 : BitVec 32 := 0#32
  let c1_i32_646 : BitVec 32 := 1#32
  let arg7 : BitVec 32 := Scf.iv c0_i32_644 c1_i32_646 k0_t49
  let c0_i32_816 : BitVec 32 := 0#32
  ![arg7.toNat, 0]
def k0_off99 (i : grid0.Coords) (k0_t49 : Fin k0_t49_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c786432_i32 : BitVec 32 := 786432#32
  let v799 : BitVec 32 := Scalar.addi v30 c786432_i32
  let c0_i32_644 : BitVec 32 := 0#32
  let c1_i32_646 : BitVec 32 := 1#32
  let arg7 : BitVec 32 := Scf.iv c0_i32_644 c1_i32_646 k0_t49
  let c2048_i32_811 : BitVec 32 := 2048#32
  let v800 : BitVec 32 := Scalar.muli arg7 c2048_i32_811
  let v801 : BitVec 32 := Scalar.addi v799 v800
  ![v18.toNat, v801.toNat]
@[reducible] def k0_t50_loop : Scf.Loop 32 :=
  let c0_i32_648 : BitVec 32 := 0#32
  let c16_i32_649 : BitVec 32 := 16#32
  let v652 : BitVec 32 := Scalar.addi c0_i32_648 c16_i32_649
  let c1_i32_650 : BitVec 32 := 1#32
  ⟨c0_i32_648, v652, c1_i32_650⟩
def k0_off100 (k0_t50 : Fin k0_t50_loop.trips) : Fin 2 → Nat :=
  let c0_i32_648 : BitVec 32 := 0#32
  let c1_i32_650 : BitVec 32 := 1#32
  let arg7 : BitVec 32 := Scf.iv c0_i32_648 c1_i32_650 k0_t50
  let c0_i32_816 : BitVec 32 := 0#32
  ![arg7.toNat, 0]
def k0_off101 (i : grid0.Coords) (k0_t50 : Fin k0_t50_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c786432_i32 : BitVec 32 := 786432#32
  let v799 : BitVec 32 := Scalar.addi v30 c786432_i32
  let c0_i32_648 : BitVec 32 := 0#32
  let c1_i32_650 : BitVec 32 := 1#32
  let arg7 : BitVec 32 := Scf.iv c0_i32_648 c1_i32_650 k0_t50
  let c2048_i32_811 : BitVec 32 := 2048#32
  let v800 : BitVec 32 := Scalar.muli arg7 c2048_i32_811
  let v801 : BitVec 32 := Scalar.addi v799 v800
  ![v18.toNat, v801.toNat]
@[reducible] def k0_t51_loop : Scf.Loop 32 :=
  let c0_i32_669 : BitVec 32 := 0#32
  let c16_i32_670 : BitVec 32 := 16#32
  let v675 : BitVec 32 := Scalar.addi c0_i32_669 c16_i32_670
  let c1_i32_671 : BitVec 32 := 1#32
  ⟨c0_i32_669, v675, c1_i32_671⟩
def k0_off102 (k0_t51 : Fin k0_t51_loop.trips) : Fin 2 → Nat :=
  let c0_i32_669 : BitVec 32 := 0#32
  let c1_i32_671 : BitVec 32 := 1#32
  let arg7 : BitVec 32 := Scf.iv c0_i32_669 c1_i32_671 k0_t51
  let c0_i32_816 : BitVec 32 := 0#32
  ![arg7.toNat, 0]
def k0_off103 (i : grid0.Coords) (k0_t51 : Fin k0_t51_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c819200_i32 : BitVec 32 := 819200#32
  let v799 : BitVec 32 := Scalar.addi v30 c819200_i32
  let c0_i32_669 : BitVec 32 := 0#32
  let c1_i32_671 : BitVec 32 := 1#32
  let arg7 : BitVec 32 := Scf.iv c0_i32_669 c1_i32_671 k0_t51
  let c2048_i32_811 : BitVec 32 := 2048#32
  let v800 : BitVec 32 := Scalar.muli arg7 c2048_i32_811
  let v801 : BitVec 32 := Scalar.addi v799 v800
  ![v18.toNat, v801.toNat]
@[reducible] def k0_t52_loop : Scf.Loop 32 :=
  let c0_i32_673 : BitVec 32 := 0#32
  let c16_i32_674 : BitVec 32 := 16#32
  let v676 : BitVec 32 := Scalar.addi c0_i32_673 c16_i32_674
  let c1_i32_675 : BitVec 32 := 1#32
  ⟨c0_i32_673, v676, c1_i32_675⟩
def k0_off104 (k0_t52 : Fin k0_t52_loop.trips) : Fin 2 → Nat :=
  let c0_i32_673 : BitVec 32 := 0#32
  let c1_i32_675 : BitVec 32 := 1#32
  let arg7 : BitVec 32 := Scf.iv c0_i32_673 c1_i32_675 k0_t52
  let c0_i32_816 : BitVec 32 := 0#32
  ![arg7.toNat, 0]
def k0_off105 (i : grid0.Coords) (k0_t52 : Fin k0_t52_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c819200_i32 : BitVec 32 := 819200#32
  let v799 : BitVec 32 := Scalar.addi v30 c819200_i32
  let c0_i32_673 : BitVec 32 := 0#32
  let c1_i32_675 : BitVec 32 := 1#32
  let arg7 : BitVec 32 := Scf.iv c0_i32_673 c1_i32_675 k0_t52
  let c2048_i32_811 : BitVec 32 := 2048#32
  let v800 : BitVec 32 := Scalar.muli arg7 c2048_i32_811
  let v801 : BitVec 32 := Scalar.addi v799 v800
  ![v18.toNat, v801.toNat]
@[reducible] def k0_t53_loop : Scf.Loop 32 :=
  let c0_i32_694 : BitVec 32 := 0#32
  let c16_i32_695 : BitVec 32 := 16#32
  let v699 : BitVec 32 := Scalar.addi c0_i32_694 c16_i32_695
  let c1_i32_696 : BitVec 32 := 1#32
  ⟨c0_i32_694, v699, c1_i32_696⟩
def k0_off106 (k0_t53 : Fin k0_t53_loop.trips) : Fin 2 → Nat :=
  let c0_i32_694 : BitVec 32 := 0#32
  let c1_i32_696 : BitVec 32 := 1#32
  let arg7 : BitVec 32 := Scf.iv c0_i32_694 c1_i32_696 k0_t53
  let c0_i32_816 : BitVec 32 := 0#32
  ![arg7.toNat, 0]
def k0_off107 (i : grid0.Coords) (k0_t53 : Fin k0_t53_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c851968_i32 : BitVec 32 := 851968#32
  let v799 : BitVec 32 := Scalar.addi v30 c851968_i32
  let c0_i32_694 : BitVec 32 := 0#32
  let c1_i32_696 : BitVec 32 := 1#32
  let arg7 : BitVec 32 := Scf.iv c0_i32_694 c1_i32_696 k0_t53
  let c2048_i32_811 : BitVec 32 := 2048#32
  let v800 : BitVec 32 := Scalar.muli arg7 c2048_i32_811
  let v801 : BitVec 32 := Scalar.addi v799 v800
  ![v18.toNat, v801.toNat]
@[reducible] def k0_t54_loop : Scf.Loop 32 :=
  let c0_i32_698 : BitVec 32 := 0#32
  let c16_i32_699 : BitVec 32 := 16#32
  let v700 : BitVec 32 := Scalar.addi c0_i32_698 c16_i32_699
  let c1_i32_700 : BitVec 32 := 1#32
  ⟨c0_i32_698, v700, c1_i32_700⟩
def k0_off108 (k0_t54 : Fin k0_t54_loop.trips) : Fin 2 → Nat :=
  let c0_i32_698 : BitVec 32 := 0#32
  let c1_i32_700 : BitVec 32 := 1#32
  let arg7 : BitVec 32 := Scf.iv c0_i32_698 c1_i32_700 k0_t54
  let c0_i32_816 : BitVec 32 := 0#32
  ![arg7.toNat, 0]
def k0_off109 (i : grid0.Coords) (k0_t54 : Fin k0_t54_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c851968_i32 : BitVec 32 := 851968#32
  let v799 : BitVec 32 := Scalar.addi v30 c851968_i32
  let c0_i32_698 : BitVec 32 := 0#32
  let c1_i32_700 : BitVec 32 := 1#32
  let arg7 : BitVec 32 := Scf.iv c0_i32_698 c1_i32_700 k0_t54
  let c2048_i32_811 : BitVec 32 := 2048#32
  let v800 : BitVec 32 := Scalar.muli arg7 c2048_i32_811
  let v801 : BitVec 32 := Scalar.addi v799 v800
  ![v18.toNat, v801.toNat]
@[reducible] def k0_t55_loop : Scf.Loop 32 :=
  let c0_i32_719 : BitVec 32 := 0#32
  let c16_i32_720 : BitVec 32 := 16#32
  let v723 : BitVec 32 := Scalar.addi c0_i32_719 c16_i32_720
  let c1_i32_721 : BitVec 32 := 1#32
  ⟨c0_i32_719, v723, c1_i32_721⟩
def k0_off110 (k0_t55 : Fin k0_t55_loop.trips) : Fin 2 → Nat :=
  let c0_i32_719 : BitVec 32 := 0#32
  let c1_i32_721 : BitVec 32 := 1#32
  let arg7 : BitVec 32 := Scf.iv c0_i32_719 c1_i32_721 k0_t55
  let c0_i32_816 : BitVec 32 := 0#32
  ![arg7.toNat, 0]
def k0_off111 (i : grid0.Coords) (k0_t55 : Fin k0_t55_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c884736_i32 : BitVec 32 := 884736#32
  let v799 : BitVec 32 := Scalar.addi v30 c884736_i32
  let c0_i32_719 : BitVec 32 := 0#32
  let c1_i32_721 : BitVec 32 := 1#32
  let arg7 : BitVec 32 := Scf.iv c0_i32_719 c1_i32_721 k0_t55
  let c2048_i32_811 : BitVec 32 := 2048#32
  let v800 : BitVec 32 := Scalar.muli arg7 c2048_i32_811
  let v801 : BitVec 32 := Scalar.addi v799 v800
  ![v18.toNat, v801.toNat]
@[reducible] def k0_t56_loop : Scf.Loop 32 :=
  let c0_i32_723 : BitVec 32 := 0#32
  let c16_i32_724 : BitVec 32 := 16#32
  let v724 : BitVec 32 := Scalar.addi c0_i32_723 c16_i32_724
  let c1_i32_725 : BitVec 32 := 1#32
  ⟨c0_i32_723, v724, c1_i32_725⟩
def k0_off112 (k0_t56 : Fin k0_t56_loop.trips) : Fin 2 → Nat :=
  let c0_i32_723 : BitVec 32 := 0#32
  let c1_i32_725 : BitVec 32 := 1#32
  let arg7 : BitVec 32 := Scf.iv c0_i32_723 c1_i32_725 k0_t56
  let c0_i32_816 : BitVec 32 := 0#32
  ![arg7.toNat, 0]
def k0_off113 (i : grid0.Coords) (k0_t56 : Fin k0_t56_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c884736_i32 : BitVec 32 := 884736#32
  let v799 : BitVec 32 := Scalar.addi v30 c884736_i32
  let c0_i32_723 : BitVec 32 := 0#32
  let c1_i32_725 : BitVec 32 := 1#32
  let arg7 : BitVec 32 := Scf.iv c0_i32_723 c1_i32_725 k0_t56
  let c2048_i32_811 : BitVec 32 := 2048#32
  let v800 : BitVec 32 := Scalar.muli arg7 c2048_i32_811
  let v801 : BitVec 32 := Scalar.addi v799 v800
  ![v18.toNat, v801.toNat]
@[reducible] def k0_t57_loop : Scf.Loop 32 :=
  let c0_i32_744 : BitVec 32 := 0#32
  let c16_i32_745 : BitVec 32 := 16#32
  let v747 : BitVec 32 := Scalar.addi c0_i32_744 c16_i32_745
  let c1_i32_746 : BitVec 32 := 1#32
  ⟨c0_i32_744, v747, c1_i32_746⟩
def k0_off114 (k0_t57 : Fin k0_t57_loop.trips) : Fin 2 → Nat :=
  let c0_i32_744 : BitVec 32 := 0#32
  let c1_i32_746 : BitVec 32 := 1#32
  let arg7 : BitVec 32 := Scf.iv c0_i32_744 c1_i32_746 k0_t57
  let c0_i32_816 : BitVec 32 := 0#32
  ![arg7.toNat, 0]
def k0_off115 (i : grid0.Coords) (k0_t57 : Fin k0_t57_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c917504_i32 : BitVec 32 := 917504#32
  let v799 : BitVec 32 := Scalar.addi v30 c917504_i32
  let c0_i32_744 : BitVec 32 := 0#32
  let c1_i32_746 : BitVec 32 := 1#32
  let arg7 : BitVec 32 := Scf.iv c0_i32_744 c1_i32_746 k0_t57
  let c2048_i32_811 : BitVec 32 := 2048#32
  let v800 : BitVec 32 := Scalar.muli arg7 c2048_i32_811
  let v801 : BitVec 32 := Scalar.addi v799 v800
  ![v18.toNat, v801.toNat]
@[reducible] def k0_t58_loop : Scf.Loop 32 :=
  let c0_i32_748 : BitVec 32 := 0#32
  let c16_i32_749 : BitVec 32 := 16#32
  let v748 : BitVec 32 := Scalar.addi c0_i32_748 c16_i32_749
  let c1_i32_750 : BitVec 32 := 1#32
  ⟨c0_i32_748, v748, c1_i32_750⟩
def k0_off116 (k0_t58 : Fin k0_t58_loop.trips) : Fin 2 → Nat :=
  let c0_i32_748 : BitVec 32 := 0#32
  let c1_i32_750 : BitVec 32 := 1#32
  let arg7 : BitVec 32 := Scf.iv c0_i32_748 c1_i32_750 k0_t58
  let c0_i32_816 : BitVec 32 := 0#32
  ![arg7.toNat, 0]
def k0_off117 (i : grid0.Coords) (k0_t58 : Fin k0_t58_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c917504_i32 : BitVec 32 := 917504#32
  let v799 : BitVec 32 := Scalar.addi v30 c917504_i32
  let c0_i32_748 : BitVec 32 := 0#32
  let c1_i32_750 : BitVec 32 := 1#32
  let arg7 : BitVec 32 := Scf.iv c0_i32_748 c1_i32_750 k0_t58
  let c2048_i32_811 : BitVec 32 := 2048#32
  let v800 : BitVec 32 := Scalar.muli arg7 c2048_i32_811
  let v801 : BitVec 32 := Scalar.addi v799 v800
  ![v18.toNat, v801.toNat]
@[reducible] def k0_t59_loop : Scf.Loop 32 :=
  let c0_i32_769 : BitVec 32 := 0#32
  let c16_i32_770 : BitVec 32 := 16#32
  let v771 : BitVec 32 := Scalar.addi c0_i32_769 c16_i32_770
  let c1_i32_771 : BitVec 32 := 1#32
  ⟨c0_i32_769, v771, c1_i32_771⟩
def k0_off118 (k0_t59 : Fin k0_t59_loop.trips) : Fin 2 → Nat :=
  let c0_i32_769 : BitVec 32 := 0#32
  let c1_i32_771 : BitVec 32 := 1#32
  let arg7 : BitVec 32 := Scf.iv c0_i32_769 c1_i32_771 k0_t59
  let c0_i32_816 : BitVec 32 := 0#32
  ![arg7.toNat, 0]
def k0_off119 (i : grid0.Coords) (k0_t59 : Fin k0_t59_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c950272_i32 : BitVec 32 := 950272#32
  let v799 : BitVec 32 := Scalar.addi v30 c950272_i32
  let c0_i32_769 : BitVec 32 := 0#32
  let c1_i32_771 : BitVec 32 := 1#32
  let arg7 : BitVec 32 := Scf.iv c0_i32_769 c1_i32_771 k0_t59
  let c2048_i32_811 : BitVec 32 := 2048#32
  let v800 : BitVec 32 := Scalar.muli arg7 c2048_i32_811
  let v801 : BitVec 32 := Scalar.addi v799 v800
  ![v18.toNat, v801.toNat]
@[reducible] def k0_t60_loop : Scf.Loop 32 :=
  let c0_i32_782 : BitVec 32 := 0#32
  let c16_i32_783 : BitVec 32 := 16#32
  let v783 : BitVec 32 := Scalar.addi c0_i32_782 c16_i32_783
  let c1_i32_784 : BitVec 32 := 1#32
  ⟨c0_i32_782, v783, c1_i32_784⟩
def k0_off120 (k0_t60 : Fin k0_t60_loop.trips) : Fin 2 → Nat :=
  let c0_i32_782 : BitVec 32 := 0#32
  let c1_i32_784 : BitVec 32 := 1#32
  let arg7 : BitVec 32 := Scf.iv c0_i32_782 c1_i32_784 k0_t60
  let c0_i32_816 : BitVec 32 := 0#32
  ![arg7.toNat, 0]
def k0_off121 (i : grid0.Coords) (k0_t60 : Fin k0_t60_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c983040_i32 : BitVec 32 := 983040#32
  let v799 : BitVec 32 := Scalar.addi v30 c983040_i32
  let c0_i32_782 : BitVec 32 := 0#32
  let c1_i32_784 : BitVec 32 := 1#32
  let arg7 : BitVec 32 := Scf.iv c0_i32_782 c1_i32_784 k0_t60
  let c2048_i32_811 : BitVec 32 := 2048#32
  let v800 : BitVec 32 := Scalar.muli arg7 c2048_i32_811
  let v801 : BitVec 32 := Scalar.addi v799 v800
  ![v18.toNat, v801.toNat]
@[reducible] def k0_t61_loop : Scf.Loop 32 :=
  let c0_i32_795 : BitVec 32 := 0#32
  let c16_i32_796 : BitVec 32 := 16#32
  let v795 : BitVec 32 := Scalar.addi c0_i32_795 c16_i32_796
  let c1_i32_797 : BitVec 32 := 1#32
  ⟨c0_i32_795, v795, c1_i32_797⟩
def k0_off122 (k0_t61 : Fin k0_t61_loop.trips) : Fin 2 → Nat :=
  let c0_i32_795 : BitVec 32 := 0#32
  let c1_i32_797 : BitVec 32 := 1#32
  let arg7 : BitVec 32 := Scf.iv c0_i32_795 c1_i32_797 k0_t61
  let c0_i32_816 : BitVec 32 := 0#32
  ![arg7.toNat, 0]
def k0_off123 (i : grid0.Coords) (k0_t61 : Fin k0_t61_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c1015808_i32 : BitVec 32 := 1015808#32
  let v799 : BitVec 32 := Scalar.addi v30 c1015808_i32
  let c0_i32_795 : BitVec 32 := 0#32
  let c1_i32_797 : BitVec 32 := 1#32
  let arg7 : BitVec 32 := Scf.iv c0_i32_795 c1_i32_797 k0_t61
  let c2048_i32_811 : BitVec 32 := 2048#32
  let v800 : BitVec 32 := Scalar.muli arg7 c2048_i32_811
  let v801 : BitVec 32 := Scalar.addi v799 v800
  ![v18.toNat, v801.toNat]
@[reducible] def k0_t62_loop : Scf.Loop 32 :=
  let c0_i32_799 : BitVec 32 := 0#32
  let c16_i32_800 : BitVec 32 := 16#32
  let v796 : BitVec 32 := Scalar.addi c0_i32_799 c16_i32_800
  let c1_i32_801 : BitVec 32 := 1#32
  ⟨c0_i32_799, v796, c1_i32_801⟩
def k0_off124 (k0_t62 : Fin k0_t62_loop.trips) : Fin 2 → Nat :=
  let c0_i32_799 : BitVec 32 := 0#32
  let c1_i32_801 : BitVec 32 := 1#32
  let arg7 : BitVec 32 := Scf.iv c0_i32_799 c1_i32_801 k0_t62
  let c0_i32_816 : BitVec 32 := 0#32
  ![arg7.toNat, 0]
def k0_off125 (i : grid0.Coords) (k0_t62 : Fin k0_t62_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c950272_i32 : BitVec 32 := 950272#32
  let v799 : BitVec 32 := Scalar.addi v30 c950272_i32
  let c0_i32_799 : BitVec 32 := 0#32
  let c1_i32_801 : BitVec 32 := 1#32
  let arg7 : BitVec 32 := Scf.iv c0_i32_799 c1_i32_801 k0_t62
  let c2048_i32_811 : BitVec 32 := 2048#32
  let v800 : BitVec 32 := Scalar.muli arg7 c2048_i32_811
  let v801 : BitVec 32 := Scalar.addi v799 v800
  ![v18.toNat, v801.toNat]
@[reducible] def k0_t63_loop : Scf.Loop 32 :=
  let c0_i32_803 : BitVec 32 := 0#32
  let c16_i32_804 : BitVec 32 := 16#32
  let v797 : BitVec 32 := Scalar.addi c0_i32_803 c16_i32_804
  let c1_i32_805 : BitVec 32 := 1#32
  ⟨c0_i32_803, v797, c1_i32_805⟩
def k0_off126 (k0_t63 : Fin k0_t63_loop.trips) : Fin 2 → Nat :=
  let c0_i32_803 : BitVec 32 := 0#32
  let c1_i32_805 : BitVec 32 := 1#32
  let arg7 : BitVec 32 := Scf.iv c0_i32_803 c1_i32_805 k0_t63
  let c0_i32_816 : BitVec 32 := 0#32
  ![arg7.toNat, 0]
def k0_off127 (i : grid0.Coords) (k0_t63 : Fin k0_t63_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c983040_i32 : BitVec 32 := 983040#32
  let v799 : BitVec 32 := Scalar.addi v30 c983040_i32
  let c0_i32_803 : BitVec 32 := 0#32
  let c1_i32_805 : BitVec 32 := 1#32
  let arg7 : BitVec 32 := Scf.iv c0_i32_803 c1_i32_805 k0_t63
  let c2048_i32_811 : BitVec 32 := 2048#32
  let v800 : BitVec 32 := Scalar.muli arg7 c2048_i32_811
  let v801 : BitVec 32 := Scalar.addi v799 v800
  ![v18.toNat, v801.toNat]
@[reducible] def k0_t64_loop : Scf.Loop 32 :=
  let c0_i32_807 : BitVec 32 := 0#32
  let c16_i32_808 : BitVec 32 := 16#32
  let v798 : BitVec 32 := Scalar.addi c0_i32_807 c16_i32_808
  let c1_i32_809 : BitVec 32 := 1#32
  ⟨c0_i32_807, v798, c1_i32_809⟩
def k0_off128 (k0_t64 : Fin k0_t64_loop.trips) : Fin 2 → Nat :=
  let c0_i32_807 : BitVec 32 := 0#32
  let c1_i32_809 : BitVec 32 := 1#32
  let arg7 : BitVec 32 := Scf.iv c0_i32_807 c1_i32_809 k0_t64
  let c0_i32_816 : BitVec 32 := 0#32
  ![arg7.toNat, 0]
def k0_off129 (i : grid0.Coords) (k0_t64 : Fin k0_t64_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2048_i32 : BitVec 32 := 2048#32
  let v30 : BitVec 32 := Scalar.muli v29 c2048_i32
  let c1015808_i32 : BitVec 32 := 1015808#32
  let v799 : BitVec 32 := Scalar.addi v30 c1015808_i32
  let c0_i32_807 : BitVec 32 := 0#32
  let c1_i32_809 : BitVec 32 := 1#32
  let arg7 : BitVec 32 := Scf.iv c0_i32_807 c1_i32_809 k0_t64
  let c2048_i32_811 : BitVec 32 := 2048#32
  let v800 : BitVec 32 := Scalar.muli arg7 c2048_i32_811
  let v801 : BitVec 32 := Scalar.addi v799 v800
  ![v18.toNat, v801.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S3x16x2048_S1x16x2048_0_0_0 : ∀ a, (![0, 0, 0] : Fin 3 → Nat) a + S1x16x2048.size a ≤ S3x16x2048.size a
  squeezes_S1x16x2048_S16x2048 : S1x16x2048.Squeezes S16x2048
  inb_S3_S1_0 : ∀ a, (![0] : Fin 1 → Nat) a + S1.size a ≤ S3.size a
  squeezes_S1_S_ : S1.Squeezes S_
  inb_S3x16x2048_S1x16x2048_1_0_0 : ∀ a, (![1, 0, 0] : Fin 3 → Nat) a + S1x16x2048.size a ≤ S3x16x2048.size a
  inb_S3_S1_1 : ∀ a, (![1] : Fin 1 → Nat) a + S1.size a ≤ S3.size a
  inb_S3x16x2048_S1x16x2048_2_0_0 : ∀ a, (![2, 0, 0] : Fin 3 → Nat) a + S1x16x2048.size a ≤ S3x16x2048.size a
  inb_S3_S1_2 : ∀ a, (![2] : Fin 1 → Nat) a + S1.size a ≤ S3.size a
  squeezes_S1x2048_S2048 : S1x2048.Squeezes S2048
  hcc0_scratch1 : 0 + S3.numel ≤ 6
  hcc0_scratch2 : 3 + S3.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 32), ∀ a, (k0_off1 i (BitVec.ofNat 32 (16 * r.val))) a + S1x16x2048.size a ≤ S4x4096x2048.size a
  k0_t1_ok : k0_t1_loop.OK
  k0_off2_inb : ∀ k0_t1 : Fin k0_t1_loop.trips, ∀ a, (k0_off2 k0_t1) a + S1x2048.size a ≤ S16x2048.size a
  k0_off3_inb : ∀ (i : grid0.Coords) (k0_t1 : Fin k0_t1_loop.trips), ∀ a, (k0_off3 i k0_t1) a + S1x2048.size a ≤ S4x8388608.size a
  k0_t2_ok : k0_t2_loop.OK
  k0_off4_inb : ∀ k0_t2 : Fin k0_t2_loop.trips, ∀ a, (k0_off4 k0_t2) a + S1x2048.size a ≤ S16x2048.size a
  k0_off5_inb : ∀ (i : grid0.Coords) (k0_t2 : Fin k0_t2_loop.trips), ∀ a, (k0_off5 i k0_t2) a + S1x2048.size a ≤ S4x8388608.size a
  k0_t3_ok : k0_t3_loop.OK
  k0_off6_inb : ∀ k0_t3 : Fin k0_t3_loop.trips, ∀ a, (k0_off6 k0_t3) a + S1x2048.size a ≤ S16x2048.size a
  k0_off7_inb : ∀ (i : grid0.Coords) (k0_t3 : Fin k0_t3_loop.trips), ∀ a, (k0_off7 i k0_t3) a + S1x2048.size a ≤ S4x8388608.size a
  k0_t4_ok : k0_t4_loop.OK
  k0_off8_inb : ∀ k0_t4 : Fin k0_t4_loop.trips, ∀ a, (k0_off8 k0_t4) a + S1x2048.size a ≤ S16x2048.size a
  k0_off9_inb : ∀ (i : grid0.Coords) (k0_t4 : Fin k0_t4_loop.trips), ∀ a, (k0_off9 i k0_t4) a + S1x2048.size a ≤ S4x8388608.size a
  k0_t5_ok : k0_t5_loop.OK
  k0_off10_inb : ∀ k0_t5 : Fin k0_t5_loop.trips, ∀ a, (k0_off10 k0_t5) a + S1x2048.size a ≤ S16x2048.size a
  k0_off11_inb : ∀ (i : grid0.Coords) (k0_t5 : Fin k0_t5_loop.trips), ∀ a, (k0_off11 i k0_t5) a + S1x2048.size a ≤ S4x8388608.size a
  k0_t6_ok : k0_t6_loop.OK
  k0_off12_inb : ∀ k0_t6 : Fin k0_t6_loop.trips, ∀ a, (k0_off12 k0_t6) a + S1x2048.size a ≤ S16x2048.size a
  k0_off13_inb : ∀ (i : grid0.Coords) (k0_t6 : Fin k0_t6_loop.trips), ∀ a, (k0_off13 i k0_t6) a + S1x2048.size a ≤ S4x8388608.size a
  k0_t7_ok : k0_t7_loop.OK
  k0_off14_inb : ∀ k0_t7 : Fin k0_t7_loop.trips, ∀ a, (k0_off14 k0_t7) a + S1x2048.size a ≤ S16x2048.size a
  k0_off15_inb : ∀ (i : grid0.Coords) (k0_t7 : Fin k0_t7_loop.trips), ∀ a, (k0_off15 i k0_t7) a + S1x2048.size a ≤ S4x8388608.size a
  k0_t8_ok : k0_t8_loop.OK
  k0_off16_inb : ∀ k0_t8 : Fin k0_t8_loop.trips, ∀ a, (k0_off16 k0_t8) a + S1x2048.size a ≤ S16x2048.size a
  k0_off17_inb : ∀ (i : grid0.Coords) (k0_t8 : Fin k0_t8_loop.trips), ∀ a, (k0_off17 i k0_t8) a + S1x2048.size a ≤ S4x8388608.size a
  k0_t9_ok : k0_t9_loop.OK
  k0_off18_inb : ∀ k0_t9 : Fin k0_t9_loop.trips, ∀ a, (k0_off18 k0_t9) a + S1x2048.size a ≤ S16x2048.size a
  k0_off19_inb : ∀ (i : grid0.Coords) (k0_t9 : Fin k0_t9_loop.trips), ∀ a, (k0_off19 i k0_t9) a + S1x2048.size a ≤ S4x8388608.size a
  k0_t10_ok : k0_t10_loop.OK
  k0_off20_inb : ∀ k0_t10 : Fin k0_t10_loop.trips, ∀ a, (k0_off20 k0_t10) a + S1x2048.size a ≤ S16x2048.size a
  k0_off21_inb : ∀ (i : grid0.Coords) (k0_t10 : Fin k0_t10_loop.trips), ∀ a, (k0_off21 i k0_t10) a + S1x2048.size a ≤ S4x8388608.size a
  k0_t11_ok : k0_t11_loop.OK
  k0_off22_inb : ∀ k0_t11 : Fin k0_t11_loop.trips, ∀ a, (k0_off22 k0_t11) a + S1x2048.size a ≤ S16x2048.size a
  k0_off23_inb : ∀ (i : grid0.Coords) (k0_t11 : Fin k0_t11_loop.trips), ∀ a, (k0_off23 i k0_t11) a + S1x2048.size a ≤ S4x8388608.size a
  k0_t12_ok : k0_t12_loop.OK
  k0_off24_inb : ∀ k0_t12 : Fin k0_t12_loop.trips, ∀ a, (k0_off24 k0_t12) a + S1x2048.size a ≤ S16x2048.size a
  k0_off25_inb : ∀ (i : grid0.Coords) (k0_t12 : Fin k0_t12_loop.trips), ∀ a, (k0_off25 i k0_t12) a + S1x2048.size a ≤ S4x8388608.size a
  k0_t13_ok : k0_t13_loop.OK
  k0_off26_inb : ∀ k0_t13 : Fin k0_t13_loop.trips, ∀ a, (k0_off26 k0_t13) a + S1x2048.size a ≤ S16x2048.size a
  k0_off27_inb : ∀ (i : grid0.Coords) (k0_t13 : Fin k0_t13_loop.trips), ∀ a, (k0_off27 i k0_t13) a + S1x2048.size a ≤ S4x8388608.size a
  k0_t14_ok : k0_t14_loop.OK
  k0_off28_inb : ∀ k0_t14 : Fin k0_t14_loop.trips, ∀ a, (k0_off28 k0_t14) a + S1x2048.size a ≤ S16x2048.size a
  k0_off29_inb : ∀ (i : grid0.Coords) (k0_t14 : Fin k0_t14_loop.trips), ∀ a, (k0_off29 i k0_t14) a + S1x2048.size a ≤ S4x8388608.size a
  k0_t15_ok : k0_t15_loop.OK
  k0_off30_inb : ∀ k0_t15 : Fin k0_t15_loop.trips, ∀ a, (k0_off30 k0_t15) a + S1x2048.size a ≤ S16x2048.size a
  k0_off31_inb : ∀ (i : grid0.Coords) (k0_t15 : Fin k0_t15_loop.trips), ∀ a, (k0_off31 i k0_t15) a + S1x2048.size a ≤ S4x8388608.size a
  k0_t16_ok : k0_t16_loop.OK
  k0_off32_inb : ∀ k0_t16 : Fin k0_t16_loop.trips, ∀ a, (k0_off32 k0_t16) a + S1x2048.size a ≤ S16x2048.size a
  k0_off33_inb : ∀ (i : grid0.Coords) (k0_t16 : Fin k0_t16_loop.trips), ∀ a, (k0_off33 i k0_t16) a + S1x2048.size a ≤ S4x8388608.size a
  k0_t17_ok : k0_t17_loop.OK
  k0_off34_inb : ∀ k0_t17 : Fin k0_t17_loop.trips, ∀ a, (k0_off34 k0_t17) a + S1x2048.size a ≤ S16x2048.size a
  k0_off35_inb : ∀ (i : grid0.Coords) (k0_t17 : Fin k0_t17_loop.trips), ∀ a, (k0_off35 i k0_t17) a + S1x2048.size a ≤ S4x8388608.size a
  k0_t18_ok : k0_t18_loop.OK
  k0_off36_inb : ∀ k0_t18 : Fin k0_t18_loop.trips, ∀ a, (k0_off36 k0_t18) a + S1x2048.size a ≤ S16x2048.size a
  k0_off37_inb : ∀ (i : grid0.Coords) (k0_t18 : Fin k0_t18_loop.trips), ∀ a, (k0_off37 i k0_t18) a + S1x2048.size a ≤ S4x8388608.size a
  k0_t19_ok : k0_t19_loop.OK
  k0_off38_inb : ∀ k0_t19 : Fin k0_t19_loop.trips, ∀ a, (k0_off38 k0_t19) a + S1x2048.size a ≤ S16x2048.size a
  k0_off39_inb : ∀ (i : grid0.Coords) (k0_t19 : Fin k0_t19_loop.trips), ∀ a, (k0_off39 i k0_t19) a + S1x2048.size a ≤ S4x8388608.size a
  k0_t20_ok : k0_t20_loop.OK
  k0_off40_inb : ∀ k0_t20 : Fin k0_t20_loop.trips, ∀ a, (k0_off40 k0_t20) a + S1x2048.size a ≤ S16x2048.size a
  k0_off41_inb : ∀ (i : grid0.Coords) (k0_t20 : Fin k0_t20_loop.trips), ∀ a, (k0_off41 i k0_t20) a + S1x2048.size a ≤ S4x8388608.size a
  k0_t21_ok : k0_t21_loop.OK
  k0_off42_inb : ∀ k0_t21 : Fin k0_t21_loop.trips, ∀ a, (k0_off42 k0_t21) a + S1x2048.size a ≤ S16x2048.size a
  k0_off43_inb : ∀ (i : grid0.Coords) (k0_t21 : Fin k0_t21_loop.trips), ∀ a, (k0_off43 i k0_t21) a + S1x2048.size a ≤ S4x8388608.size a
  k0_t22_ok : k0_t22_loop.OK
  k0_off44_inb : ∀ k0_t22 : Fin k0_t22_loop.trips, ∀ a, (k0_off44 k0_t22) a + S1x2048.size a ≤ S16x2048.size a
  k0_off45_inb : ∀ (i : grid0.Coords) (k0_t22 : Fin k0_t22_loop.trips), ∀ a, (k0_off45 i k0_t22) a + S1x2048.size a ≤ S4x8388608.size a
  k0_t23_ok : k0_t23_loop.OK
  k0_off46_inb : ∀ k0_t23 : Fin k0_t23_loop.trips, ∀ a, (k0_off46 k0_t23) a + S1x2048.size a ≤ S16x2048.size a
  k0_off47_inb : ∀ (i : grid0.Coords) (k0_t23 : Fin k0_t23_loop.trips), ∀ a, (k0_off47 i k0_t23) a + S1x2048.size a ≤ S4x8388608.size a
  k0_t24_ok : k0_t24_loop.OK
  k0_off48_inb : ∀ k0_t24 : Fin k0_t24_loop.trips, ∀ a, (k0_off48 k0_t24) a + S1x2048.size a ≤ S16x2048.size a
  k0_off49_inb : ∀ (i : grid0.Coords) (k0_t24 : Fin k0_t24_loop.trips), ∀ a, (k0_off49 i k0_t24) a + S1x2048.size a ≤ S4x8388608.size a
  k0_t25_ok : k0_t25_loop.OK
  k0_off50_inb : ∀ k0_t25 : Fin k0_t25_loop.trips, ∀ a, (k0_off50 k0_t25) a + S1x2048.size a ≤ S16x2048.size a
  k0_off51_inb : ∀ (i : grid0.Coords) (k0_t25 : Fin k0_t25_loop.trips), ∀ a, (k0_off51 i k0_t25) a + S1x2048.size a ≤ S4x8388608.size a
  k0_t26_ok : k0_t26_loop.OK
  k0_off52_inb : ∀ k0_t26 : Fin k0_t26_loop.trips, ∀ a, (k0_off52 k0_t26) a + S1x2048.size a ≤ S16x2048.size a
  k0_off53_inb : ∀ (i : grid0.Coords) (k0_t26 : Fin k0_t26_loop.trips), ∀ a, (k0_off53 i k0_t26) a + S1x2048.size a ≤ S4x8388608.size a
  k0_t27_ok : k0_t27_loop.OK
  k0_off54_inb : ∀ k0_t27 : Fin k0_t27_loop.trips, ∀ a, (k0_off54 k0_t27) a + S1x2048.size a ≤ S16x2048.size a
  k0_off55_inb : ∀ (i : grid0.Coords) (k0_t27 : Fin k0_t27_loop.trips), ∀ a, (k0_off55 i k0_t27) a + S1x2048.size a ≤ S4x8388608.size a
  k0_t28_ok : k0_t28_loop.OK
  k0_off56_inb : ∀ k0_t28 : Fin k0_t28_loop.trips, ∀ a, (k0_off56 k0_t28) a + S1x2048.size a ≤ S16x2048.size a
  k0_off57_inb : ∀ (i : grid0.Coords) (k0_t28 : Fin k0_t28_loop.trips), ∀ a, (k0_off57 i k0_t28) a + S1x2048.size a ≤ S4x8388608.size a
  k0_t29_ok : k0_t29_loop.OK
  k0_off58_inb : ∀ k0_t29 : Fin k0_t29_loop.trips, ∀ a, (k0_off58 k0_t29) a + S1x2048.size a ≤ S16x2048.size a
  k0_off59_inb : ∀ (i : grid0.Coords) (k0_t29 : Fin k0_t29_loop.trips), ∀ a, (k0_off59 i k0_t29) a + S1x2048.size a ≤ S4x8388608.size a
  k0_t30_ok : k0_t30_loop.OK
  k0_off60_inb : ∀ k0_t30 : Fin k0_t30_loop.trips, ∀ a, (k0_off60 k0_t30) a + S1x2048.size a ≤ S16x2048.size a
  k0_off61_inb : ∀ (i : grid0.Coords) (k0_t30 : Fin k0_t30_loop.trips), ∀ a, (k0_off61 i k0_t30) a + S1x2048.size a ≤ S4x8388608.size a
  k0_t31_ok : k0_t31_loop.OK
  k0_off62_inb : ∀ k0_t31 : Fin k0_t31_loop.trips, ∀ a, (k0_off62 k0_t31) a + S1x2048.size a ≤ S16x2048.size a
  k0_off63_inb : ∀ (i : grid0.Coords) (k0_t31 : Fin k0_t31_loop.trips), ∀ a, (k0_off63 i k0_t31) a + S1x2048.size a ≤ S4x8388608.size a
  k0_t32_ok : k0_t32_loop.OK
  k0_off64_inb : ∀ k0_t32 : Fin k0_t32_loop.trips, ∀ a, (k0_off64 k0_t32) a + S1x2048.size a ≤ S16x2048.size a
  k0_off65_inb : ∀ (i : grid0.Coords) (k0_t32 : Fin k0_t32_loop.trips), ∀ a, (k0_off65 i k0_t32) a + S1x2048.size a ≤ S4x8388608.size a
  k0_t33_ok : k0_t33_loop.OK
  k0_off66_inb : ∀ k0_t33 : Fin k0_t33_loop.trips, ∀ a, (k0_off66 k0_t33) a + S1x2048.size a ≤ S16x2048.size a
  k0_off67_inb : ∀ (i : grid0.Coords) (k0_t33 : Fin k0_t33_loop.trips), ∀ a, (k0_off67 i k0_t33) a + S1x2048.size a ≤ S4x8388608.size a
  k0_t34_ok : k0_t34_loop.OK
  k0_off68_inb : ∀ k0_t34 : Fin k0_t34_loop.trips, ∀ a, (k0_off68 k0_t34) a + S1x2048.size a ≤ S16x2048.size a
  k0_off69_inb : ∀ (i : grid0.Coords) (k0_t34 : Fin k0_t34_loop.trips), ∀ a, (k0_off69 i k0_t34) a + S1x2048.size a ≤ S4x8388608.size a
  k0_t35_ok : k0_t35_loop.OK
  k0_off70_inb : ∀ k0_t35 : Fin k0_t35_loop.trips, ∀ a, (k0_off70 k0_t35) a + S1x2048.size a ≤ S16x2048.size a
  k0_off71_inb : ∀ (i : grid0.Coords) (k0_t35 : Fin k0_t35_loop.trips), ∀ a, (k0_off71 i k0_t35) a + S1x2048.size a ≤ S4x8388608.size a
  k0_t36_ok : k0_t36_loop.OK
  k0_off72_inb : ∀ k0_t36 : Fin k0_t36_loop.trips, ∀ a, (k0_off72 k0_t36) a + S1x2048.size a ≤ S16x2048.size a
  k0_off73_inb : ∀ (i : grid0.Coords) (k0_t36 : Fin k0_t36_loop.trips), ∀ a, (k0_off73 i k0_t36) a + S1x2048.size a ≤ S4x8388608.size a
  k0_t37_ok : k0_t37_loop.OK
  k0_off74_inb : ∀ k0_t37 : Fin k0_t37_loop.trips, ∀ a, (k0_off74 k0_t37) a + S1x2048.size a ≤ S16x2048.size a
  k0_off75_inb : ∀ (i : grid0.Coords) (k0_t37 : Fin k0_t37_loop.trips), ∀ a, (k0_off75 i k0_t37) a + S1x2048.size a ≤ S4x8388608.size a
  k0_t38_ok : k0_t38_loop.OK
  k0_off76_inb : ∀ k0_t38 : Fin k0_t38_loop.trips, ∀ a, (k0_off76 k0_t38) a + S1x2048.size a ≤ S16x2048.size a
  k0_off77_inb : ∀ (i : grid0.Coords) (k0_t38 : Fin k0_t38_loop.trips), ∀ a, (k0_off77 i k0_t38) a + S1x2048.size a ≤ S4x8388608.size a
  k0_t39_ok : k0_t39_loop.OK
  k0_off78_inb : ∀ k0_t39 : Fin k0_t39_loop.trips, ∀ a, (k0_off78 k0_t39) a + S1x2048.size a ≤ S16x2048.size a
  k0_off79_inb : ∀ (i : grid0.Coords) (k0_t39 : Fin k0_t39_loop.trips), ∀ a, (k0_off79 i k0_t39) a + S1x2048.size a ≤ S4x8388608.size a
  k0_t40_ok : k0_t40_loop.OK
  k0_off80_inb : ∀ k0_t40 : Fin k0_t40_loop.trips, ∀ a, (k0_off80 k0_t40) a + S1x2048.size a ≤ S16x2048.size a
  k0_off81_inb : ∀ (i : grid0.Coords) (k0_t40 : Fin k0_t40_loop.trips), ∀ a, (k0_off81 i k0_t40) a + S1x2048.size a ≤ S4x8388608.size a
  k0_t41_ok : k0_t41_loop.OK
  k0_off82_inb : ∀ k0_t41 : Fin k0_t41_loop.trips, ∀ a, (k0_off82 k0_t41) a + S1x2048.size a ≤ S16x2048.size a
  k0_off83_inb : ∀ (i : grid0.Coords) (k0_t41 : Fin k0_t41_loop.trips), ∀ a, (k0_off83 i k0_t41) a + S1x2048.size a ≤ S4x8388608.size a
  k0_t42_ok : k0_t42_loop.OK
  k0_off84_inb : ∀ k0_t42 : Fin k0_t42_loop.trips, ∀ a, (k0_off84 k0_t42) a + S1x2048.size a ≤ S16x2048.size a
  k0_off85_inb : ∀ (i : grid0.Coords) (k0_t42 : Fin k0_t42_loop.trips), ∀ a, (k0_off85 i k0_t42) a + S1x2048.size a ≤ S4x8388608.size a
  k0_t43_ok : k0_t43_loop.OK
  k0_off86_inb : ∀ k0_t43 : Fin k0_t43_loop.trips, ∀ a, (k0_off86 k0_t43) a + S1x2048.size a ≤ S16x2048.size a
  k0_off87_inb : ∀ (i : grid0.Coords) (k0_t43 : Fin k0_t43_loop.trips), ∀ a, (k0_off87 i k0_t43) a + S1x2048.size a ≤ S4x8388608.size a
  k0_t44_ok : k0_t44_loop.OK
  k0_off88_inb : ∀ k0_t44 : Fin k0_t44_loop.trips, ∀ a, (k0_off88 k0_t44) a + S1x2048.size a ≤ S16x2048.size a
  k0_off89_inb : ∀ (i : grid0.Coords) (k0_t44 : Fin k0_t44_loop.trips), ∀ a, (k0_off89 i k0_t44) a + S1x2048.size a ≤ S4x8388608.size a
  k0_t45_ok : k0_t45_loop.OK
  k0_off90_inb : ∀ k0_t45 : Fin k0_t45_loop.trips, ∀ a, (k0_off90 k0_t45) a + S1x2048.size a ≤ S16x2048.size a
  k0_off91_inb : ∀ (i : grid0.Coords) (k0_t45 : Fin k0_t45_loop.trips), ∀ a, (k0_off91 i k0_t45) a + S1x2048.size a ≤ S4x8388608.size a
  k0_t46_ok : k0_t46_loop.OK
  k0_off92_inb : ∀ k0_t46 : Fin k0_t46_loop.trips, ∀ a, (k0_off92 k0_t46) a + S1x2048.size a ≤ S16x2048.size a
  k0_off93_inb : ∀ (i : grid0.Coords) (k0_t46 : Fin k0_t46_loop.trips), ∀ a, (k0_off93 i k0_t46) a + S1x2048.size a ≤ S4x8388608.size a
  k0_t47_ok : k0_t47_loop.OK
  k0_off94_inb : ∀ k0_t47 : Fin k0_t47_loop.trips, ∀ a, (k0_off94 k0_t47) a + S1x2048.size a ≤ S16x2048.size a
  k0_off95_inb : ∀ (i : grid0.Coords) (k0_t47 : Fin k0_t47_loop.trips), ∀ a, (k0_off95 i k0_t47) a + S1x2048.size a ≤ S4x8388608.size a
  k0_t48_ok : k0_t48_loop.OK
  k0_off96_inb : ∀ k0_t48 : Fin k0_t48_loop.trips, ∀ a, (k0_off96 k0_t48) a + S1x2048.size a ≤ S16x2048.size a
  k0_off97_inb : ∀ (i : grid0.Coords) (k0_t48 : Fin k0_t48_loop.trips), ∀ a, (k0_off97 i k0_t48) a + S1x2048.size a ≤ S4x8388608.size a
  k0_t49_ok : k0_t49_loop.OK
  k0_off98_inb : ∀ k0_t49 : Fin k0_t49_loop.trips, ∀ a, (k0_off98 k0_t49) a + S1x2048.size a ≤ S16x2048.size a
  k0_off99_inb : ∀ (i : grid0.Coords) (k0_t49 : Fin k0_t49_loop.trips), ∀ a, (k0_off99 i k0_t49) a + S1x2048.size a ≤ S4x8388608.size a
  k0_t50_ok : k0_t50_loop.OK
  k0_off100_inb : ∀ k0_t50 : Fin k0_t50_loop.trips, ∀ a, (k0_off100 k0_t50) a + S1x2048.size a ≤ S16x2048.size a
  k0_off101_inb : ∀ (i : grid0.Coords) (k0_t50 : Fin k0_t50_loop.trips), ∀ a, (k0_off101 i k0_t50) a + S1x2048.size a ≤ S4x8388608.size a
  k0_t51_ok : k0_t51_loop.OK
  k0_off102_inb : ∀ k0_t51 : Fin k0_t51_loop.trips, ∀ a, (k0_off102 k0_t51) a + S1x2048.size a ≤ S16x2048.size a
  k0_off103_inb : ∀ (i : grid0.Coords) (k0_t51 : Fin k0_t51_loop.trips), ∀ a, (k0_off103 i k0_t51) a + S1x2048.size a ≤ S4x8388608.size a
  k0_t52_ok : k0_t52_loop.OK
  k0_off104_inb : ∀ k0_t52 : Fin k0_t52_loop.trips, ∀ a, (k0_off104 k0_t52) a + S1x2048.size a ≤ S16x2048.size a
  k0_off105_inb : ∀ (i : grid0.Coords) (k0_t52 : Fin k0_t52_loop.trips), ∀ a, (k0_off105 i k0_t52) a + S1x2048.size a ≤ S4x8388608.size a
  k0_t53_ok : k0_t53_loop.OK
  k0_off106_inb : ∀ k0_t53 : Fin k0_t53_loop.trips, ∀ a, (k0_off106 k0_t53) a + S1x2048.size a ≤ S16x2048.size a
  k0_off107_inb : ∀ (i : grid0.Coords) (k0_t53 : Fin k0_t53_loop.trips), ∀ a, (k0_off107 i k0_t53) a + S1x2048.size a ≤ S4x8388608.size a
  k0_t54_ok : k0_t54_loop.OK
  k0_off108_inb : ∀ k0_t54 : Fin k0_t54_loop.trips, ∀ a, (k0_off108 k0_t54) a + S1x2048.size a ≤ S16x2048.size a
  k0_off109_inb : ∀ (i : grid0.Coords) (k0_t54 : Fin k0_t54_loop.trips), ∀ a, (k0_off109 i k0_t54) a + S1x2048.size a ≤ S4x8388608.size a
  k0_t55_ok : k0_t55_loop.OK
  k0_off110_inb : ∀ k0_t55 : Fin k0_t55_loop.trips, ∀ a, (k0_off110 k0_t55) a + S1x2048.size a ≤ S16x2048.size a
  k0_off111_inb : ∀ (i : grid0.Coords) (k0_t55 : Fin k0_t55_loop.trips), ∀ a, (k0_off111 i k0_t55) a + S1x2048.size a ≤ S4x8388608.size a
  k0_t56_ok : k0_t56_loop.OK
  k0_off112_inb : ∀ k0_t56 : Fin k0_t56_loop.trips, ∀ a, (k0_off112 k0_t56) a + S1x2048.size a ≤ S16x2048.size a
  k0_off113_inb : ∀ (i : grid0.Coords) (k0_t56 : Fin k0_t56_loop.trips), ∀ a, (k0_off113 i k0_t56) a + S1x2048.size a ≤ S4x8388608.size a
  k0_t57_ok : k0_t57_loop.OK
  k0_off114_inb : ∀ k0_t57 : Fin k0_t57_loop.trips, ∀ a, (k0_off114 k0_t57) a + S1x2048.size a ≤ S16x2048.size a
  k0_off115_inb : ∀ (i : grid0.Coords) (k0_t57 : Fin k0_t57_loop.trips), ∀ a, (k0_off115 i k0_t57) a + S1x2048.size a ≤ S4x8388608.size a
  k0_t58_ok : k0_t58_loop.OK
  k0_off116_inb : ∀ k0_t58 : Fin k0_t58_loop.trips, ∀ a, (k0_off116 k0_t58) a + S1x2048.size a ≤ S16x2048.size a
  k0_off117_inb : ∀ (i : grid0.Coords) (k0_t58 : Fin k0_t58_loop.trips), ∀ a, (k0_off117 i k0_t58) a + S1x2048.size a ≤ S4x8388608.size a
  k0_t59_ok : k0_t59_loop.OK
  k0_off118_inb : ∀ k0_t59 : Fin k0_t59_loop.trips, ∀ a, (k0_off118 k0_t59) a + S1x2048.size a ≤ S16x2048.size a
  k0_off119_inb : ∀ (i : grid0.Coords) (k0_t59 : Fin k0_t59_loop.trips), ∀ a, (k0_off119 i k0_t59) a + S1x2048.size a ≤ S4x8388608.size a
  k0_t60_ok : k0_t60_loop.OK
  k0_off120_inb : ∀ k0_t60 : Fin k0_t60_loop.trips, ∀ a, (k0_off120 k0_t60) a + S1x2048.size a ≤ S16x2048.size a
  k0_off121_inb : ∀ (i : grid0.Coords) (k0_t60 : Fin k0_t60_loop.trips), ∀ a, (k0_off121 i k0_t60) a + S1x2048.size a ≤ S4x8388608.size a
  k0_t61_ok : k0_t61_loop.OK
  k0_off122_inb : ∀ k0_t61 : Fin k0_t61_loop.trips, ∀ a, (k0_off122 k0_t61) a + S1x2048.size a ≤ S16x2048.size a
  k0_off123_inb : ∀ (i : grid0.Coords) (k0_t61 : Fin k0_t61_loop.trips), ∀ a, (k0_off123 i k0_t61) a + S1x2048.size a ≤ S4x8388608.size a
  k0_t62_ok : k0_t62_loop.OK
  k0_off124_inb : ∀ k0_t62 : Fin k0_t62_loop.trips, ∀ a, (k0_off124 k0_t62) a + S1x2048.size a ≤ S16x2048.size a
  k0_off125_inb : ∀ (i : grid0.Coords) (k0_t62 : Fin k0_t62_loop.trips), ∀ a, (k0_off125 i k0_t62) a + S1x2048.size a ≤ S4x8388608.size a
  k0_t63_ok : k0_t63_loop.OK
  k0_off126_inb : ∀ k0_t63 : Fin k0_t63_loop.trips, ∀ a, (k0_off126 k0_t63) a + S1x2048.size a ≤ S16x2048.size a
  k0_off127_inb : ∀ (i : grid0.Coords) (k0_t63 : Fin k0_t63_loop.trips), ∀ a, (k0_off127 i k0_t63) a + S1x2048.size a ≤ S4x8388608.size a
  k0_t64_ok : k0_t64_loop.OK
  k0_off128_inb : ∀ k0_t64 : Fin k0_t64_loop.trips, ∀ a, (k0_off128 k0_t64) a + S1x2048.size a ≤ S16x2048.size a
  k0_off129_inb : ∀ (i : grid0.Coords) (k0_t64 : Fin k0_t64_loop.trips), ∀ a, (k0_off129 i k0_t64) a + S1x2048.size a ≤ S4x8388608.size a

variable [Facts₀]

abbrev cc0_scratch1 : DmaSems sig S3 := SemArray.consecutive 0 S3 hcc0_scratch1
abbrev cc0_scratch2 : DmaSems sig S3 := SemArray.consecutive 3 S3 hcc0_scratch2

class Facts : Prop extends Facts₀ where

variable [Facts]
-- ==== ReferenceIdeal.lean ====
abbrev S4x4096x2048 : Shape := ⟨3, ![4, 4096, 2048]⟩
abbrev S4x8388608 : Shape := ⟨2, ![4, 8388608]⟩

abbrev nBuf : Space → Nat
  | .hbm => 2
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x8388608, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  shapeCasts_S4x4096x2048_S4x8388608 : S4x4096x2048.ShapeCasts S4x8388608

variable [Facts₀]

class Facts : Prop extends Facts₀ where

variable [Facts]
-- ==== Proof.Stripe.lean ====
/-
  Where each worker reads and writes.  The kernel numbers its 32 workers w = 2·(subcore) + (core); worker w
  serves batch entry w / 8 and the 512 rows starting at (w mod 8)·512 of that entry's 4096 × 2048 matrix.
  Chunk r (of 32) is the 16 rows starting at row (w mod 8)·512 + 16·r, and row t of it is written to the
  flat output at element ((w mod 8)·512 + 16·r + t)·2048 — the row-major position of that row, which is why
  the whole kernel is a reshape.  The kernel computes w / 8 and w mod 8 by a signed floor-division chain; here
  that chain is evaluated once for the 32 workers, and the rest is affine arithmetic without overflow.
-/
import proofs.«214764_g20993800143467_cont_8to1_1661_21_alg».proof.Proof.Gen.Kernel
import Idealize.ShloMosaic.Lib.Affine

namespace Cert.Kernel.Stripe

open Idealize.ShloMosaic Cert.Kernel

/-- The worker's number: two workers per vector subcore index, one on each SparseCore. -/
def wid (i : grid0.Coords) : Nat := 2 * (i 1).val + (i 0).val

theorem wid_lt (i : grid0.Coords) : wid i < 32 := by
  have h0 : (i 0).val < 2 := (i 0).isLt
  have h1 : (i 1).val < 16 := (i 1).isLt
  unfold wid; omega

/-- The batch entry of worker (a, b): the floor division of 2b + a by 8, as the kernel's integer chain spells it. -/
def batchWord (a b : Nat) : BitVec 32 :=
  let arg1 : BitVec 32 := BitVec.ofNat 32 b
  let c2_i32 : BitVec 32 := 2#32
  let v0 : BitVec 32 := Scalar.muli arg1 c2_i32
  let arg0 : BitVec 32 := BitVec.ofNat 32 a
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  Scalar.select v16 v17 v2

/-- The first row of worker (a, b)'s stripe: ((2b + a) mod 8)·512, the modulus spelt with its sign correction. -/
def rowWord (a b : Nat) : BitVec 32 :=
  let arg1 : BitVec 32 := BitVec.ofNat 32 b
  let c2_i32 : BitVec 32 := 2#32
  let v0 : BitVec 32 := Scalar.muli arg1 c2_i32
  let arg0 : BitVec 32 := BitVec.ofNat 32 a
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  Scalar.muli v28 c512_i32

/-- For each of the 32 workers the division chain gives the floor quotient by 8. -/
theorem batchWord_eq : ∀ (a : Fin 2) (b : Fin 16), batchWord a.val b.val = BitVec.ofNat 32 ((2 * b.val + a.val) / 8) := by
  decide +kernel

/-- For each of the 32 workers the modulus chain gives 512 times the remainder mod 8. -/
theorem rowWord_eq : ∀ (a : Fin 2) (b : Fin 16), rowWord a.val b.val = BitVec.ofNat 32 ((2 * b.val + a.val) % 8 * 512) := by
  decide +kernel

/-- The source offsets of a chunk, over the two chains. -/
theorem off1_unfold (i : grid0.Coords) (c : BitVec 32) :
    k0_off1 i c = ![(batchWord (i 0).val (i 1).val).toNat, (Scalar.addi (rowWord (i 0).val (i 1).val) c).toNat, 0] := rfl

/-- The destination offsets of row `t` of the chunk whose first element is `C` past the stripe's. -/
def offO (i : grid0.Coords) (C : BitVec 32) (t : Nat) : Fin 2 → Nat :=
  ![(batchWord (i 0).val (i 1).val).toNat,
    (Scalar.addi (Scalar.addi (Scalar.muli (rowWord (i 0).val (i 1).val) 2048#32) C) (Scalar.muli (Scf.iv 0#32 1#32 t) 2048#32)).toNat]

theorem off3_unfold (i : grid0.Coords) (t : Fin k0_t1_loop.trips) : k0_off3 i t = offO i 0#32 t.val := rfl

/-- The two chains at a worker's coordinates. -/
theorem batchWord_at (a b : Nat) (ha : a < 2) (hb : b < 16) : batchWord a b = BitVec.ofNat 32 ((2 * b + a) / 8) :=
  batchWord_eq ⟨a, ha⟩ ⟨b, hb⟩
theorem rowWord_at (a b : Nat) (ha : a < 2) (hb : b < 16) : rowWord a b = BitVec.ofNat 32 ((2 * b + a) % 8 * 512) :=
  rowWord_eq ⟨a, ha⟩ ⟨b, hb⟩

/-- Chunk `r` of worker `i` starts at row (w mod 8)·512 + 16·r of batch entry w / 8. -/
theorem off1_closed (i : grid0.Coords) (r : Fin 32) :
    k0_off1 i (BitVec.ofNat 32 (16 * r.val)) = ![wid i / 8, wid i % 8 * 512 + 16 * r.val, 0] := by
  have ha : (i 0).val < 2 := (i 0).isLt
  have hb : (i 1).val < 16 := (i 1).isLt
  have hr : r.val < 32 := r.isLt
  rw [off1_unfold, batchWord_at _ _ ha hb, rowWord_at _ _ ha hb]
  have hB : Affine.IsInt (BitVec.ofNat 32 ((2 * (i 1).val + (i 0).val) / 8)) (((2 * (i 1).val + (i 0).val) / 8 : Nat) : Int) :=
    Affine.ofNat _ ⟨rfl, by omega⟩
  have hR : Affine.IsInt (BitVec.ofNat 32 ((2 * (i 1).val + (i 0).val) % 8 * 512)) (((2 * (i 1).val + (i 0).val) % 8 * 512 : Nat) : Int) :=
    Affine.ofNat _ ⟨rfl, by omega⟩
  have hC : Affine.IsInt (BitVec.ofNat 32 (16 * r.val)) ((16 * r.val : Nat) : Int) := Affine.ofNat _ ⟨rfl, by omega⟩
  have hS := Affine.addi hR hC (e := (((2 * (i 1).val + (i 0).val) % 8 * 512 + 16 * r.val : Nat) : Int)) ⟨by omega, by omega, by omega⟩
  have e1 := Affine.toNat_of hB (by omega)
  have e2 := Affine.toNat_of hS (by omega)
  rw [show (BitVec.ofNat 32 ((2 * (i 1).val + (i 0).val) / 8)).toNat = (2 * (i 1).val + (i 0).val) / 8 by omega,
    show (Scalar.addi (BitVec.ofNat 32 ((2 * (i 1).val + (i 0).val) % 8 * 512)) (BitVec.ofNat 32 (16 * r.val))).toNat
      = (2 * (i 1).val + (i 0).val) % 8 * 512 + 16 * r.val by omega]
  rfl

/-- Row `t` of chunk `r` of worker `i` lands at element ((w mod 8)·512 + 16·r + t)·2048 of batch entry w / 8. -/
theorem offO_closed (i : grid0.Coords) (r : Fin 32) (t : Nat) (ht : t < 16) :
    offO i (BitVec.ofNat 32 (32768 * r.val)) t = ![wid i / 8, (wid i % 8 * 512 + 16 * r.val + t) * 2048] := by
  have ha : (i 0).val < 2 := (i 0).isLt
  have hb : (i 1).val < 16 := (i 1).isLt
  have hr : r.val < 32 := r.isLt
  unfold offO
  rw [batchWord_at _ _ ha hb, rowWord_at _ _ ha hb]
  have hB : Affine.IsInt (BitVec.ofNat 32 ((2 * (i 1).val + (i 0).val) / 8)) (((2 * (i 1).val + (i 0).val) / 8 : Nat) : Int) :=
    Affine.ofNat _ ⟨rfl, by omega⟩
  have hR : Affine.IsInt (BitVec.ofNat 32 ((2 * (i 1).val + (i 0).val) % 8 * 512)) (((2 * (i 1).val + (i 0).val) % 8 * 512 : Nat) : Int) :=
    Affine.ofNat _ ⟨rfl, by omega⟩
  have h2048 : Affine.IsInt (2048#32) 2048 := Affine.ofNat _ ⟨rfl, by omega⟩
  have hE := Affine.muli hR h2048 (e := (((2 * (i 1).val + (i 0).val) % 8 * 512 * 2048 : Nat) : Int)) ⟨by omega, by omega, by omega⟩
  have hC : Affine.IsInt (BitVec.ofNat 32 (32768 * r.val)) ((32768 * r.val : Nat) : Int) := Affine.ofNat _ ⟨rfl, by omega⟩
  have hEC := Affine.addi hE hC (e := (((2 * (i 1).val + (i 0).val) % 8 * 512 * 2048 + 32768 * r.val : Nat) : Int)) ⟨by omega, by omega, by omega⟩
  have h0 : Affine.IsInt (0#32) 0 := Affine.ofNat _ ⟨rfl, by omega⟩
  have h1 : Affine.IsInt (1#32) 1 := Affine.ofNat _ ⟨rfl, by omega⟩
  have hiv : Affine.IsInt (Scf.iv 0#32 1#32 t) ((t : Nat) : Int) := Affine.iv h0 h1 t ⟨by omega, by omega, by omega⟩
  have hT := Affine.muli hiv h2048 (e := ((t * 2048 : Nat) : Int)) ⟨by omega, by omega, by omega⟩
  have hAll := Affine.addi hEC hT (e := (((2 * (i 1).val + (i 0).val) % 8 * 512 * 2048 + 32768 * r.val + t * 2048 : Nat) : Int))
    ⟨by omega, by omega, by omega⟩
  have e1 := Affine.toNat_of hB (by omega)
  have e2 := Affine.toNat_of hAll (by omega)
  rw [show (BitVec.ofNat 32 ((2 * (i 1).val + (i 0).val) / 8)).toNat = (2 * (i 1).val + (i 0).val) / 8 by omega,
    show (Scalar.addi (Scalar.addi (Scalar.muli (BitVec.ofNat 32 ((2 * (i 1).val + (i 0).val) % 8 * 512)) 2048#32) (BitVec.ofNat 32 (32768 * r.val)))
        (Scalar.muli (Scf.iv 0#32 1#32 t) 2048#32)).toNat = ((2 * (i 1).val + (i 0).val) % 8 * 512 + 16 * r.val + t) * 2048 by omega]
  rfl

end Cert.Kernel.Stripe
-- ==== Proof.Pieces.lean ====
/-
  The kernel's body, said once.  A worker streams its 512 rows through a ring of three 16-row slots: chunk r is
  fetched into slot r mod 3 (one copy, on the slot's inbound semaphore), and copied out row by row (sixteen copies,
  all on the slot's outbound semaphore, then sixteen waits).  The printed body spells the 32 chunks out one after the
  other; here the four moves are written once over (slot, chunk), the body is their sequence — two fetches ahead, a
  slot's copies-out drained before the slot is fetched into again — and the printed body is that sequence, by unfolding.
-/
import proofs.«214764_g20993800143467_cont_8to1_1661_21_alg».proof.Proof.Gen.Kernel
import proofs.«214764_g20993800143467_cont_8to1_1661_21_alg».proof.Proof.Stripe

set_option synthInstance.maxSize 4096

noncomputable section

namespace Cert.Kernel.Copy

open Idealize.ShloMosaic Idealize.SL.Sem Cert.Kernel Cert.Kernel.Gen Cert.Kernel.Stripe

variable {F : FTy → Type} [FloatOps F]

/-- The three arrays as a vector subcore names them: the input, the flat output, the subcore's ring of three slots. -/
abbrev xV : Memref sig .scVector .hbm S4x4096x2048 .f32 := Memref.whole main_arg0_scv
abbrev oV : Memref sig .scVector .hbm S4x8388608 .f32 := Memref.whole main_v0_scv
abbrev sB : Memref sig .scVector .vmem S3x16x2048 .f32 := Memref.whole cc0_scratch0

theorem slot_inb (s : Fin 3) : ∀ a, (![s.val, 0, 0] : Fin 3 → Nat) a + S1x16x2048.size a ≤ S3x16x2048.size a := by
  have := s.isLt; intro a
  match a with
  | ⟨0, _⟩ => show s.val + 1 ≤ 3; omega
  | ⟨1, _⟩ => show 0 + 16 ≤ 16; omega
  | ⟨2, _⟩ => show 0 + 2048 ≤ 2048; omega
theorem sem_inb (s : Fin 3) : ∀ a, (![s.val] : Fin 1 → Nat) a + S1.size a ≤ S3.size a := by
  have := s.isLt; intro a
  match a with
  | ⟨0, _⟩ => show s.val + 1 ≤ 3; omega

/-- Slot `s` of the ring, a 16 × 2048 block. -/
abbrev slotM (s : Fin 3) : Memref sig .scVector .vmem S16x2048 .f32 :=
  ((sB.slice (Rect.unit (s := S3x16x2048) ![s.val, 0, 0] S1x16x2048.size (slot_inb s)) (fun _ => rfl)).squeeze S16x2048 squeezes_S1x16x2048_S16x2048)
/-- Slot `s`'s inbound and outbound semaphores. -/
abbrev inSem (s : Fin 3) : DmaSems sig S_ := (cc0_scratch1.slice (Rect.unit (s := S3) ![s.val] S1.size (sem_inb s))).squeeze S_ squeezes_S1_S_
abbrev outSem (s : Fin 3) : DmaSems sig S_ := (cc0_scratch2.slice (Rect.unit (s := S3) ![s.val] S1.size (sem_inb s))).squeeze S_ squeezes_S1_S_

/-- Chunk `r` of the worker's stripe of the input: 16 rows of one batch entry. -/
abbrev xChunk (i : grid0.Coords) (r : Fin 32) : Memref sig .scVector .hbm S16x2048 .f32 :=
  ((xV.slice (Rect.unit (s := S4x4096x2048) (k0_off1 i (BitVec.ofNat 32 (16 * r.val))) S1x16x2048.size (k0_off1_inb i r)) (fun _ => rfl)).squeeze S16x2048 squeezes_S1x16x2048_S16x2048)

/-- Row `t` of a slot, as a loop's trip addresses it. -/
def bOff (t : Nat) : Fin 2 → Nat := ![(Scf.iv 0#32 1#32 t).toNat, 0]
theorem bOff_eq (t : Fin k0_t1_loop.trips) : bOff t.val = ![t.val, 0] := k0_off2_eq t
theorem bOff_inb (t : Fin k0_t1_loop.trips) : ∀ a, bOff t.val a + S1x2048.size a ≤ S16x2048.size a := k0_off2_inb t
abbrev bufRow (s : Fin 3) (t : Fin k0_t1_loop.trips) : Memref sig .scVector .vmem S2048 .f32 :=
  (((slotM s).slice (Rect.unit (s := S16x2048) (bOff t.val) S1x2048.size (bOff_inb t)) (fun _ => rfl)).squeeze S2048 squeezes_S1x2048_S2048)

/-- Row `t` of chunk `r` in the flat output. -/
theorem offO_inb (i : grid0.Coords) (r : Fin 32) (t : Fin k0_t1_loop.trips) :
    ∀ a, offO i (BitVec.ofNat 32 (32768 * r.val)) t.val a + S1x2048.size a ≤ S4x8388608.size a := by
  have ht : t.val < 16 := t.isLt
  have hw := wid_lt i; have hr := r.isLt
  rw [offO_closed i r t.val ht]
  intro a
  match a with
  | ⟨0, _⟩ => show wid i / 8 + 1 ≤ 4; omega
  | ⟨1, _⟩ => show (wid i % 8 * 512 + 16 * r.val + t.val) * 2048 + 2048 ≤ 8388608; omega
abbrev oRow (i : grid0.Coords) (r : Fin 32) (t : Fin k0_t1_loop.trips) : Memref sig .scVector .hbm S2048 .f32 :=
  ((oV.slice (Rect.unit (s := S4x8388608) (offO i (BitVec.ofNat 32 (32768 * r.val)) t.val) S1x2048.size (offO_inb i r t)) (fun _ => rfl)).squeeze S2048 squeezes_S1x2048_S2048)

/-- Start fetching chunk `r` into slot `s`. -/
def fetch (i : grid0.Coords) (s : Fin 3) (r : Fin 32) : Prog (TpuEff nD τ sig (Elt F) Λ₀ (.scVector ((i 0).castLE hcore0) ((i 1).castLE hsub0))) PUnit :=
  Prog.lift (.enqueueDma (xChunk i r) (.here (slotM s)) (.dma (inSem s).sem) ((View.wordExact_bits rfl).reshape _ _) ((View.wordExact_bits rfl).reshape _ _) ⟨Or.inl rfl, trivial⟩)
/-- Wait for that fetch. -/
def fetched (i : grid0.Coords) (s : Fin 3) (r : Fin 32) : Prog (TpuEff nD τ sig (Elt F) Λ₀ (.scVector ((i 0).castLE hcore0) ((i 1).castLE hsub0))) PUnit :=
  Prog.lift (.waitDma2 (inSem s).sem (xChunk i r) (slotM s) ((View.wordExact_bits rfl).reshape _ _) ((View.wordExact_bits rfl).reshape _ _))
/-- Start copying slot `s`, holding chunk `r`, out to the flat output: one copy per row. -/
def drain (i : grid0.Coords) (s : Fin 3) (r : Fin 32) : Prog (TpuEff nD τ sig (Elt F) Λ₀ (.scVector ((i 0).castLE hcore0) ((i 1).castLE hsub0))) PUnit :=
  Scf.Loop.for k0_t1_loop k0_t1_ok ⟨⟩ fun t _ => do
    Prog.lift (.enqueueDma (bufRow s t) (.here (oRow i r t)) (.dma (outSem s).sem) ((View.wordExact_bits rfl).reshape _ _) ((View.wordExact_bits rfl).reshape _ _) ⟨Or.inl rfl, trivial⟩)
    pure ⟨⟩
/-- Wait for those sixteen copies. -/
def drained (i : grid0.Coords) (s : Fin 3) (r : Fin 32) : Prog (TpuEff nD τ sig (Elt F) Λ₀ (.scVector ((i 0).castLE hcore0) ((i 1).castLE hsub0))) PUnit :=
  Scf.Loop.for k0_t1_loop k0_t1_ok ⟨⟩ fun t _ => do
    Prog.lift (.waitDma2 (outSem s).sem (bufRow s t) (oRow i r t) ((View.wordExact_bits rfl).reshape _ _) ((View.wordExact_bits rfl).reshape _ _))
    pure ⟨⟩

abbrev sl (r : Nat) : Fin 3 := ⟨r % 3, Nat.mod_lt _ (by decide)⟩
abbrev ch (r : Nat) : Fin 32 := ⟨r % 32, Nat.mod_lt _ (by decide)⟩

/-- The steady state, `n` chunks from chunk `r` on: drain chunk r − 1's copies-out, fetch chunk r + 2 into the slot
    they freed, take chunk r's fetch, start its copies-out. -/
def steady (i : grid0.Coords) : Nat → Nat → Prog (TpuEff nD τ sig (Elt F) Λ₀ (.scVector ((i 0).castLE hcore0) ((i 1).castLE hsub0))) PUnit → Prog (TpuEff nD τ sig (Elt F) Λ₀ (.scVector ((i 0).castLE hcore0) ((i 1).castLE hsub0))) PUnit
  | 0, _, k => k
  | n + 1, r, k => do
      drained i (sl (r + 2)) (ch (r - 1))
      fetch i (sl (r + 2)) (ch (r + 2))
      fetched i (sl r) (ch r)
      drain i (sl r) (ch r)
      steady i n (r + 1) k

/-- The whole body. -/
def body (i : grid0.Coords) : Prog (TpuEff nD τ sig (Elt F) Λ₀ (.scVector ((i 0).castLE hcore0) ((i 1).castLE hsub0))) PUnit := do
  fetch i 0 0
  fetch i 1 1
  fetch i 2 2
  fetched i 0 0
  drain i 0 0
  steady i 29 1 (do
    fetched i (sl 30) (ch 30)
    drain i (sl 30) (ch 30)
    fetched i (sl 31) (ch 31)
    drain i (sl 31) (ch 31)
    drained i (sl 29) (ch 29)
    drained i (sl 30) (ch 30)
    drained i (sl 31) (ch 31)
    pure ⟨⟩)

/-! ## The printed parts are these moves

The printed body is cut by count into thirty parts; each is a run of the moves above, and the words it passes on
(the stripe's first row and first element) are read by no move. -/

set_option maxRecDepth 200000

theorem part2_eq (i : grid0.Coords) (v29 : BitVec 32) :
    k0_part2 (F := F) i xV (Memref.isWhole_whole _) oV (Memref.isWhole_whole _) sB (Memref.isWhole_whole _) cc0_scratch1 cc0_scratch2 v29
      = (do fetch i 0 0; fetch i 1 1; fetch i 2 2; pure ⟨⟩) := rfl
theorem part3_eq (i : grid0.Coords) (v29 v30 : BitVec 32) :
    k0_part3 (F := F) i xV (Memref.isWhole_whole _) oV (Memref.isWhole_whole _) sB (Memref.isWhole_whole _) cc0_scratch1 cc0_scratch2 v29 v30
      = (do fetched i 0 0; drain i 0 0; drained i 0 0; fetch i 0 3; pure ⟨⟩) := rfl
theorem part4_eq (i : grid0.Coords) (v29 v30 : BitVec 32) :
    k0_part4 (F := F) i xV (Memref.isWhole_whole _) oV (Memref.isWhole_whole _) sB (Memref.isWhole_whole _) cc0_scratch1 cc0_scratch2 v29 v30
      = (do fetched i 1 1; drain i 1 1; drained i 1 1; fetch i 1 4; pure ⟨⟩) := rfl
theorem part5_eq (i : grid0.Coords) (v29 v30 : BitVec 32) :
    k0_part5 (F := F) i xV (Memref.isWhole_whole _) oV (Memref.isWhole_whole _) sB (Memref.isWhole_whole _) cc0_scratch1 cc0_scratch2 v29 v30
      = (do fetched i 2 2; drain i 2 2; drained i 2 2; fetch i 2 5; fetched i 0 3; drain i 0 3; pure ⟨⟩) := rfl
theorem part6_eq (i : grid0.Coords) (v29 v30 : BitVec 32) :
    k0_part6 (F := F) i xV (Memref.isWhole_whole _) oV (Memref.isWhole_whole _) sB (Memref.isWhole_whole _) cc0_scratch1 cc0_scratch2 v29 v30
      = (do drained i 0 3; fetch i 0 6; fetched i 1 4; drain i 1 4; drained i 1 4; pure ⟨⟩) := rfl
theorem part7_eq (i : grid0.Coords) (v29 v30 : BitVec 32) :
    k0_part7 (F := F) i xV (Memref.isWhole_whole _) oV (Memref.isWhole_whole _) sB (Memref.isWhole_whole _) cc0_scratch1 cc0_scratch2 v29 v30
      = (do fetch i 1 7; fetched i 2 5; drain i 2 5; drained i 2 5; pure ⟨⟩) := rfl
theorem part8_eq (i : grid0.Coords) (v29 v30 : BitVec 32) :
    k0_part8 (F := F) i xV (Memref.isWhole_whole _) oV (Memref.isWhole_whole _) sB (Memref.isWhole_whole _) cc0_scratch1 cc0_scratch2 v29 v30
      = (do fetch i 2 8; fetched i 0 6; drain i 0 6; drained i 0 6; pure ⟨⟩) := rfl
theorem part9_eq (i : grid0.Coords) (v29 v30 : BitVec 32) :
    k0_part9 (F := F) i xV (Memref.isWhole_whole _) oV (Memref.isWhole_whole _) sB (Memref.isWhole_whole _) cc0_scratch1 cc0_scratch2 v29 v30
      = (do fetch i 0 9; fetched i 1 7; drain i 1 7; drained i 1 7; pure ⟨⟩) := rfl
theorem part10_eq (i : grid0.Coords) (v29 v30 : BitVec 32) :
    k0_part10 (F := F) i xV (Memref.isWhole_whole _) oV (Memref.isWhole_whole _) sB (Memref.isWhole_whole _) cc0_scratch1 cc0_scratch2 v29 v30
      = (do fetch i 1 10; fetched i 2 8; drain i 2 8; drained i 2 8; fetch i 2 11; pure ⟨⟩) := rfl
theorem part11_eq (i : grid0.Coords) (v29 v30 : BitVec 32) :
    k0_part11 (F := F) i xV (Memref.isWhole_whole _) oV (Memref.isWhole_whole _) sB (Memref.isWhole_whole _) cc0_scratch1 cc0_scratch2 v29 v30
      = (do fetched i 0 9; drain i 0 9; drained i 0 9; fetch i 0 12; pure ⟨⟩) := rfl
theorem part12_eq (i : grid0.Coords) (v29 v30 : BitVec 32) :
    k0_part12 (F := F) i xV (Memref.isWhole_whole _) oV (Memref.isWhole_whole _) sB (Memref.isWhole_whole _) cc0_scratch1 cc0_scratch2 v29 v30
      = (do fetched i 1 10; drain i 1 10; drained i 1 10; fetch i 1 13; pure ⟨⟩) := rfl
theorem part13_eq (i : grid0.Coords) (v29 v30 : BitVec 32) :
    k0_part13 (F := F) i xV (Memref.isWhole_whole _) oV (Memref.isWhole_whole _) sB (Memref.isWhole_whole _) cc0_scratch1 cc0_scratch2 v29 v30
      = (do fetched i 2 11; drain i 2 11; drained i 2 11; fetch i 2 14; pure ⟨⟩) := rfl
theorem part14_eq (i : grid0.Coords) (v29 v30 : BitVec 32) :
    k0_part14 (F := F) i xV (Memref.isWhole_whole _) oV (Memref.isWhole_whole _) sB (Memref.isWhole_whole _) cc0_scratch1 cc0_scratch2 v29 v30
      = (do fetched i 0 12; drain i 0 12; drained i 0 12; fetch i 0 15; fetched i 1 13; drain i 1 13; pure ⟨⟩) := rfl
theorem part15_eq (i : grid0.Coords) (v29 v30 : BitVec 32) :
    k0_part15 (F := F) i xV (Memref.isWhole_whole _) oV (Memref.isWhole_whole _) sB (Memref.isWhole_whole _) cc0_scratch1 cc0_scratch2 v29 v30
      = (do drained i 1 13; fetch i 1 16; fetched i 2 14; drain i 2 14; drained i 2 14; pure ⟨⟩) := rfl
theorem part16_eq (i : grid0.Coords) (v29 v30 : BitVec 32) :
    k0_part16 (F := F) i xV (Memref.isWhole_whole _) oV (Memref.isWhole_whole _) sB (Memref.isWhole_whole _) cc0_scratch1 cc0_scratch2 v29 v30
      = (do fetch i 2 17; fetched i 0 15; drain i 0 15; drained i 0 15; pure ⟨⟩) := rfl
theorem part17_eq (i : grid0.Coords) (v29 v30 : BitVec 32) :
    k0_part17 (F := F) i xV (Memref.isWhole_whole _) oV (Memref.isWhole_whole _) sB (Memref.isWhole_whole _) cc0_scratch1 cc0_scratch2 v29 v30
      = (do fetch i 0 18; fetched i 1 16; drain i 1 16; drained i 1 16; pure ⟨⟩) := rfl
theorem part18_eq (i : grid0.Coords) (v29 v30 : BitVec 32) :
    k0_part18 (F := F) i xV (Memref.isWhole_whole _) oV (Memref.isWhole_whole _) sB (Memref.isWhole_whole _) cc0_scratch1 cc0_scratch2 v29 v30
      = (do fetch i 1 19; fetched i 2 17; drain i 2 17; drained i 2 17; pure ⟨⟩) := rfl
theorem part19_eq (i : grid0.Coords) (v29 v30 : BitVec 32) :
    k0_part19 (F := F) i xV (Memref.isWhole_whole _) oV (Memref.isWhole_whole _) sB (Memref.isWhole_whole _) cc0_scratch1 cc0_scratch2 v29 v30
      = (do fetch i 2 20; fetched i 0 18; drain i 0 18; drained i 0 18; fetch i 0 21; pure ⟨⟩) := rfl
theorem part20_eq (i : grid0.Coords) (v29 v30 : BitVec 32) :
    k0_part20 (F := F) i xV (Memref.isWhole_whole _) oV (Memref.isWhole_whole _) sB (Memref.isWhole_whole _) cc0_scratch1 cc0_scratch2 v29 v30
      = (do fetched i 1 19; drain i 1 19; drained i 1 19; fetch i 1 22; pure ⟨⟩) := rfl
theorem part21_eq (i : grid0.Coords) (v29 v30 : BitVec 32) :
    k0_part21 (F := F) i xV (Memref.isWhole_whole _) oV (Memref.isWhole_whole _) sB (Memref.isWhole_whole _) cc0_scratch1 cc0_scratch2 v29 v30
      = (do fetched i 2 20; drain i 2 20; drained i 2 20; fetch i 2 23; pure ⟨⟩) := rfl
theorem part22_eq (i : grid0.Coords) (v29 v30 : BitVec 32) :
    k0_part22 (F := F) i xV (Memref.isWhole_whole _) oV (Memref.isWhole_whole _) sB (Memref.isWhole_whole _) cc0_scratch1 cc0_scratch2 v29 v30
      = (do fetched i 0 21; drain i 0 21; drained i 0 21; fetch i 0 24; pure ⟨⟩) := rfl
theorem part23_eq (i : grid0.Coords) (v29 v30 : BitVec 32) :
    k0_part23 (F := F) i xV (Memref.isWhole_whole _) oV (Memref.isWhole_whole _) sB (Memref.isWhole_whole _) cc0_scratch1 cc0_scratch2 v29 v30
      = (do fetched i 1 22; drain i 1 22; drained i 1 22; fetch i 1 25; fetched i 2 23; drain i 2 23; pure ⟨⟩) := rfl
theorem part24_eq (i : grid0.Coords) (v29 v30 : BitVec 32) :
    k0_part24 (F := F) i xV (Memref.isWhole_whole _) oV (Memref.isWhole_whole _) sB (Memref.isWhole_whole _) cc0_scratch1 cc0_scratch2 v29 v30
      = (do drained i 2 23; fetch i 2 26; fetched i 0 24; drain i 0 24; drained i 0 24; pure ⟨⟩) := rfl
theorem part25_eq (i : grid0.Coords) (v29 v30 : BitVec 32) :
    k0_part25 (F := F) i xV (Memref.isWhole_whole _) oV (Memref.isWhole_whole _) sB (Memref.isWhole_whole _) cc0_scratch1 cc0_scratch2 v29 v30
      = (do fetch i 0 27; fetched i 1 25; drain i 1 25; drained i 1 25; pure ⟨⟩) := rfl
theorem part26_eq (i : grid0.Coords) (v29 v30 : BitVec 32) :
    k0_part26 (F := F) i xV (Memref.isWhole_whole _) oV (Memref.isWhole_whole _) sB (Memref.isWhole_whole _) cc0_scratch1 cc0_scratch2 v29 v30
      = (do fetch i 1 28; fetched i 2 26; drain i 2 26; drained i 2 26; pure ⟨⟩) := rfl
theorem part27_eq (i : grid0.Coords) (v29 v30 : BitVec 32) :
    k0_part27 (F := F) i xV (Memref.isWhole_whole _) oV (Memref.isWhole_whole _) sB (Memref.isWhole_whole _) cc0_scratch1 cc0_scratch2 v29 v30
      = (do fetch i 2 29; fetched i 0 27; drain i 0 27; drained i 0 27; pure ⟨⟩) := rfl
theorem part28_eq (i : grid0.Coords) (v29 v30 : BitVec 32) :
    k0_part28 (F := F) i xV (Memref.isWhole_whole _) oV (Memref.isWhole_whole _) sB (Memref.isWhole_whole _) cc0_scratch1 cc0_scratch2 v29 v30
      = (do fetch i 0 30; fetched i 1 28; drain i 1 28; drained i 1 28; fetch i 1 31; pure ⟨⟩) := rfl
theorem part29_eq (i : grid0.Coords) (v29 v30 : BitVec 32) :
    k0_part29 (F := F) i xV (Memref.isWhole_whole _) oV (Memref.isWhole_whole _) sB (Memref.isWhole_whole _) cc0_scratch1 cc0_scratch2 v29 v30
      = (do fetched i 2 29; drain i 2 29; fetched i 0 30; drain i 0 30; pure ⟨⟩) := rfl
theorem part1_pure (i : grid0.Coords) : ∃ p, k0_part1 (F := F) i xV (Memref.isWhole_whole _) oV (Memref.isWhole_whole _) sB (Memref.isWhole_whole _) cc0_scratch1 cc0_scratch2 = pure p := ⟨_, rfl⟩
theorem part30_eq (i : grid0.Coords) :
    k0_part30 (F := F) i xV (Memref.isWhole_whole _) oV (Memref.isWhole_whole _) sB (Memref.isWhole_whole _) cc0_scratch1 cc0_scratch2
      = (do
          let ⟨v29, v30⟩ ← k0_part1 (F := F) i xV (Memref.isWhole_whole _) oV (Memref.isWhole_whole _) sB (Memref.isWhole_whole _) cc0_scratch1 cc0_scratch2
          k0_part2 (F := F) i xV (Memref.isWhole_whole _) oV (Memref.isWhole_whole _) sB (Memref.isWhole_whole _) cc0_scratch1 cc0_scratch2 v29
          k0_part3 (F := F) i xV (Memref.isWhole_whole _) oV (Memref.isWhole_whole _) sB (Memref.isWhole_whole _) cc0_scratch1 cc0_scratch2 v29 v30
          k0_part4 (F := F) i xV (Memref.isWhole_whole _) oV (Memref.isWhole_whole _) sB (Memref.isWhole_whole _) cc0_scratch1 cc0_scratch2 v29 v30
          k0_part5 (F := F) i xV (Memref.isWhole_whole _) oV (Memref.isWhole_whole _) sB (Memref.isWhole_whole _) cc0_scratch1 cc0_scratch2 v29 v30
          k0_part6 (F := F) i xV (Memref.isWhole_whole _) oV (Memref.isWhole_whole _) sB (Memref.isWhole_whole _) cc0_scratch1 cc0_scratch2 v29 v30
          k0_part7 (F := F) i xV (Memref.isWhole_whole _) oV (Memref.isWhole_whole _) sB (Memref.isWhole_whole _) cc0_scratch1 cc0_scratch2 v29 v30
          k0_part8 (F := F) i xV (Memref.isWhole_whole _) oV (Memref.isWhole_whole _) sB (Memref.isWhole_whole _) cc0_scratch1 cc0_scratch2 v29 v30
          k0_part9 (F := F) i xV (Memref.isWhole_whole _) oV (Memref.isWhole_whole _) sB (Memref.isWhole_whole _) cc0_scratch1 cc0_scratch2 v29 v30
          k0_part10 (F := F) i xV (Memref.isWhole_whole _) oV (Memref.isWhole_whole _) sB (Memref.isWhole_whole _) cc0_scratch1 cc0_scratch2 v29 v30
          k0_part11 (F := F) i xV (Memref.isWhole_whole _) oV (Memref.isWhole_whole _) sB (Memref.isWhole_whole _) cc0_scratch1 cc0_scratch2 v29 v30
          k0_part12 (F := F) i xV (Memref.isWhole_whole _) oV (Memref.isWhole_whole _) sB (Memref.isWhole_whole _) cc0_scratch1 cc0_scratch2 v29 v30
          k0_part13 (F := F) i xV (Memref.isWhole_whole _) oV (Memref.isWhole_whole _) sB (Memref.isWhole_whole _) cc0_scratch1 cc0_scratch2 v29 v30
          k0_part14 (F := F) i xV (Memref.isWhole_whole _) oV (Memref.isWhole_whole _) sB (Memref.isWhole_whole _) cc0_scratch1 cc0_scratch2 v29 v30
          k0_part15 (F := F) i xV (Memref.isWhole_whole _) oV (Memref.isWhole_whole _) sB (Memref.isWhole_whole _) cc0_scratch1 cc0_scratch2 v29 v30
          k0_part16 (F := F) i xV (Memref.isWhole_whole _) oV (Memref.isWhole_whole _) sB (Memref.isWhole_whole _) cc0_scratch1 cc0_scratch2 v29 v30
          k0_part17 (F := F) i xV (Memref.isWhole_whole _) oV (Memref.isWhole_whole _) sB (Memref.isWhole_whole _) cc0_scratch1 cc0_scratch2 v29 v30
          k0_part18 (F := F) i xV (Memref.isWhole_whole _) oV (Memref.isWhole_whole _) sB (Memref.isWhole_whole _) cc0_scratch1 cc0_scratch2 v29 v30
          k0_part19 (F := F) i xV (Memref.isWhole_whole _) oV (Memref.isWhole_whole _) sB (Memref.isWhole_whole _) cc0_scratch1 cc0_scratch2 v29 v30
          k0_part20 (F := F) i xV (Memref.isWhole_whole _) oV (Memref.isWhole_whole _) sB (Memref.isWhole_whole _) cc0_scratch1 cc0_scratch2 v29 v30
          k0_part21 (F := F) i xV (Memref.isWhole_whole _) oV (Memref.isWhole_whole _) sB (Memref.isWhole_whole _) cc0_scratch1 cc0_scratch2 v29 v30
          k0_part22 (F := F) i xV (Memref.isWhole_whole _) oV (Memref.isWhole_whole _) sB (Memref.isWhole_whole _) cc0_scratch1 cc0_scratch2 v29 v30
          k0_part23 (F := F) i xV (Memref.isWhole_whole _) oV (Memref.isWhole_whole _) sB (Memref.isWhole_whole _) cc0_scratch1 cc0_scratch2 v29 v30
          k0_part24 (F := F) i xV (Memref.isWhole_whole _) oV (Memref.isWhole_whole _) sB (Memref.isWhole_whole _) cc0_scratch1 cc0_scratch2 v29 v30
          k0_part25 (F := F) i xV (Memref.isWhole_whole _) oV (Memref.isWhole_whole _) sB (Memref.isWhole_whole _) cc0_scratch1 cc0_scratch2 v29 v30
          k0_part26 (F := F) i xV (Memref.isWhole_whole _) oV (Memref.isWhole_whole _) sB (Memref.isWhole_whole _) cc0_scratch1 cc0_scratch2 v29 v30
          k0_part27 (F := F) i xV (Memref.isWhole_whole _) oV (Memref.isWhole_whole _) sB (Memref.isWhole_whole _) cc0_scratch1 cc0_scratch2 v29 v30
          k0_part28 (F := F) i xV (Memref.isWhole_whole _) oV (Memref.isWhole_whole _) sB (Memref.isWhole_whole _) cc0_scratch1 cc0_scratch2 v29 v30
          k0_part29 (F := F) i xV (Memref.isWhole_whole _) oV (Memref.isWhole_whole _) sB (Memref.isWhole_whole _) cc0_scratch1 cc0_scratch2 v29 v30
          fetched i 1 31; drain i 1 31; drained i 2 29; drained i 0 30
          pure v30) := rfl
theorem top_eq (i : grid0.Coords) :
    cc0__sc_copy (F := F) i xV (Memref.isWhole_whole _) oV (Memref.isWhole_whole _) sB (Memref.isWhole_whole _) cc0_scratch1 cc0_scratch2
      = (do
          let _ ← k0_part30 (F := F) i xV (Memref.isWhole_whole _) oV (Memref.isWhole_whole _) sB (Memref.isWhole_whole _) cc0_scratch1 cc0_scratch2
          drained i 1 31
          pure ⟨⟩) := rfl

/-- The printed body is the sequence `body`: part by part, then by the monad's associativity. -/
theorem body_eq (i : grid0.Coords) : cc0__sc_copy (F := F) i xV (Memref.isWhole_whole _) oV (Memref.isWhole_whole _) sB (Memref.isWhole_whole _) cc0_scratch1 cc0_scratch2 = body i := by
  obtain ⟨⟨w29, w30⟩, hp⟩ := part1_pure (F := F) i
  rw [top_eq, part30_eq, hp]
  simp only [part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, bind_assoc, pure_bind]
  rfl

end Cert.Kernel.Copy

end
-- ==== Proof.Value.lean ====
/-
  The output as one function of the input.  The flat output's element (b, e) is the input's element
  (b, e / 2048, e mod 2048): rows of 2048 laid end to end.  A row copy of the kernel moves row t of a slot holding
  chunk r — the input's rows ρ + t, ρ = (w mod 8)·512 + 16·r, of batch entry w / 8 — to the 2048 output elements
  from (ρ + t)·2048 on, so what it leaves there is this function: element j of that row is the input's (b, ρ + t, j),
  and ((ρ + t)·2048 + j) / 2048 = ρ + t, ((ρ + t)·2048 + j) mod 2048 = j.
-/
import proofs.«214764_g20993800143467_cont_8to1_1661_21_alg».proof.Proof.Pieces
import Idealize.ShloMosaic.Lib.ValueIdx
import Idealize.ShloMosaic.Lib.ValueLayout

noncomputable section

namespace Cert.Kernel.Copy

open Idealize.ShloMosaic Idealize.SL.Sem Cert.Kernel Cert.Kernel.Gen Cert.Kernel.Stripe
open Idealize.ShloMosaic.ValueIdx

/-- The input position a flat output position comes from. -/
def unflat (j : S4x8388608.Idx) : S4x4096x2048.Idx :=
  ix3 (n0 := 4) (n1 := 4096) (n2 := 2048) (j 0)
    ⟨(j 1).val / 2048, by have h : (j 1).val < 8388608 := (j 1).isLt; omega⟩
    ⟨(j 1).val % 2048, Nat.mod_lt _ (by decide)⟩

/-- The flat output, as a function of the input's contents. -/
def reshaped {Val : EltTy → Type} (x : S4x4096x2048.Idx → Val .f32) : S4x8388608.Idx → Val .f32 := fun j => x (unflat j)

theorem trip_lt (t : Fin k0_t1_loop.trips) : t.val < 16 := lt_of_lt_of_eq t.isLt (by decide)

/-- Row `t` of a 16 × 2048 block, read as a vector: its element `j` is the block's element (t, j). -/
theorem emb_row_of {κ : Kind} {sp : Space} (M : Memref sig κ sp S16x2048 .f32) (off : Fin 2 → Nat)
    (inb : ∀ a, off a + S1x2048.size a ≤ S16x2048.size a) (t : Fin 16) (hoff : off = ![t.val, 0]) (j0 : Fin 2048) :
    ((M.slice (Rect.unit (s := S16x2048) off S1x2048.size inb) (fun _ => rfl)).squeeze S2048 squeezes_S1x2048_S2048).view.emb (ix1 j0)
      = M.view.emb (ix2 t j0) := by
  simp only [Memref.view_squeeze, Memref.view_slice, View.emb_reshape, View.emb_slice, Function.Embedding.trans_apply, Equiv.coe_toEmbedding]
  congr 1
  rw [Shape.reshapeEquiv_cons_one]
  funext a; apply Fin.ext
  rw [Rect.emb_apply]
  subst hoff
  match a with
  | ⟨0, _⟩ => show t.val + 1 * 0 = t.val; omega
  | ⟨1, _⟩ => show 0 + 1 * j0.val = j0.val; omega

theorem emb_bufRow (s : Fin 3) (t : Fin k0_t1_loop.trips) (j0 : Fin 2048) :
    (bufRow s t).view.emb (ix1 j0) = (slotM s).view.emb (ix2 (n0 := 16) (n1 := 2048) ⟨t.val, trip_lt t⟩ j0) :=
  emb_row_of (slotM s) (bOff t.val) (bOff_inb t) ⟨t.val, trip_lt t⟩ (bOff_eq t) j0

/-- Element (t, j) of a 16-row chunk cut out of the whole input at `off`. -/
theorem emb_chunk_of (off : Fin 3 → Nat) (inb : ∀ a, off a + S1x16x2048.size a ≤ S4x4096x2048.size a) (t : Fin 16) (j0 : Fin 2048) :
    ((xV.slice (Rect.unit (s := S4x4096x2048) off S1x16x2048.size inb) (fun _ => rfl)).squeeze S16x2048 squeezes_S1x16x2048_S16x2048).view.emb (ix2 t j0)
      = (Rect.unit (s := S4x4096x2048) off S1x16x2048.size inb).emb (ix3 (⟨0, Nat.one_pos⟩ : Fin 1) t j0) := by
  simp only [Memref.view_squeeze, Memref.view_slice, Memref.view_whole, View.emb_reshape, View.emb_slice,
    Function.Embedding.trans_apply, Equiv.coe_toEmbedding]
  show (Rect.unit (s := S4x4096x2048) off S1x16x2048.size inb).emb (Shape.reshapeEquiv _ (ix2 t j0)) = _
  rw [reshapeEquiv_ix2_1ab]

/-- Element `j` of a 2048-element row cut out of the whole flat output at `off`. -/
theorem emb_orow_of (off : Fin 2 → Nat) (inb : ∀ a, off a + S1x2048.size a ≤ S4x8388608.size a) (j0 : Fin 2048) :
    ((oV.slice (Rect.unit (s := S4x8388608) off S1x2048.size inb) (fun _ => rfl)).squeeze S2048 squeezes_S1x2048_S2048).view.emb (ix1 j0)
      = (Rect.unit (s := S4x8388608) off S1x2048.size inb).emb (Fin.cons (⟨0, Nat.one_pos⟩ : Fin 1) (ix1 j0)) := by
  simp only [Memref.view_squeeze, Memref.view_slice, Memref.view_whole, View.emb_reshape, View.emb_slice,
    Function.Embedding.trans_apply, Equiv.coe_toEmbedding]
  show (Rect.unit (s := S4x8388608) off S1x2048.size inb).emb (Shape.reshapeEquiv _ (ix1 j0)) = _
  rw [Shape.reshapeEquiv_cons_one]
  rfl

/-- Element (t, j) of chunk `r` of the input is where element `j` of row `t` of that chunk in the flat output comes from. -/
theorem emb_row (i : grid0.Coords) (r : Fin 32) (t : Fin k0_t1_loop.trips) (j0 : Fin 2048) :
    (xChunk i r).view.emb (ix2 (n0 := 16) (n1 := 2048) ⟨t.val, trip_lt t⟩ j0) = unflat ((oRow i r t).view.emb (ix1 j0)) := by
  have ht := trip_lt t
  have hj : j0.val < 2048 := j0.isLt
  have hx := off1_closed i r
  have ho := offO_closed i r t.val ht
  rw [show (xChunk i r).view.emb (ix2 (n0 := 16) (n1 := 2048) ⟨t.val, trip_lt t⟩ j0) = _ from emb_chunk_of _ (k0_off1_inb i r) ⟨t.val, trip_lt t⟩ j0,
    show (oRow i r t).view.emb (ix1 j0) = _ from emb_orow_of _ (offO_inb i r t) j0]
  funext a; apply Fin.ext
  match a with
  | ⟨0, _⟩ =>
    show k0_off1 i (BitVec.ofNat 32 (16 * r.val)) 0 + 1 * 0 = offO i (BitVec.ofNat 32 (32768 * r.val)) t.val 0 + 1 * 0
    rw [hx, ho]; rfl
  | ⟨1, _⟩ =>
    show k0_off1 i (BitVec.ofNat 32 (16 * r.val)) 1 + 1 * t.val
      = (offO i (BitVec.ofNat 32 (32768 * r.val)) t.val 1 + 1 * j0.val) / 2048
    rw [hx, ho]
    show wid i % 8 * 512 + 16 * r.val + 1 * t.val = ((wid i % 8 * 512 + 16 * r.val + t.val) * 2048 + 1 * j0.val) / 2048
    omega
  | ⟨2, _⟩ =>
    show k0_off1 i (BitVec.ofNat 32 (16 * r.val)) 2 + 1 * j0.val
      = (offO i (BitVec.ofNat 32 (32768 * r.val)) t.val 1 + 1 * j0.val) % 2048
    rw [hx, ho]
    show 0 + 1 * j0.val = ((wid i % 8 * 512 + 16 * r.val + t.val) * 2048 + 1 * j0.val) % 2048
    omega

/-- What a row copy lands, from a slot that holds chunk `r`, is the reshaped input's row. -/
theorem row_value {Val : EltTy → Type} (i : grid0.Coords) (s : Fin 3) (r : Fin 32) (t : Fin k0_t1_loop.trips)
    (mx : S4x4096x2048.Idx → Val .f32) (f : S3x16x2048.Idx → Val .f32) (g : S4x8388608.Idx → Val .f32)
    (hH : (slotM s).view.read Val f = (xChunk i r).view.read Val mx) :
    ∀ x ∈ (oRow i r t).view.set,
      (oRow i r t).view.write Val g (ReadAs.same.apply ((bufRow s t).view.read Val f)) Finset.univ x = reshaped mx x := by
  intro x hx
  obtain ⟨j, -, rfl⟩ := Finset.mem_map.mp (show x ∈ Finset.univ.map (oRow i r t).view.emb from hx)
  obtain ⟨j0, rfl⟩ : ∃ j0 : Fin 2048, j = ix1 j0 := ⟨j 0, eq_ix1 j⟩
  rw [View.write_emb_of_mem _ _ (Finset.mem_univ _)]
  have h2 := congrFun hH (ix2 (n0 := 16) (n1 := 2048) ⟨t.val, trip_lt t⟩ j0)
  rw [View.read_apply, View.read_apply, emb_row i r t j0] at h2
  show _root_.cast _ ((bufRow s t).view.read Val f (ix1 j0)) = mx (unflat ((oRow i r t).view.emb (ix1 j0)))
  rw [View.read_apply, emb_bufRow]
  simp only [cast_eq] at h2 ⊢
  exact h2

end Cert.Kernel.Copy

end
-- ==== Proof.Moves.lean ====
/-
  What each of the four moves does to what a worker holds.  A worker holds its 32 chunks of the input, the 512 rows
  of the output it is to write, its three slots and their six semaphore counters.  A fetch lends a chunk and a slot
  to the copy engine and gets them back at its wait, the slot then holding the chunk; the sixteen row copies of a
  drain lend the slot's rows and the output's rows, on one semaphore, and only the last of their sixteen waits
  hands anything back: every row of the output then holds its row of the chunk.
-/
import proofs.«214764_g20993800143467_cont_8to1_1661_21_alg».proof.Defs
import proofs.«214764_g20993800143467_cont_8to1_1661_21_alg».proof.Proof.Gen.Kernel
import proofs.«214764_g20993800143467_cont_8to1_1661_21_alg».proof.Proof.Stripe
import proofs.«214764_g20993800143467_cont_8to1_1661_21_alg».proof.Proof.Pieces
import proofs.«214764_g20993800143467_cont_8to1_1661_21_alg».proof.Proof.Value
import Idealize.ShloMosaic.Lib.SparseCore.Launch
import Idealize.ShloMosaic.Lib.Batch
import Idealize.ShloMosaic.Lib.Pipeline.Kit
import Idealize.ShloMosaic.Lib.Tactic

noncomputable section

namespace Cert.Kernel.Copy

open Cert.Kernel Cert.Kernel.Gen Cert.Kernel.Stripe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

variable [FloatOps F]
variable (d : Dev nD) (i : grid0.Coords)

/-- The worker's thread. -/
abbrev thr : Thread nD τ := V d ((i 0).castLE hcore0) ((i 1).castLE hsub0)

/-- Chunk `r` of the input, held. -/
abbrev xPts (r : Fin 32) : sProp 𝕄 := (xChunk i r).view.loc (thr d i) ↦[(xChunk i r).view.set]{fullShare} m (xLoc d)
/-- Slot `s`, held at `f`. -/
abbrev slotPts (s : Fin 3) (f : Buf (Elt F) ((slotM s).view.loc (thr d i))) : sProp 𝕄 :=
  (slotM s).view.loc (thr d i) ↦[(slotM s).view.set]{fullShare} f
/-- Slot `s` holds chunk `r`: read as a 16 × 2048 block it is that chunk of the input. -/
def Holds (s : Fin 3) (r : Fin 32) (f : Buf (Elt F) ((slotM s).view.loc (thr d i))) : Prop :=
  (slotM s).view.read (Elt F) f = (xChunk i r).view.read (Elt F) (m (xLoc d))
abbrev slotHolds (s : Fin 3) (r : Fin 32) : sProp 𝕄 := iprop(∃ f, ⌜Holds m d i s r f⌝ ∗ slotPts d i s f)

abbrev inCell (s : Fin 3) : SemLoc sig := SemLoc.dma (inSem s).sem
abbrev outCell (s : Fin 3) : SemLoc sig := SemLoc.dma (outSem s).sem

/-- The credit of a fetch. -/
abbrev NIn (s : Fin 3) : ℕ := (slotM s).view.amount (inCell s)
theorem NIn_pos (s : Fin 3) : 0 < NIn s := View.amount_pos _ _ (by decide)

/-- A fetch in flight: at its wait the slot comes back holding the chunk, and the chunk comes back. -/
abbrev fetching (s : Fin 3) (r : Fin 32) : sProp 𝕄 :=
  Transfers.Flight (EC (F := F)) (thr d i) (inCell s) (none : HIx 1) (NIn s) iprop(slotHolds m d i s r ∗ xPts m d i r)

/-- Starting a fetch. -/
theorem fetch_spec (s : Fin 3) (r : Fin 32) {α : Type} (k : PUnit → Prog (TpuEff nD τ sig (Elt F) Λ₀ (thr d i).2) α) (Q : α → sProp 𝕄)
    (fd : Buf (Elt F) ((slotM s).view.loc (thr d i))) :
    iprop(xPts m d i r ∗ slotPts d i s fd ∗ semVal (thr d i, inCell s) 0)
      ⊢ iprop((fetching m d i s r -∗ wp frame (wpE (defs₀ (F := F)) 𝒱₀ (thr d i) none) Set.univ (k ⟨⟩) Q)
          -∗ wp frame (wpE (defs₀ (F := F)) 𝒱₀ (thr d i) none) Set.univ (fetch i s r >>= k) Q) := by
  simp only [fetch, Prog.lift, Prog.bind_op, Prog.bind_ret]
  iintro ⟨Hx, Hs, Hv⟩ Hk
  iapply (Transfers.wp_dmaLocal (EC (F := F)) 𝒱₀ (thr d i) none (none : HIx 1) (NIn s) rfl (NIn_pos s) (Finset.Subset.refl _)) $$ [Hx Hs Hv]
  · isplitl [Hx]; · iexact Hx
    isplitl [Hs]; · iexact Hs
    iexact Hv
  iintro Hf
  iapply Hk
  iapply (Transfers.Flight_mono (EC (F := F)) (thr d i) ?h) $$ Hf
  case h =>
    iintro ⟨Hs, Hx⟩
    isplitl [Hs]
    · iexists ((slotM s).view.write (Elt F) fd (ReadAs.same.apply ((xChunk i r).view.read (Elt F) (m (xLoc d)))) Finset.univ)
      isplitr
      · ipureintro
        unfold Holds
        rw [View.read_write_univ]
      · iexact Hs
    · iexact Hx

/-- Taking a fetch. -/
theorem fetched_spec (s : Fin 3) (r r' : Fin 32) {α : Type} (k : PUnit → Prog (TpuEff nD τ sig (Elt F) Λ₀ (thr d i).2) α) (Q : α → sProp 𝕄)
    (O : CellTallies nD τ sig (HIx 1)) (W : Waits sig (HIx 1)) :
    iprop(fetching m d i s r ∗ owes (thr d i) O W ∗ Transfers.MayWaits (thr d i) (none : HIx 1) O)
      ⊢ iprop((iprop(slotHolds m d i s r ∗ xPts m d i r ∗ semVal (thr d i, inCell s) 0 ∗ owes (thr d i) O (insert (inCell s, none) W))
              -∗ wp frame (wpE (defs₀ (F := F)) 𝒱₀ (thr d i) none) Set.univ (k ⟨⟩) Q)
          -∗ wp frame (wpE (defs₀ (F := F)) 𝒱₀ (thr d i) none) Set.univ (fetched i s r' >>= k) Q) := by
  simp only [fetched, Prog.lift, Prog.bind_op, Prog.bind_ret]
  iintro ⟨Hf, HO, #Hmw⟩ Hk
  iapply (Transfers.wp_waitLocalO (EC (F := F)) 𝒱₀ (thr d i) none (none : HIx 1) (N := NIn s) rfl) $$ [Hf HO]
  · isplitl [Hf]; · iexact Hf
    isplitl [HO]; · iexact HO
    iapply (Transfers.MayWaits.elim (inCell s)); iexact Hmw
  iintro ⟨⟨Hs, Hx⟩, Hv, HO⟩
  iapply Hk
  isplitl [Hs]; · iexact Hs
  isplitl [Hx]; · iexact Hx
  isplitl [Hv]; · iexact Hv
  iexact HO

/-! ## A slot is its sixteen rows -/

abbrev Row : Type := Fin k0_t1_loop.trips
theorem trips16 : k0_t1_loop.trips = 16 := by decide

theorem set_bufRow (s : Fin 3) (t : Row) :
    (bufRow s t).view.set = (Rect.unit (s := S16x2048) (bOff t.val) S1x2048.size (bOff_inb t)).set.map (slotM s).view.emb := by
  show (((slotM s).view.slice _).reshape S2048 _).set = _
  rw [View.set_reshape, View.set_slice]

theorem rows_disjoint (s : Fin 3) : ∀ t ∈ (Finset.univ : Finset Row), ∀ t' ∈ (Finset.univ : Finset Row), t ≠ t' →
    Disjoint (bufRow s t).view.set (bufRow s t').view.set := by
  intro t _ t' _ hne
  rw [set_bufRow, set_bufRow, Finset.disjoint_map]
  have hv : t.val ≠ t'.val := fun e => hne (Fin.ext e)
  refine Rect.unit_disjoint (0 : Fin 2) ?_
  rw [bOff_eq t, bOff_eq t']
  show t.val + 1 ≤ t'.val ∨ t'.val + 1 ≤ t.val
  omega

theorem rows_cover (s : Fin 3) : (Finset.univ : Finset Row).biUnion (fun t => (bufRow s t).view.set) = (slotM s).view.set := by
  apply Finset.Subset.antisymm
  · intro x hx
    obtain ⟨t, -, hxt⟩ := Finset.mem_biUnion.mp hx
    have hsub : (bufRow s t).view.set ⊆ (slotM s).view.set := by
      show (((slotM s).view.slice _).reshape S2048 _).set ⊆ _
      rw [View.set_reshape]; exact View.set_slice_subset _ _
    exact hsub hxt
  · intro x hx
    obtain ⟨y, -, rfl⟩ := Finset.mem_map.mp (show x ∈ Finset.univ.map (slotM s).view.emb from hx)
    have hy : (y 0).val < 16 := (y 0).isLt
    refine Finset.mem_biUnion.mpr ⟨⟨(y 0).val, by rw [trips16]; exact hy⟩, Finset.mem_univ _, ?_⟩
    rw [set_bufRow]
    refine Finset.mem_map.mpr ⟨y, ?_, rfl⟩
    rw [Rect.mem_set_unit, bOff_eq]
    intro a
    match a with
    | ⟨0, _⟩ => exact ⟨Nat.le_refl _, Nat.lt_succ_self _⟩
    | ⟨1, _⟩ => exact ⟨Nat.zero_le _, by have h2 : (y 1).val < 2048 := (y 1).isLt; show (y 1).val < 0 + 2048; omega⟩

/-- Row `t` of slot `s`, held at the slot's contents. -/
abbrev rowPts (s : Fin 3) (t : Row) (f : Buf (Elt F) ((slotM s).view.loc (thr d i))) : sProp 𝕄 :=
  (bufRow s t).view.loc (thr d i) ↦[(bufRow s t).view.set]{fullShare} f

theorem slot_rows (s : Fin 3) (f : Buf (Elt F) ((slotM s).view.loc (thr d i))) :
    slotPts d i s f = bigSep Finset.univ fun t : Row => rowPts d i s t f := by
  unfold slotPts
  rw [← rows_cover s]
  exact pointsTo_biUnion Finset.univ _ (rows_disjoint s)

/-! ## The copies out -/

/-- Row `t` of chunk `r` of the output, held at `g`. -/
abbrev oPts (r : Fin 32) (t : Row) (g : Buf (Elt F) (oLoc d)) : sProp 𝕄 :=
  (oRow i r t).view.loc (thr d i) ↦[(oRow i r t).view.set]{fullShare} g

/-- The output the kernel is to leave: the input's elements, rows end to end. -/
abbrev target : Buf (Elt F) (oLoc d) := reshaped (m (xLoc d))

/-- The credit of one row's copy. -/
abbrev NOut : ℕ := sig.dmaCredit .scVector (Kind.scVector.table .hbm) (main_v0_scv : Ref sig .scVector).idx S2048 .f32
theorem NOut_pos : 0 < NOut := sig.dmaCredit_pos _ _ _ _ _ (by decide)

/-- What row `t`'s copy hands back: the output's row at its target contents, and the slot's row. -/
abbrev dlv (s : Fin 3) (r : Fin 32) (f : Buf (Elt F) ((slotM s).view.loc (thr d i))) (t : Row) : sProp 𝕄 :=
  iprop(oPts d i r t (target m d) ∗ rowPts d i s t f)

/-- Slot `s`'s copies-out of chunk `r`: `k` issued, `u` units waited for. -/
abbrev draining (s : Fin 3) (r : Fin 32) (f : Buf (Elt F) ((slotM s).view.loc (thr d i))) (k u : ℕ) : sProp 𝕄 :=
  Transfers.Batch (EC (F := F)) (thr d i) (outCell s) (none : HIx 1) NOut (dlv m d i s r f) k u

/-- What a row copy lands is the target's row (Value.lean's index equation, stated where it is used). -/
theorem row_lands (s : Fin 3) (r : Fin 32) (t : Row) (f : Buf (Elt F) ((slotM s).view.loc (thr d i))) (hH : Holds m d i s r f)
    (g : Buf (Elt F) (oLoc d)) :
    ∀ x ∈ (oRow i r t).view.set,
      (oRow i r t).view.write (Elt F) g (ReadAs.same.apply ((bufRow s t).view.read (Elt F) f)) Finset.univ x = target m d x :=
  row_value i s r t (m (xLoc d)) f g hH

/-- The invariant of the issuing loop: `n` rows' copies issued, the others' rows still in hand. -/
def drainInv (s : Fin 3) (r : Fin 32) (f : Buf (Elt F) ((slotM s).view.loc (thr d i))) (n : ℕ) (_ : PUnit) : sProp 𝕄 :=
  iprop(draining m d i s r f n 0
    ∗ bigSep (Transfers.pending (n := k0_t1_loop.trips) n) fun t => iprop(rowPts d i s t f ∗ ∃ g, oPts d i r t g))

/-- Starting the sixteen copies-out of a slot that holds chunk `r`. -/
theorem drain_spec (s : Fin 3) (r : Fin 32) {α : Type} (k : PUnit → Prog (TpuEff nD τ sig (Elt F) Λ₀ (thr d i).2) α) (Q : α → sProp 𝕄)
    (f : Buf (Elt F) ((slotM s).view.loc (thr d i))) (hH : Holds m d i s r f) :
    iprop(slotPts d i s f ∗ (bigSep Finset.univ fun t : Row => iprop(∃ g, oPts d i r t g)) ∗ semVal (thr d i, outCell s) 0)
      ⊢ iprop((draining m d i s r f k0_t1_loop.trips 0 -∗ wp frame (wpE (defs₀ (F := F)) 𝒱₀ (thr d i) none) Set.univ (k ⟨⟩) Q)
          -∗ wp frame (wpE (defs₀ (F := F)) 𝒱₀ (thr d i) none) Set.univ (drain i s r >>= k) Q) := by
  iintro ⟨Hs, Ho, Hv⟩ Hk
  imod (Transfers.batch_alloc' (Lvl := ℕ) (EC (F := F)) (thr d i) (none : HIx 1) NOut (dlv m d i s r f) (sm := outCell s) (E := Set.univ)) $$ Hv with HB
  ihave Hr := (Entails.of_eq (slot_rows d i s f)) $$ Hs
  unfold drain
  iapply (Scf.wp_for_bind frame (wpE (defs₀ (F := F)) 𝒱₀ (thr d i) none) Set.univ k0_t1_loop.lb k0_t1_loop.ub k0_t1_loop.st k0_t1_ok ⟨⟩ _
      (drainInv m d i s r f) ?step) $$ [HB Hr Ho]
  case step =>
    intro t _
    unfold drainInv
    simp only [Prog.lift, Prog.bind_op, Prog.bind_ret, Prog.pure_eq_ret]
    rw [Transfers.bigSep_pending_step _ t.val t.isLt]
    iintro ⟨HB, ⟨Hrow, %g, Hog⟩, Hrest⟩
    have hD : iprop(((oRow i r t).view.loc (thr d i) ↦[(oRow i r t).view.set]{fullShare}
          ((oRow i r t).view.write (Elt F) g (ReadAs.same.apply ((bufRow s t).view.read (Elt F) f)) Finset.univ))
        ∗ ((bufRow s t).view.loc (thr d i) ↦[(bufRow s t).view.set]{fullShare} f)) ⊢ dlv m d i s r f ⟨t.val, t.isLt⟩ := by
      iintro ⟨Ho, Hrow⟩
      isplitl [Ho]
      · iapply (Entails.of_eq (pointsTo_congr (row_lands m d i s r t f hH g))); iexact Ho
      · iexact Hrow
    iapply (Transfers.wp_dmaBatch (EC (F := F)) 𝒱₀ (thr d i) none (none : HIx 1) NOut (show (oRow i r t).view.amount (outCell s) = NOut from rfl) (Finset.Subset.refl _) t.isLt (Nat.zero_le _) hD) $$ [Hrow Hog HB]
    · isplitl [Hrow]; · iexact Hrow
      isplitl [Hog]; · iexact Hog
      iexact HB
    iintro HB
    rw [wp_ret]; imodintro
    isplitl [HB]; · iexact HB
    iexact Hrest
  · unfold drainInv
    isplitl [HB]; · iexact HB
    rw [Transfers.pending_zero, bigSep_sep']
    isplitl [Hr]; · iexact Hr
    iexact Ho
  iintro %_ HI
  unfold drainInv
  icases HI with ⟨HB, -⟩
  iapply Hk; iexact HB

/-! ## What the worker owes, and its waits -/

/-- The worker's debts to the launch, with whatever waits it has recorded at its own index beyond `W`. -/
abbrev owing (O : CellTallies nD τ sig (HIx 1)) (W : Waits sig (HIx 1)) : sProp 𝕄 :=
  iprop(∃ W', ⌜∀ p ∈ W', p ∈ W ∨ p.2 = none⌝ ∗ owes (thr d i) O W')

/-- Taking a fetch, the debts carried along. -/
theorem fetched_spec' (s : Fin 3) (r r' : Fin 32) {α : Type} (k : PUnit → Prog (TpuEff nD τ sig (Elt F) Λ₀ (thr d i).2) α) (Q : α → sProp 𝕄)
    (O : CellTallies nD τ sig (HIx 1)) (W : Waits sig (HIx 1)) :
    iprop(fetching m d i s r ∗ owing d i O W ∗ Transfers.MayWaits (thr d i) (none : HIx 1) O)
      ⊢ iprop((iprop(slotHolds m d i s r ∗ xPts m d i r ∗ semVal (thr d i, inCell s) 0 ∗ owing d i O W)
              -∗ wp frame (wpE (defs₀ (F := F)) 𝒱₀ (thr d i) none) Set.univ (k ⟨⟩) Q)
          -∗ wp frame (wpE (defs₀ (F := F)) 𝒱₀ (thr d i) none) Set.univ (fetched i s r' >>= k) Q) := by
  iintro ⟨Hf, ⟨%W', %hW', HO⟩, #Hmw⟩ Hk
  iapply (fetched_spec m d i s r r' k Q O W') $$ [Hf HO]
  · isplitl [Hf]; · iexact Hf
    isplitl [HO]; · iexact HO
    iexact Hmw
  iintro ⟨Hs, Hx, Hv, HO⟩
  iapply Hk
  isplitl [Hs]; · iexact Hs
  isplitl [Hx]; · iexact Hx
  isplitl [Hv]; · iexact Hv
  iexists (insert (inCell s, none) W'); isplitr
  · ipureintro; intro p hp
    rcases Finset.mem_insert.mp hp with rfl | hp
    · exact .inr rfl
    · exact hW' p hp
  · iexact HO

/-- The invariant of the waiting loop: before the last wait the batch with `n` rows' units consumed; after it every
    delivery and the semaphore's counter at zero. -/
def drainedInv (s : Fin 3) (r : Fin 32) (f : Buf (Elt F) ((slotM s).view.loc (thr d i))) (O : CellTallies nD τ sig (HIx 1)) (W : Waits sig (HIx 1))
    (n : ℕ) (_ : PUnit) : sProp 𝕄 :=
  iprop(Transfers.MayWaits (thr d i) (none : HIx 1) O ∗ owing d i O W
    ∗ ((⌜n < k0_t1_loop.trips⌝ ∗ draining m d i s r f k0_t1_loop.trips (n * NOut))
        ∨ (⌜n = k0_t1_loop.trips⌝ ∗ (bigSep Finset.univ (dlv m d i s r f)) ∗ semVal (thr d i, outCell s) 0)))

/-- Waiting for the sixteen copies-out: the slot comes back as it was, the output's rows at their target contents. -/
theorem drained_spec (s : Fin 3) (r r' : Fin 32) {α : Type} (k : PUnit → Prog (TpuEff nD τ sig (Elt F) Λ₀ (thr d i).2) α) (Q : α → sProp 𝕄)
    (f : Buf (Elt F) ((slotM s).view.loc (thr d i))) (O : CellTallies nD τ sig (HIx 1)) (W : Waits sig (HIx 1)) :
    iprop(draining m d i s r f k0_t1_loop.trips 0 ∗ owing d i O W ∗ Transfers.MayWaits (thr d i) (none : HIx 1) O)
      ⊢ iprop((iprop(slotPts d i s f ∗ (bigSep Finset.univ fun t : Row => oPts d i r t (target m d)) ∗ semVal (thr d i, outCell s) 0 ∗ owing d i O W)
              -∗ wp frame (wpE (defs₀ (F := F)) 𝒱₀ (thr d i) none) Set.univ (k ⟨⟩) Q)
          -∗ wp frame (wpE (defs₀ (F := F)) 𝒱₀ (thr d i) none) Set.univ (drained i s r' >>= k) Q) := by
  iintro ⟨HB, HO, #Hmw⟩ Hk
  unfold drained
  iapply (Scf.wp_for_bind frame (wpE (defs₀ (F := F)) 𝒱₀ (thr d i) none) Set.univ k0_t1_loop.lb k0_t1_loop.ub k0_t1_loop.st k0_t1_ok ⟨⟩ _
      (drainedInv m d i s r f O W) ?step) $$ [HB HO]
  case step =>
    intro t _
    unfold drainedInv
    simp only [Prog.lift, Prog.bind_op, Prog.bind_ret, Prog.pure_eq_ret]
    have ht : t.val < k0_t1_loop.trips := t.isLt
    iintro ⟨#Hmw, ⟨%W', %hW', HO⟩, Hcase⟩
    icases Hcase with (⟨-, HB⟩ | ⟨%habs, -⟩)
    swap
    · exact absurd habs (Nat.ne_of_lt ht)
    have hins : ∀ p ∈ insert (outCell s, (none : HIx 1)) W', p ∈ W ∨ p.2 = none := by
      intro p hp
      rcases Finset.mem_insert.mp hp with rfl | hp
      · exact .inr rfl
      · exact hW' p hp
    by_cases hlast : t.val + 1 < k0_t1_loop.trips
    · have hu : t.val * NOut + NOut < NOut * k0_t1_loop.trips := by
        have h1 := (Nat.mul_lt_mul_right (NOut_pos)).mpr hlast
        rw [Nat.add_mul, Nat.one_mul] at h1
        rw [Nat.mul_comm NOut]; exact h1
      iapply (Transfers.wp_waitBatchO (EC (F := F)) 𝒱₀ (thr d i) none (none : HIx 1) (N := NOut) rfl hu (O := O) (W := W')) $$ [HB HO]
      · isplitl [HB]; · iexact HB
        isplitl [HO]; · iexact HO
        iapply (Transfers.MayWaits.elim (outCell s)); iexact Hmw
      iintro ⟨HB, HO⟩
      rw [wp_ret]; imodintro
      isplitr; · iexact Hmw
      isplitl [HO]
      · iexists _; isplitr
        · ipureintro; exact hins
        · iexact HO
      ileft; isplitr
      · ipureintro; exact hlast
      · rw [Nat.add_mul, Nat.one_mul]; iexact HB
    · have hu : t.val * NOut + NOut = NOut * k0_t1_loop.trips := by
        have h1 : t.val + 1 = k0_t1_loop.trips := by omega
        rw [← h1, Nat.mul_comm NOut, Nat.add_mul, Nat.one_mul]
      iapply (Transfers.wp_waitBatchLastO (EC (F := F)) 𝒱₀ (thr d i) none (none : HIx 1) (N := NOut) rfl NOut_pos hu (O := O) (W := W')) $$ [HB HO]
      · isplitl [HB]; · iexact HB
        isplitl [HO]; · iexact HO
        iapply (Transfers.MayWaits.elim (outCell s)); iexact Hmw
      iintro ⟨HD, Hv, HO⟩
      rw [wp_ret]; imodintro
      isplitr; · iexact Hmw
      isplitl [HO]
      · iexists _; isplitr
        · ipureintro; exact hins
        · iexact HO
      iright; isplitr
      · ipureintro; omega
      · isplitl [HD]; · iexact HD
        iexact Hv
  · unfold drainedInv
    isplitr; · iexact Hmw
    isplitl [HO]; · iexact HO
    ileft; isplitr
    · ipureintro; rw [trips16]; decide
    · rw [Nat.zero_mul]; iexact HB
  iintro %_ HI
  unfold drainedInv
  icases HI with ⟨-, HO, Hcase⟩
  icases Hcase with (⟨%habs, -⟩ | ⟨-, HD, Hv⟩)
  · exact absurd habs (Nat.lt_irrefl _)
  iapply Hk
  ihave HD' := (Entails.of_eq (bigSep_sep' Finset.univ (fun t : Row => oPts d i r t (target m d)) (fun t : Row => rowPts d i s t f))) $$ HD
  icases HD' with ⟨Hos, Hrows⟩
  isplitl [Hrows]; · iapply (Entails.of_eq (slot_rows d i s f).symm); iexact Hrows
  isplitl [Hos]; · iexact Hos
  isplitl [Hv]; · iexact Hv
  iexact HO

/-! ## The stages of the ring -/

/-- The rows of chunk `q` of the output, unwritten; written. -/
abbrev rowsAny (q : Fin 32) : sProp 𝕄 := bigSep Finset.univ fun t : Row => iprop(∃ g, oPts d i q t g)
abbrev rowsDone (q : Fin 32) : sProp 𝕄 := bigSep Finset.univ fun t : Row => oPts d i q t (target m d)

/-- At stage `r`: the input chunks in the worker's hand (all but chunks r and r + 1, which are being fetched), the output
    chunks not yet started, and the output chunks finished (up to chunk r − 2; chunk r − 1 is being copied out). -/
def aside (r : ℕ) : Finset (Fin 32) := Finset.univ.filter fun q => q.val < r ∨ r + 1 < q.val
def mid (r : ℕ) : Finset (Fin 32) := Finset.univ.filter fun q => q.val < r ∨ r + 2 < q.val
def todo (r : ℕ) : Finset (Fin 32) := Finset.univ.filter fun q => r ≤ q.val
def done (r : ℕ) : Finset (Fin 32) := Finset.univ.filter fun q => q.val + 2 ≤ r

theorem aside_eq (r : ℕ) (h : r + 2 < 32) : aside r = insert (ch (r + 2)) (mid r) := by
  ext q; simp only [aside, mid, Finset.mem_filter, Finset.mem_univ, true_and, Finset.mem_insert, Fin.ext_iff]; omega
theorem aside_notMem (r : ℕ) (h : r + 2 < 32) : ch (r + 2) ∉ mid r := by
  simp only [mid, Finset.mem_filter, Finset.mem_univ, true_and]; omega
theorem aside_succ (r : ℕ) (h : r + 2 < 32) : aside (r + 1) = insert (ch r) (mid r) := by
  ext q; simp only [aside, mid, Finset.mem_filter, Finset.mem_univ, true_and, Finset.mem_insert, Fin.ext_iff]; omega
theorem aside_succ_notMem (r : ℕ) (h : r + 2 < 32) : ch r ∉ mid r := by
  simp only [mid, Finset.mem_filter, Finset.mem_univ, true_and]; omega
theorem todo_eq (r : ℕ) (h : r < 32) : todo r = insert (ch r) (todo (r + 1)) := by
  ext q; simp only [todo, Finset.mem_filter, Finset.mem_univ, true_and, Finset.mem_insert, Fin.ext_iff]; omega
theorem todo_notMem (r : ℕ) (h : r < 32) : ch r ∉ todo (r + 1) := by
  simp only [todo, Finset.mem_filter, Finset.mem_univ, true_and]; omega
theorem done_succ (r : ℕ) (h1 : 1 ≤ r) (h : r < 32) : done (r + 1) = insert (ch (r - 1)) (done r) := by
  ext q; simp only [done, Finset.mem_filter, Finset.mem_univ, true_and, Finset.mem_insert, Fin.ext_iff]; omega
theorem done_notMem (r : ℕ) (h1 : 1 ≤ r) (h : r < 32) : ch (r - 1) ∉ done r := by
  simp only [done, Finset.mem_filter, Finset.mem_univ, true_and]; omega

theorem sl_add3 (r : ℕ) : sl (r + 1 + 2) = sl r := Fin.ext (by show (r + 1 + 2) % 3 = r % 3; omega)

/-- Stage `r` (1 ≤ r ≤ 30): chunks r and r + 1 being fetched, chunk r − 1 being copied out of the slot chunk r + 2
    will take. -/
def stage (O : CellTallies nD τ sig (HIx 1)) (W : Waits sig (HIx 1)) (r : ℕ) : sProp 𝕄 :=
  iprop(owing d i O W
    ∗ fetching m d i (sl r) (ch r) ∗ fetching m d i (sl (r + 1)) (ch (r + 1))
    ∗ (∃ f, draining m d i (sl (r + 2)) (ch (r - 1)) f k0_t1_loop.trips 0)
    ∗ semVal (thr d i, inCell (sl (r + 2))) 0
    ∗ semVal (thr d i, outCell (sl r)) 0 ∗ semVal (thr d i, outCell (sl (r + 1))) 0
    ∗ bigSep (aside r) (xPts m d i)
    ∗ bigSep (todo r) (rowsAny d i)
    ∗ bigSep (done r) (rowsDone m d i))

theorem stage_open (O : CellTallies nD τ sig (HIx 1)) (W : Waits sig (HIx 1)) (r : ℕ) (h29 : r ≤ 29) :
    stage m d i O W r ⊢ iprop(owing d i O W
      ∗ fetching m d i (sl r) (ch r) ∗ fetching m d i (sl (r + 1)) (ch (r + 1))
      ∗ (∃ f, draining m d i (sl (r + 2)) (ch (r - 1)) f k0_t1_loop.trips 0)
      ∗ semVal (thr d i, inCell (sl (r + 2))) 0
      ∗ semVal (thr d i, outCell (sl r)) 0 ∗ semVal (thr d i, outCell (sl (r + 1))) 0
      ∗ (xPts m d i (ch (r + 2)) ∗ bigSep (mid r) (xPts m d i))
      ∗ (rowsAny d i (ch r) ∗ bigSep (todo (r + 1)) (rowsAny d i))
      ∗ bigSep (done r) (rowsDone m d i)) := by
  unfold stage
  rw [aside_eq r (by omega), SparseCore.bigSep_insert' (aside_notMem r (by omega)), todo_eq r (by omega), SparseCore.bigSep_insert' (todo_notMem r (by omega))]

theorem stage_close (O : CellTallies nD τ sig (HIx 1)) (W : Waits sig (HIx 1)) (r : ℕ) (h1 : 1 ≤ r) (h29 : r ≤ 29) :
    iprop(owing d i O W
      ∗ fetching m d i (sl (r + 1)) (ch (r + 1)) ∗ fetching m d i (sl (r + 2)) (ch (r + 2))
      ∗ (∃ f, draining m d i (sl r) (ch r) f k0_t1_loop.trips 0)
      ∗ semVal (thr d i, inCell (sl r)) 0
      ∗ semVal (thr d i, outCell (sl (r + 1))) 0 ∗ semVal (thr d i, outCell (sl (r + 2))) 0
      ∗ (xPts m d i (ch r) ∗ bigSep (mid r) (xPts m d i))
      ∗ bigSep (todo (r + 1)) (rowsAny d i)
      ∗ (rowsDone m d i (ch (r - 1)) ∗ bigSep (done r) (rowsDone m d i))) ⊢ stage m d i O W (r + 1) := by
  unfold stage
  rw [sl_add3, aside_succ r (by omega), SparseCore.bigSep_insert' (aside_succ_notMem r (by omega)), done_succ r h1 (by omega),
    SparseCore.bigSep_insert' (done_notMem r h1 (by omega))]
  exact .refl

/-- One turn of the ring. -/
theorem turn (O : CellTallies nD τ sig (HIx 1)) (W : Waits sig (HIx 1)) (r : ℕ) (h1 : 1 ≤ r) (h29 : r ≤ 29)
    (k : Prog (TpuEff nD τ sig (Elt F) Λ₀ (thr d i).2) PUnit) (Q : PUnit → sProp 𝕄) :
    iprop(Transfers.MayWaits (thr d i) (none : HIx 1) O ∗ stage m d i O W r)
      ⊢ iprop((stage m d i O W (r + 1) -∗ wp frame (wpE (defs₀ (F := F)) 𝒱₀ (thr d i) none) Set.univ k Q)
          -∗ wp frame (wpE (defs₀ (F := F)) 𝒱₀ (thr d i) none) Set.univ
              (drained i (sl (r + 2)) (ch (r - 1)) >>= fun _ => fetch i (sl (r + 2)) (ch (r + 2)) >>= fun _ =>
                fetched i (sl r) (ch r) >>= fun _ => drain i (sl r) (ch r) >>= fun _ => k) Q) := by
  iintro ⟨#Hmw, Hst⟩ Hk
  ihave Hst' := (stage_open m d i O W r h29) $$ Hst
  icases Hst' with ⟨HO, Hf0, Hf1, ⟨%f, HB⟩, Hvi, Hvo0, Hvo1, ⟨Hx2, Hx⟩, ⟨Hrows, Htodo⟩, Hdone⟩
  -- the copies-out of chunk r − 1 drained
  iapply (drained_spec m d i (sl (r + 2)) (ch (r - 1)) (ch (r - 1)) _ Q f O W) $$ [HB HO]
  · isplitl [HB]; · iexact HB
    isplitl [HO]; · iexact HO
    iexact Hmw
  iintro ⟨Hs, Hrd, Hvo2, HO⟩
  -- chunk r + 2 fetched into the slot they freed
  iapply (fetch_spec m d i (sl (r + 2)) (ch (r + 2)) _ Q f) $$ [Hx2 Hs Hvi]
  · isplitl [Hx2]; · iexact Hx2
    isplitl [Hs]; · iexact Hs
    iexact Hvi
  iintro Hf2
  -- chunk r's fetch taken
  iapply (fetched_spec' m d i (sl r) (ch r) (ch r) _ Q O W) $$ [Hf0 HO]
  · isplitl [Hf0]; · iexact Hf0
    isplitl [HO]; · iexact HO
    iexact Hmw
  iintro ⟨⟨%f', %hH, Hs0⟩, Hx0, Hvi0, HO⟩
  -- and its copies-out started
  iapply (drain_spec m d i (sl r) (ch r) (fun _ => k) Q f' hH) $$ [Hs0 Hrows Hvo0]
  · isplitl [Hs0]; · iexact Hs0
    isplitl [Hrows]; · iexact Hrows
    iexact Hvo0
  iintro HB'
  iapply Hk
  iapply (stage_close m d i O W r h1 h29)
  isplitl [HO]; · iexact HO
  isplitl [Hf1]; · iexact Hf1
  isplitl [Hf2]; · iexact Hf2
  isplitl [HB']; · iexists f'; iexact HB'
  isplitl [Hvi0]; · iexact Hvi0
  isplitl [Hvo1]; · iexact Hvo1
  isplitl [Hvo2]; · iexact Hvo2
  isplitl [Hx0 Hx]
  · isplitl [Hx0]; · iexact Hx0
    iexact Hx
  isplitl [Htodo]; · iexact Htodo
  isplitl [Hrd]; · iexact Hrd
  iexact Hdone

/-- The turns from stage `r` to stage 30. -/
theorem turns (O : CellTallies nD τ sig (HIx 1)) (W : Waits sig (HIx 1)) (n : ℕ) :
    ∀ (r : ℕ), 1 ≤ r → r + n = 30 → ∀ (k : Prog (TpuEff nD τ sig (Elt F) Λ₀ (thr d i).2) PUnit) (Q : PUnit → sProp 𝕄),
      iprop(Transfers.MayWaits (thr d i) (none : HIx 1) O ∗ stage m d i O W r)
        ⊢ iprop((stage m d i O W 30 -∗ wp frame (wpE (defs₀ (F := F)) 𝒱₀ (thr d i) none) Set.univ k Q)
            -∗ wp frame (wpE (defs₀ (F := F)) 𝒱₀ (thr d i) none) Set.univ (steady i n r k) Q) := by
  induction n with
  | zero =>
    intro r _ hr k Q
    obtain rfl : r = 30 := by omega
    iintro ⟨-, H⟩ Hk
    iapply Hk; iexact H
  | succ n ih =>
    intro r h1 hr k Q
    show _ ⊢ iprop(_ -∗ wp _ _ _ (drained i (sl (r + 2)) (ch (r - 1)) >>= fun _ => fetch i (sl (r + 2)) (ch (r + 2)) >>= fun _ =>
      fetched i (sl r) (ch r) >>= fun _ => drain i (sl r) (ch r) >>= fun _ => steady i n (r + 1) k) Q)
    iintro ⟨#Hmw, H⟩ Hk
    iapply (turn m d i O W r h1 (by omega) (steady i n (r + 1) k) Q) $$ [H]
    · isplitr; · iexact Hmw
      iexact H
    iintro H
    iapply (ih (r + 1) (by omega) (by omega) k Q) $$ [H]
    · isplitr; · iexact Hmw
      iexact H
    iexact Hk

/-! ## The whole task -/

theorem univ_x : (Finset.univ : Finset (Fin 32)) = insert (ch 0) (insert (ch 1) (aside 0)) := by decide
theorem univ_x_notMem0 : ch 0 ∉ insert (ch 1) (aside 0) := by decide
theorem univ_x_notMem1 : ch 1 ∉ aside 0 := by decide
theorem univ_todo : (Finset.univ : Finset (Fin 32)) = todo 0 := by decide
theorem done_one : done 1 = ∅ := by decide
theorem todo_30 : todo 30 = insert (ch 30) {ch 31} := by decide
theorem todo_30_notMem : ch 30 ∉ ({ch 31} : Finset (Fin 32)) := by decide
theorem univ_x_end : (Finset.univ : Finset (Fin 32)) = insert (ch 30) (insert (ch 31) (aside 30)) := by decide
theorem univ_x_end_notMem0 : ch 30 ∉ insert (ch 31) (aside 30) := by decide
theorem univ_x_end_notMem1 : ch 31 ∉ aside 30 := by decide
theorem univ_done_end : (Finset.univ : Finset (Fin 32)) = insert (ch 29) (insert (ch 30) (insert (ch 31) (done 30))) := by decide
theorem univ_done_notMem0 : ch 29 ∉ insert (ch 30) (insert (ch 31) (done 30)) := by decide
theorem univ_done_notMem1 : ch 30 ∉ insert (ch 31) (done 30) := by decide
theorem univ_done_notMem2 : ch 31 ∉ done 30 := by decide

/-- The worker's input chunks, the first three apart; its output rows, chunk 0's apart; and at the end the last. -/
theorem x_open : bigSep Finset.univ (xPts m d i) = iprop(xPts m d i (ch 0) ∗ xPts m d i (ch 1) ∗ xPts m d i (ch 2) ∗ bigSep (mid 0) (xPts m d i)) := by
  rw [univ_x, SparseCore.bigSep_insert' univ_x_notMem0, SparseCore.bigSep_insert' univ_x_notMem1, aside_eq 0 (by omega), SparseCore.bigSep_insert' (aside_notMem 0 (by omega))]
theorem rows_open : bigSep Finset.univ (rowsAny (F := F) d i) = iprop(rowsAny (F := F) d i (ch 0) ∗ bigSep (todo 1) (rowsAny (F := F) d i)) := by
  rw [univ_todo, todo_eq 0 (by omega), SparseCore.bigSep_insert' (todo_notMem 0 (by omega))]
theorem x_close : iprop(xPts m d i (ch 30) ∗ xPts m d i (ch 31) ∗ bigSep (aside 30) (xPts m d i)) = bigSep Finset.univ (xPts m d i) := by
  rw [univ_x_end, SparseCore.bigSep_insert' univ_x_end_notMem0, SparseCore.bigSep_insert' univ_x_end_notMem1]
theorem rows_close : iprop(rowsDone m d i (ch 29) ∗ rowsDone m d i (ch 30) ∗ rowsDone m d i (ch 31) ∗ bigSep (done 30) (rowsDone m d i))
    = bigSep Finset.univ (rowsDone m d i) := by
  rw [univ_done_end, SparseCore.bigSep_insert' univ_done_notMem0, SparseCore.bigSep_insert' univ_done_notMem1, SparseCore.bigSep_insert' univ_done_notMem2]

/-- What a worker holds when its task starts: its chunks of the input, its rows of the output at whatever they hold,
    its three slots, its six counters at zero. -/
def tileStart (O : CellTallies nD τ sig (HIx 1)) (W : Waits sig (HIx 1)) : sProp 𝕄 :=
  iprop(owing d i O W
    ∗ bigSep Finset.univ (xPts m d i) ∗ bigSep Finset.univ (rowsAny d i)
    ∗ (∃ f, slotPts d i (sl 0) f) ∗ (∃ f, slotPts d i (sl 1) f) ∗ (∃ f, slotPts d i (sl 2) f)
    ∗ semVal (thr d i, inCell (sl 0)) 0 ∗ semVal (thr d i, inCell (sl 1)) 0 ∗ semVal (thr d i, inCell (sl 2)) 0
    ∗ semVal (thr d i, outCell (sl 0)) 0 ∗ semVal (thr d i, outCell (sl 1)) 0 ∗ semVal (thr d i, outCell (sl 2)) 0)

/-- and when it ends: the same, every row of the output at its target contents. -/
def tileEnd (O : CellTallies nD τ sig (HIx 1)) (W : Waits sig (HIx 1)) : sProp 𝕄 :=
  iprop(owing d i O W
    ∗ bigSep Finset.univ (xPts m d i) ∗ bigSep Finset.univ (rowsDone m d i)
    ∗ (∃ f, slotPts d i (sl 0) f) ∗ (∃ f, slotPts d i (sl 1) f) ∗ (∃ f, slotPts d i (sl 2) f)
    ∗ semVal (thr d i, inCell (sl 0)) 0 ∗ semVal (thr d i, inCell (sl 1)) 0 ∗ semVal (thr d i, inCell (sl 2)) 0
    ∗ semVal (thr d i, outCell (sl 0)) 0 ∗ semVal (thr d i, outCell (sl 1)) 0 ∗ semVal (thr d i, outCell (sl 2)) 0)

theorem stage_one (O : CellTallies nD τ sig (HIx 1)) (W : Waits sig (HIx 1)) :
    iprop(owing d i O W
      ∗ fetching m d i (sl 1) (ch 1) ∗ fetching m d i (sl 2) (ch 2)
      ∗ (∃ f, draining m d i (sl 0) (ch 0) f k0_t1_loop.trips 0)
      ∗ semVal (thr d i, inCell (sl 0)) 0
      ∗ semVal (thr d i, outCell (sl 1)) 0 ∗ semVal (thr d i, outCell (sl 2)) 0
      ∗ (xPts m d i (ch 0) ∗ bigSep (mid 0) (xPts m d i))
      ∗ bigSep (todo 1) (rowsAny d i)) ⊢ stage m d i O W 1 := by
  unfold stage
  rw [aside_succ 0 (by omega), SparseCore.bigSep_insert' (aside_succ_notMem 0 (by omega)), done_one, bigSep_empty]
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iempintro

theorem stage_thirty (O : CellTallies nD τ sig (HIx 1)) (W : Waits sig (HIx 1)) :
    stage m d i O W 30 ⊢ iprop(owing d i O W
      ∗ fetching m d i (sl 30) (ch 30) ∗ fetching m d i (sl 31) (ch 31)
      ∗ (∃ f, draining m d i (sl 29) (ch 29) f k0_t1_loop.trips 0)
      ∗ semVal (thr d i, inCell (sl 29)) 0
      ∗ semVal (thr d i, outCell (sl 30)) 0 ∗ semVal (thr d i, outCell (sl 31)) 0
      ∗ bigSep (aside 30) (xPts m d i)
      ∗ (rowsAny d i (ch 30) ∗ rowsAny d i (ch 31))
      ∗ bigSep (done 30) (rowsDone m d i)) := by
  unfold stage
  rw [todo_30, SparseCore.bigSep_insert' todo_30_notMem, bigSep_singleton]

/-- The task: every chunk fetched, every row copied out, everything back. -/
theorem tile_run (O : CellTallies nD τ sig (HIx 1)) (W : Waits sig (HIx 1)) :
    iprop(Transfers.MayWaits (thr d i) (none : HIx 1) O ∗ tileStart m d i O W)
      ⊢ wp frame (wpE (defs₀ (F := F)) 𝒱₀ (thr d i) none) Set.univ (body (F := F) i) fun _ => tileEnd m d i O W := by
  unfold tileStart body
  rw [x_open, rows_open]
  iintro ⟨#Hmw, HO, ⟨Hx0, Hx1, Hx2, Hx⟩, ⟨Hr0, Htodo⟩, ⟨%f0, Hs0⟩, ⟨%f1, Hs1⟩, ⟨%f2, Hs2⟩, Hi0, Hi1, Hi2, Ho0, Ho1, Ho2⟩
  iapply (fetch_spec m d i (sl 0) (ch 0) _ _ f0) $$ [Hx0 Hs0 Hi0]
  · isplitl [Hx0]; · iexact Hx0
    isplitl [Hs0]; · iexact Hs0
    iexact Hi0
  iintro Hf0
  iapply (fetch_spec m d i (sl 1) (ch 1) _ _ f1) $$ [Hx1 Hs1 Hi1]
  · isplitl [Hx1]; · iexact Hx1
    isplitl [Hs1]; · iexact Hs1
    iexact Hi1
  iintro Hf1
  iapply (fetch_spec m d i (sl 2) (ch 2) _ _ f2) $$ [Hx2 Hs2 Hi2]
  · isplitl [Hx2]; · iexact Hx2
    isplitl [Hs2]; · iexact Hs2
    iexact Hi2
  iintro Hf2
  iapply (fetched_spec' m d i (sl 0) (ch 0) (ch 0) _ _ O W) $$ [Hf0 HO]
  · isplitl [Hf0]; · iexact Hf0
    isplitl [HO]; · iexact HO
    iexact Hmw
  iintro ⟨⟨%g0, %hH0, Hs0⟩, Hx0, Hi0, HO⟩
  iapply (drain_spec m d i (sl 0) (ch 0) _ _ g0 hH0) $$ [Hs0 Hr0 Ho0]
  · isplitl [Hs0]; · iexact Hs0
    isplitl [Hr0]; · iexact Hr0
    iexact Ho0
  iintro HB0
  iapply (turns m d i O W 29 1 (by omega) (by omega) _ _) $$ [HO Hf1 Hf2 HB0 Hi0 Ho1 Ho2 Hx0 Hx Htodo]
  · isplitr; · iexact Hmw
    iapply (stage_one m d i O W)
    isplitl [HO]; · iexact HO
    isplitl [Hf1]; · iexact Hf1
    isplitl [Hf2]; · iexact Hf2
    isplitl [HB0]; · iexists g0; iexact HB0
    isplitl [Hi0]; · iexact Hi0
    isplitl [Ho1]; · iexact Ho1
    isplitl [Ho2]; · iexact Ho2
    isplitl [Hx0 Hx]
    · isplitl [Hx0]; · iexact Hx0
      iexact Hx
    iexact Htodo
  iintro Hst
  ihave Hst' := (stage_thirty m d i O W) $$ Hst
  icases Hst' with ⟨HO, Hf30, Hf31, ⟨%f29, HB29⟩, Hi29, Ho30, Ho31, Hx, ⟨Hr30, Hr31⟩, Hdone⟩
  iapply (fetched_spec' m d i (sl 30) (ch 30) (ch 30) _ _ O W) $$ [Hf30 HO]
  · isplitl [Hf30]; · iexact Hf30
    isplitl [HO]; · iexact HO
    iexact Hmw
  iintro ⟨⟨%g30, %hH30, Hs30⟩, Hx30, Hi30, HO⟩
  iapply (drain_spec m d i (sl 30) (ch 30) _ _ g30 hH30) $$ [Hs30 Hr30 Ho30]
  · isplitl [Hs30]; · iexact Hs30
    isplitl [Hr30]; · iexact Hr30
    iexact Ho30
  iintro HB30
  iapply (fetched_spec' m d i (sl 31) (ch 31) (ch 31) _ _ O W) $$ [Hf31 HO]
  · isplitl [Hf31]; · iexact Hf31
    isplitl [HO]; · iexact HO
    iexact Hmw
  iintro ⟨⟨%g31, %hH31, Hs31⟩, Hx31, Hi31, HO⟩
  iapply (drain_spec m d i (sl 31) (ch 31) _ _ g31 hH31) $$ [Hs31 Hr31 Ho31]
  · isplitl [Hs31]; · iexact Hs31
    isplitl [Hr31]; · iexact Hr31
    iexact Ho31
  iintro HB31
  iapply (drained_spec m d i (sl 29) (ch 29) (ch 29) _ _ f29 O W) $$ [HB29 HO]
  · isplitl [HB29]; · iexact HB29
    isplitl [HO]; · iexact HO
    iexact Hmw
  iintro ⟨Hs29, Hd29, Ho29, HO⟩
  iapply (drained_spec m d i (sl 30) (ch 30) (ch 30) _ _ g30 O W) $$ [HB30 HO]
  · isplitl [HB30]; · iexact HB30
    isplitl [HO]; · iexact HO
    iexact Hmw
  iintro ⟨Hs30, Hd30, Ho30, HO⟩
  iapply (drained_spec m d i (sl 31) (ch 31) (ch 31) _ _ g31 O W) $$ [HB31 HO]
  · isplitl [HB31]; · iexact HB31
    isplitl [HO]; · iexact HO
    iexact Hmw
  iintro ⟨Hs31, Hd31, Ho31, HO⟩
  rw [wp_pure]; imodintro
  unfold tileEnd
  rw [← x_close, ← rows_close]
  isplitl [HO]; · iexact HO
  isplitl [Hx30 Hx31 Hx]
  · isplitl [Hx30]; · iexact Hx30
    isplitl [Hx31]; · iexact Hx31
    iexact Hx
  isplitl [Hd29 Hd30 Hd31 Hdone]
  · isplitl [Hd29]; · iexact Hd29
    isplitl [Hd30]; · iexact Hd30
    isplitl [Hd31]; · iexact Hd31
    iexact Hdone
  isplitl [Hs30]; · iexists _; iexact Hs30
  isplitl [Hs31]; · iexists _; iexact Hs31
  isplitl [Hs29]; · iexists _; iexact Hs29
  isplitl [Hi30]; · iexact Hi30
  isplitl [Hi31]; · iexact Hi31
  isplitl [Hi29]; · iexact Hi29
  isplitl [Ho30]; · iexact Ho30
  isplitl [Ho31]; · iexact Ho31
  iexact Ho29

end Cert.Kernel.Copy

end
-- ==== Proof.Launch.lean ====
/-
  From one worker's task to the program.  The launch hands each of the 32 workers its stripe — its 32 chunks of the
  input and its 512 rows of the output — and takes them back with every row written.  The stripes tile both arrays:
  worker w = 2·(subcore) + (core) has batch entry w / 8, rows (w mod 8)·512 …, so the chunks (w, r) are the 1024
  blocks of 16 rows of the input, and the rows (w, r, t) are the 16384 rows of the output, each met exactly once.
-/
import proofs.«214764_g20993800143467_cont_8to1_1661_21_alg».proof.Proof.Moves

noncomputable section

namespace Cert.Kernel.Copy

open Cert.Kernel Cert.Kernel.Gen Cert.Kernel.Stripe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)
variable [FloatOps F]
variable (d : Dev nD) (i : grid0.Coords)

/-! ## A worker's own storage: three slots, six counters -/

/-- The elements of slot `s` among the ring's. -/
abbrev slotSet (s : Fin 3) : Finset S3x16x2048.Idx := (slotM s).view.set

theorem set_slotM (s : Fin 3) : slotSet s = (Rect.unit (s := S3x16x2048) ![s.val, 0, 0] S1x16x2048.size (slot_inb s)).set := by
  show (((View.whole cc0_scratch0).slice _).reshape S16x2048 _).set = _
  rw [View.set_reshape, View.set_slice_whole]

theorem slots_disjoint : ∀ s ∈ (Finset.univ : Finset (Fin 3)), ∀ s' ∈ (Finset.univ : Finset (Fin 3)), s ≠ s' →
    Disjoint (slotSet s) (slotSet s') := by
  intro s _ s' _ hne
  rw [set_slotM, set_slotM]
  have hv : s.val ≠ s'.val := fun e => hne (Fin.ext e)
  refine Rect.unit_disjoint (0 : Fin 3) ?_
  show s.val + 1 ≤ s'.val ∨ s'.val + 1 ≤ s.val
  omega

theorem slots_cover : (Finset.univ : Finset (Fin 3)).biUnion slotSet = (Finset.univ : Finset S3x16x2048.Idx) := by
  ext x
  simp only [Finset.mem_biUnion, Finset.mem_univ, true_and, iff_true]
  have h0 : (x 0).val < 3 := (x 0).isLt
  have h1 : (x 1).val < 16 := (x 1).isLt
  have h2 : (x 2).val < 2048 := (x 2).isLt
  refine ⟨⟨(x 0).val, h0⟩, ?_⟩
  rw [set_slotM, Rect.mem_set_unit]
  intro a
  match a with
  | ⟨0, _⟩ => exact ⟨Nat.le_refl _, Nat.lt_succ_self _⟩
  | ⟨1, _⟩ => exact ⟨Nat.zero_le _, by show (x 1).val < 0 + 16; omega⟩
  | ⟨2, _⟩ => exact ⟨Nat.zero_le _, by show (x 2).val < 0 + 2048; omega⟩

/-- The worker's ring, whole. -/
abbrev ringPts (f : Buf (Elt F) ((thr d i).loc cc0_scratch0)) : sProp 𝕄 := (thr d i).loc cc0_scratch0 ↦{fullShare} f

theorem ring_slots (f : Buf (Elt F) ((thr d i).loc cc0_scratch0)) :
    ringPts d i f = bigSep Finset.univ fun s : Fin 3 => slotPts d i s f := by
  unfold ringPts
  rw [← pointsTo_biUnion Finset.univ (ℓ := (thr d i).loc cc0_scratch0) slotSet slots_disjoint, slots_cover]; try rfl

theorem slots_ring : (bigSep Finset.univ fun s : Fin 3 => iprop(∃ f, slotPts d i s f)) ⊢ (iprop(∃ f, ringPts d i f) : sProp 𝕄) := by
  refine (bigSep_exists_pi Finset.univ (fun s (f : Buf (Elt F) ((thr d i).loc cc0_scratch0)) => slotPts d i s f)).trans ?_
  iintro ⟨%fs, H⟩
  ihave H' := (pointsTo_biUnion_join Finset.univ slotSet fs (fs 0) slots_disjoint) $$ H
  icases H' with ⟨%g, -, Hg⟩
  rw [slots_cover]
  iexists g; iexact Hg

theorem three (Φ : Fin 3 → sProp 𝕄) : bigSep Finset.univ Φ = iprop(Φ (sl 0) ∗ Φ (sl 1) ∗ Φ (sl 2)) := by
  rw [show (Finset.univ : Finset (Fin 3)) = insert (sl 0) (insert (sl 1) {sl 2}) by decide,
    SparseCore.bigSep_insert' (by decide), SparseCore.bigSep_insert' (by decide), bigSep_singleton]

/-! ## The six counters and the ring among the worker's own -/

abbrev cell (a : SemLoc sig) : GSem nD τ sig := (thr d i, a)

theorem cell_ne {a b : SemLoc sig} (h : a ≠ b) : cell d i a ≠ cell d i b := fun e => h (Prod.mk.inj e).2
theorem cell_mem {a : SemLoc sig} (h : a.isScoped .scVector = true) : cell d i a ∈ ownCells (thr d i) :=
  mem_ownCells.mpr ⟨rfl, h⟩

abbrev er (S : Finset (GSem nD τ sig)) (a : SemLoc sig) : Finset (GSem nD τ sig) := S.erase (cell d i a)

theorem ownSems0_six :
    (ownSems0 (thr d i) : sProp 𝕄)
      = iprop(semVal (thr d i, inCell (sl 0)) 0 ∗ semVal (thr d i, inCell (sl 1)) 0 ∗ semVal (thr d i, inCell (sl 2)) 0
          ∗ semVal (thr d i, outCell (sl 0)) 0 ∗ semVal (thr d i, outCell (sl 1)) 0 ∗ semVal (thr d i, outCell (sl 2)) 0
          ∗ bigSep (er d i (er d i (er d i (er d i (er d i (er d i (ownCells (thr d i)) (inCell (sl 0))) (inCell (sl 1))) (inCell (sl 2)))
              (outCell (sl 0))) (outCell (sl 1))) (outCell (sl 2))) fun g => semVal g 0) := by
  unfold SparseCore.Cfg.ownSems0
  rw [SparseCore.bigSep_erase' (cell_mem d i (a := inCell (sl 0)) (by decide)),
    SparseCore.bigSep_erase' (Finset.mem_erase.mpr ⟨cell_ne d i (a := inCell (sl 1)) (b := inCell (sl 0)) (by decide), cell_mem d i (a := inCell (sl 1)) (by decide)⟩),
    SparseCore.bigSep_erase' (Finset.mem_erase.mpr ⟨cell_ne d i (a := inCell (sl 2)) (b := inCell (sl 1)) (by decide),
      Finset.mem_erase.mpr ⟨cell_ne d i (a := inCell (sl 2)) (b := inCell (sl 0)) (by decide), cell_mem d i (a := inCell (sl 2)) (by decide)⟩⟩),
    SparseCore.bigSep_erase' (Finset.mem_erase.mpr ⟨cell_ne d i (a := outCell (sl 0)) (b := inCell (sl 2)) (by decide),
      Finset.mem_erase.mpr ⟨cell_ne d i (a := outCell (sl 0)) (b := inCell (sl 1)) (by decide),
      Finset.mem_erase.mpr ⟨cell_ne d i (a := outCell (sl 0)) (b := inCell (sl 0)) (by decide), cell_mem d i (a := outCell (sl 0)) (by decide)⟩⟩⟩),
    SparseCore.bigSep_erase' (Finset.mem_erase.mpr ⟨cell_ne d i (a := outCell (sl 1)) (b := outCell (sl 0)) (by decide),
      Finset.mem_erase.mpr ⟨cell_ne d i (a := outCell (sl 1)) (b := inCell (sl 2)) (by decide),
      Finset.mem_erase.mpr ⟨cell_ne d i (a := outCell (sl 1)) (b := inCell (sl 1)) (by decide),
      Finset.mem_erase.mpr ⟨cell_ne d i (a := outCell (sl 1)) (b := inCell (sl 0)) (by decide), cell_mem d i (a := outCell (sl 1)) (by decide)⟩⟩⟩⟩),
    SparseCore.bigSep_erase' (Finset.mem_erase.mpr ⟨cell_ne d i (a := outCell (sl 2)) (b := outCell (sl 1)) (by decide),
      Finset.mem_erase.mpr ⟨cell_ne d i (a := outCell (sl 2)) (b := outCell (sl 0)) (by decide),
      Finset.mem_erase.mpr ⟨cell_ne d i (a := outCell (sl 2)) (b := inCell (sl 2)) (by decide),
      Finset.mem_erase.mpr ⟨cell_ne d i (a := outCell (sl 2)) (b := inCell (sl 1)) (by decide),
      Finset.mem_erase.mpr ⟨cell_ne d i (a := outCell (sl 2)) (b := inCell (sl 0)) (by decide), cell_mem d i (a := outCell (sl 2)) (by decide)⟩⟩⟩⟩⟩)]

/-- The ring is among the subcore's own buffers: it, at some contents, and the rest. -/
theorem ownBufs_ring :
    (ownBufs (thr d i) : sProp 𝕄)
      = iprop((∃ f, ringPts d i f)
          ∗ bigSep ((ownRefs (τ := τ) (thr d i).2).erase ((thr d i).2.devRef cc0_scratch0))
              fun b => iprop(∃ f, (((thr d i).1, b) : Loc nD τ sig) ↦{fullShare} f)) := by
  unfold SparseCore.Cfg.ownBufs
  exact SparseCore.bigSep_erase' (SparseCore.Cfg.mem_ownRefs_of_owner (p := (thr d i).2) (b := (thr d i).2.devRef cc0_scratch0) rfl)

/-! ## The task, as the launch theorem asks for it -/

/-- What a worker is handed: its chunks of the input, its rows of the output as the launch left them. -/
def tileIn : sProp 𝕄 :=
  iprop(bigSep Finset.univ (xPts m d i) ∗ bigSep Finset.univ fun q : Fin 32 => bigSep Finset.univ fun t : Row => oPts d i q t (m (oLoc d)))
/-- What it hands back: the same, every row written. -/
def tileOut : sProp 𝕄 := iprop(bigSep Finset.univ (xPts m d i) ∗ bigSep Finset.univ (rowsDone m d i))

theorem row_weaken (q : Fin 32) (t : Row) : oPts d i q t (m (oLoc d)) ⊢ (iprop(∃ g, oPts d i q t g) : sProp 𝕄) := by
  iintro H; iexists _; iexact H
theorem rows_weaken (q : Fin 32) : (bigSep Finset.univ fun t : Row => oPts d i q t (m (oLoc d))) ⊢ (rowsAny d i q : sProp 𝕄) :=
  SparseCore.ent (bigSep_mono fun t _ => row_weaken m d i q t)
theorem stripe_weaken : (bigSep Finset.univ fun q : Fin 32 => bigSep Finset.univ fun t : Row => oPts d i q t (m (oLoc d)))
    ⊢ (bigSep Finset.univ (rowsAny d i) : sProp 𝕄) :=
  SparseCore.ent (bigSep_mono fun q _ => rows_weaken m d i q)

theorem tile_body (hF : (K (F := F)).Facts) (O : CellTallies nD τ sig (HIx 1)) (W : Waits sig (HIx 1)) (hO : ∀ g, O g none = 0) :
    iprop(levAts (K (F := F)).L (K (F := F)).lev ∗ emp ∗ tileIn m d i ∗ scopedBufs (thr d i) ∗ scopedSems0 (thr d i) ∗ owes (thr d i) O W)
      ⊢ wp frame (wpE (defs₀ (F := F)) 𝒱₀ (thr d i) none) Set.univ
          (cc0__sc_copy (F := F) i xV (Memref.isWhole_whole _) oV (Memref.isWhole_whole _) sB (Memref.isWhole_whole _) cc0_scratch1 cc0_scratch2)
          fun _ => iprop(tileOut m d i ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d _ _, SparseCore.Cfg.scopedSems0_V (Val := Elt F) d _ _, ownSems0_six, ownBufs_ring]
  unfold tileIn
  iintro ⟨#Hlv, -, ⟨Hx, Ho⟩, ⟨⟨%fr, Hring⟩, Hbufs⟩, ⟨Hi0, Hi1, Hi2, Ho0, Ho1, Ho2, Hsems⟩, HO⟩
  ihave Hmw := ((K (F := F)).mayWaits_none (thr := thr d i) hO) $$ Hlv
  ihave Hsl := (Entails.of_eq ((ring_slots d i fr).trans (three (fun s => slotPts d i s fr)))) $$ Hring
  icases Hsl with ⟨Hs0, Hs1, Hs2⟩
  iapply (wp_wand_r frame (wpE (defs₀ (F := F)) 𝒱₀ (thr d i) none) Set.univ)
  isplitl [Hx Ho Hs0 Hs1 Hs2 Hi0 Hi1 Hi2 Ho0 Ho1 Ho2 HO]
  · iapply (tile_run m d i O W)
    isplitr; · iexact Hmw
    unfold tileStart
    isplitl [HO]
    · iexists W; isplitr
      · ipureintro; exact fun p hp => .inl hp
      · iexact HO
    isplitl [Hx]; · iexact Hx
    isplitl [Ho]
    · iapply (stripe_weaken m d i); iexact Ho
    isplitl [Hs0]; · iexists _; iexact Hs0
    isplitl [Hs1]; · iexists _; iexact Hs1
    isplitl [Hs2]; · iexists _; iexact Hs2
    isplitl [Hi0]; · iexact Hi0
    isplitl [Hi1]; · iexact Hi1
    isplitl [Hi2]; · iexact Hi2
    isplitl [Ho0]; · iexact Ho0
    isplitl [Ho1]; · iexact Ho1
    iexact Ho2
  iintro %_ Hend
  unfold tileEnd tileOut
  icases Hend with ⟨HO, Hx, Hrows, Hs0, Hs1, Hs2, Hi0, Hi1, Hi2, Ho0, Ho1, Ho2⟩
  isplitl [Hx Hrows]
  · isplitl [Hx]; · iexact Hx
    iexact Hrows
  isplitl [Hs0 Hs1 Hs2 Hbufs]
  · isplitl [Hs0 Hs1 Hs2]
    · iapply (slots_ring d i)
      iapply (Entails.of_eq (three (fun s => iprop(∃ f, slotPts d i s f))).symm)
      isplitl [Hs0]; · iexact Hs0
      isplitl [Hs1]; · iexact Hs1
      iexact Hs2
    · iexact Hbufs
  isplitl [Hi0 Hi1 Hi2 Ho0 Ho1 Ho2 Hsems]
  · isplitl [Hi0]; · iexact Hi0
    isplitl [Hi1]; · iexact Hi1
    isplitl [Hi2]; · iexact Hi2
    isplitl [Ho0]; · iexact Ho0
    isplitl [Ho1]; · iexact Ho1
    isplitl [Ho2]; · iexact Ho2
    iexact Hsems
  iexact HO

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_copy (coordsV c s)
          xV (Memref.isWhole_whole _) oV (Memref.isWhole_whole _) sB (Memref.isWhole_whole _) cc0_scratch1 cc0_scratch2) ⟨⟩ c s := rfl

/-- The coordinates of the worker on SparseCore `c`, vector subcore `s`. -/
abbrev coordsT (c : Fin τ.nSC) (s : Fin τ.nSub) : grid0.Coords := coordsV ⟨c.val, c.isLt⟩ ⟨s.val, s.isLt⟩

/-- The coordinates of the worker the call numbers (c, s). -/
abbrev cv (c : Fin ((K (F := F)).nCore 0)) (s : Fin ((K (F := F)).nSub 0)) : grid0.Coords :=
  coordsT ((K (F := F)).core 0 c) ((K (F := F)).sub 0 s)

/-- The one call hands each SparseCore its sixteen workers' stripes, each worker its own, and takes them back written. -/
def P : (K (F := F)).Pay (nD := nD) (Val := Elt F) (Name := ℕ) (U := UU) where
  st := fun q d c => bigSep Finset.univ fun s : Fin ((K (F := F)).nSub q) => tileIn m d (coordsT ((K (F := F)).core q c) ((K (F := F)).sub q s))
  dn := fun q d c => bigSep Finset.univ fun s : Fin ((K (F := F)).nSub q) => tileOut m d (coordsT ((K (F := F)).core q c) ((K (F := F)).sub q s))
  go := fun q d c s => tileIn m d (coordsT ((K (F := F)).core q c) ((K (F := F)).sub q s))
  td := fun q d c s => tileOut m d (coordsT ((K (F := F)).core q c) ((K (F := F)).sub q s))
  x := fun _ _ => iprop(emp)

instance P_storable : (P (F := F) m).IsStorable where
  st q d c := by unfold P tileIn; infer_instance
  dn q d c := by unfold P tileOut; infer_instance
  go q d c s := by unfold P tileIn; infer_instance
  td q d c s := by unfold P tileOut; infer_instance

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show (bigSep Finset.univ fun s : Fin ((K (F := F)).nSub 0) => (P m).go 0 d c s) ⊢ |={Set.univ}=> iprop(
      (bigSep Finset.univ fun s : Fin ((K (F := F)).nSub 0) => (P m).go 0 d c s)
      ∗ ((bigSep Finset.univ fun s : Fin ((K (F := F)).nSub 0) => (P m).td 0 d c s)
          -∗ bigSep Finset.univ fun s : Fin ((K (F := F)).nSub 0) => (P m).td 0 d c s))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The stripes tile the two arrays -/

omit [FloatOps F] in
theorem wid_cv (c : Fin ((K (F := F)).nCore 0)) (s : Fin ((K (F := F)).nSub 0)) : wid (cv (F := F) c s) = 2 * s.val + c.val := rfl

theorem set_xChunk (i : grid0.Coords) (r : Fin 32) :
    ((xChunk i r).view.set : Finset S4x4096x2048.Idx)
      = (Rect.unit (s := S4x4096x2048) (k0_off1 i (BitVec.ofNat 32 (16 * r.val))) S1x16x2048.size (k0_off1_inb i r)).set := by
  show (((View.whole main_arg0_scv).slice _).reshape S16x2048 _).set = _
  rw [View.set_reshape, View.set_slice_whole]
theorem set_oRow (i : grid0.Coords) (r : Fin 32) (t : Row) :
    ((oRow i r t).view.set : Finset S4x8388608.Idx)
      = (Rect.unit (s := S4x8388608) (offO i (BitVec.ofNat 32 (32768 * r.val)) t.val) S1x2048.size (offO_inb i r t)).set := by
  show (((View.whole main_v0_scv).slice _).reshape S2048 _).set = _
  rw [View.set_reshape, View.set_slice_whole]
theorem row_lt (t : Row) : t.val < 16 := lt_of_lt_of_eq t.isLt trips16

/-- The elements of chunk `r` of worker `i`: batch entry w / 8, sixteen rows from (w mod 8)·512 + 16·r. -/
theorem mem_xSet (i : grid0.Coords) (r : Fin 32) (x : S4x4096x2048.Idx) :
    x ∈ ((xChunk i r).view.set : Finset S4x4096x2048.Idx)
      ↔ (x 0).val = wid i / 8 ∧ wid i % 8 * 512 + 16 * r.val ≤ (x 1).val ∧ (x 1).val < wid i % 8 * 512 + 16 * r.val + 16 := by
  rw [set_xChunk, Rect.mem_set_unit, off1_closed]
  constructor
  · intro h
    have h0 : wid i / 8 ≤ (x 0).val ∧ (x 0).val < wid i / 8 + 1 := h 0
    have h1 : wid i % 8 * 512 + 16 * r.val ≤ (x 1).val ∧ (x 1).val < wid i % 8 * 512 + 16 * r.val + 16 := h 1
    omega
  · rintro ⟨e0, l1, u1⟩ a
    match a with
    | ⟨0, _⟩ => show wid i / 8 ≤ (x 0).val ∧ (x 0).val < wid i / 8 + 1; omega
    | ⟨1, _⟩ => exact ⟨l1, u1⟩
    | ⟨2, _⟩ => exact ⟨Nat.zero_le _, by have h2 : (x 2).val < 2048 := (x 2).isLt; show (x 2).val < 0 + 2048; omega⟩

/-- The elements of row `t` of chunk `r` of worker `i` in the flat output: 2048 elements from ((w mod 8)·512 + 16·r + t)·2048. -/
theorem mem_oSet (i : grid0.Coords) (r : Fin 32) (t : Row) (y : S4x8388608.Idx) :
    y ∈ ((oRow i r t).view.set : Finset S4x8388608.Idx)
      ↔ (y 0).val = wid i / 8 ∧ (wid i % 8 * 512 + 16 * r.val + t.val) * 2048 ≤ (y 1).val
          ∧ (y 1).val < (wid i % 8 * 512 + 16 * r.val + t.val) * 2048 + 2048 := by
  have ht : t.val < 16 := row_lt t
  rw [set_oRow, Rect.mem_set_unit, offO_closed i r t.val ht]
  constructor
  · intro h
    have h0 : wid i / 8 ≤ (y 0).val ∧ (y 0).val < wid i / 8 + 1 := h 0
    have h1 : (wid i % 8 * 512 + 16 * r.val + t.val) * 2048 ≤ (y 1).val ∧ (y 1).val < (wid i % 8 * 512 + 16 * r.val + t.val) * 2048 + 2048 := h 1
    omega
  · rintro ⟨e0, l1, u1⟩ a
    match a with
    | ⟨0, _⟩ => show wid i / 8 ≤ (y 0).val ∧ (y 0).val < wid i / 8 + 1; omega
    | ⟨1, _⟩ => exact ⟨l1, u1⟩

abbrev XJ : Type := Fin ((K (F := F)).nCore 0) × Fin ((K (F := F)).nSub 0) × Fin 32
abbrev OJ : Type := Fin ((K (F := F)).nCore 0) × Fin ((K (F := F)).nSub 0) × Fin 32 × Row

abbrev xSet (j : XJ (F := F)) : Finset S4x4096x2048.Idx := (xChunk (cv (F := F) j.1 j.2.1) j.2.2).view.set
abbrev oSet (j : OJ (F := F)) : Finset S4x8388608.Idx := (oRow (cv (F := F) j.1 j.2.1) j.2.2.1 j.2.2.2).view.set

omit [FloatOps F] in
theorem xSet_disjoint : ∀ j ∈ (Finset.univ : Finset (XJ (F := F))), ∀ j' ∈ (Finset.univ : Finset (XJ (F := F))), j ≠ j' → Disjoint (xSet j) (xSet j') := by
  rintro ⟨c, s, r⟩ - ⟨c', s', r'⟩ - hne
  refine Finset.disjoint_left.mpr fun x hx hx' => hne ?_
  have h1 := (mem_xSet (cv (F := F) c s) r x).mp hx
  have h2 := (mem_xSet (cv (F := F) c' s') r' x).mp hx'
  rw [wid_cv] at h1 h2
  have hc : c.val < 2 := c.isLt
  have hc' : c'.val < 2 := c'.isLt
  have hs : s.val < 16 := s.isLt
  have hs' : s'.val < 16 := s'.isLt
  have hr : r.val < 32 := r.isLt
  have hr' : r'.val < 32 := r'.isLt
  have ec : c.val = c'.val := by omega
  have es : s.val = s'.val := by omega
  have er : r.val = r'.val := by omega
  exact Prod.ext (Fin.ext ec) (Prod.ext (Fin.ext es) (Fin.ext er))

omit [FloatOps F] in
theorem xSet_cover : (Finset.univ : Finset (XJ (F := F))).biUnion xSet = (Finset.univ : Finset S4x4096x2048.Idx) := by
  ext x
  simp only [Finset.mem_biUnion, Finset.mem_univ, true_and, iff_true]
  have h0 : (x 0).val < 4 := (x 0).isLt
  have h1 : (x 1).val < 4096 := (x 1).isLt
  refine ⟨(⟨(8 * (x 0).val + (x 1).val / 512) % 2, Nat.mod_lt _ (by decide)⟩, ⟨(8 * (x 0).val + (x 1).val / 512) / 2, by show _ < 16; omega⟩,
    ⟨(x 1).val % 512 / 16, by omega⟩), ?_⟩
  refine (mem_xSet _ _ x).mpr ?_
  show (x 0).val = (2 * ((8 * (x 0).val + (x 1).val / 512) / 2) + (8 * (x 0).val + (x 1).val / 512) % 2) / 8
    ∧ (2 * ((8 * (x 0).val + (x 1).val / 512) / 2) + (8 * (x 0).val + (x 1).val / 512) % 2) % 8 * 512 + 16 * ((x 1).val % 512 / 16) ≤ (x 1).val
    ∧ (x 1).val < (2 * ((8 * (x 0).val + (x 1).val / 512) / 2) + (8 * (x 0).val + (x 1).val / 512) % 2) % 8 * 512 + 16 * ((x 1).val % 512 / 16) + 16
  omega

omit [FloatOps F] in
theorem oSet_disjoint : ∀ j ∈ (Finset.univ : Finset (OJ (F := F))), ∀ j' ∈ (Finset.univ : Finset (OJ (F := F))), j ≠ j' → Disjoint (oSet j) (oSet j') := by
  rintro ⟨c, s, r, t⟩ - ⟨c', s', r', t'⟩ - hne
  refine Finset.disjoint_left.mpr fun y hy hy' => hne ?_
  have h1 := (mem_oSet (cv (F := F) c s) r t y).mp hy
  have h2 := (mem_oSet (cv (F := F) c' s') r' t' y).mp hy'
  rw [wid_cv] at h1 h2
  have hc : c.val < 2 := c.isLt
  have hc' : c'.val < 2 := c'.isLt
  have hs : s.val < 16 := s.isLt
  have hs' : s'.val < 16 := s'.isLt
  have hr : r.val < 32 := r.isLt
  have hr' : r'.val < 32 := r'.isLt
  have ht : t.val < 16 := row_lt t
  have ht' : t'.val < 16 := row_lt t'
  have ec : c.val = c'.val := by omega
  have es : s.val = s'.val := by omega
  have er : r.val = r'.val := by omega
  have et : t.val = t'.val := by omega
  exact Prod.ext (Fin.ext ec) (Prod.ext (Fin.ext es) (Prod.ext (Fin.ext er) (Fin.ext et)))

omit [FloatOps F] in
theorem oSet_cover : (Finset.univ : Finset (OJ (F := F))).biUnion oSet = (Finset.univ : Finset S4x8388608.Idx) := by
  ext y
  simp only [Finset.mem_biUnion, Finset.mem_univ, true_and, iff_true]
  have h0 : (y 0).val < 4 := (y 0).isLt
  have h1 : (y 1).val < 8388608 := (y 1).isLt
  refine ⟨(⟨(8 * (y 0).val + (y 1).val / 2048 / 512) % 2, Nat.mod_lt _ (by decide)⟩,
    ⟨(8 * (y 0).val + (y 1).val / 2048 / 512) / 2, by show _ < 16; omega⟩,
    ⟨(y 1).val / 2048 % 512 / 16, by omega⟩, ⟨(y 1).val / 2048 % 16, lt_of_lt_of_eq (Nat.mod_lt _ (by decide)) trips16.symm⟩), ?_⟩
  refine (mem_oSet _ _ _ y).mpr ?_
  show (y 0).val = (2 * ((8 * (y 0).val + (y 1).val / 2048 / 512) / 2) + (8 * (y 0).val + (y 1).val / 2048 / 512) % 2) / 8
    ∧ ((2 * ((8 * (y 0).val + (y 1).val / 2048 / 512) / 2) + (8 * (y 0).val + (y 1).val / 2048 / 512) % 2) % 8 * 512
        + 16 * ((y 1).val / 2048 % 512 / 16) + (y 1).val / 2048 % 16) * 2048 ≤ (y 1).val
    ∧ (y 1).val < ((2 * ((8 * (y 0).val + (y 1).val / 2048 / 512) / 2) + (8 * (y 0).val + (y 1).val / 2048 / 512) % 2) % 8 * 512
        + 16 * ((y 1).val / 2048 % 512 / 16) + (y 1).val / 2048 % 16) * 2048 + 2048
  omega

/-- The input whole is the 1024 chunks; -/
theorem x_tiles (d : Dev nD) :
    (xLoc d ↦{fullShare} m (xLoc d) : sProp 𝕄)
      = bigSep Finset.univ fun c : Fin ((K (F := F)).nCore 0) => bigSep Finset.univ fun s : Fin ((K (F := F)).nSub 0) =>
          bigSep Finset.univ fun r : Fin 32 => xPts m d (cv c s) r := by
  have e1 : (xLoc d ↦{fullShare} m (xLoc d) : sProp 𝕄) = bigSep Finset.univ fun j : XJ (F := F) => xLoc d ↦[xSet j]{fullShare} m (xLoc d) := by
    rw [← pointsTo_biUnion Finset.univ (ℓ := xLoc d) xSet xSet_disjoint, xSet_cover]; try rfl
  refine e1.trans ?_
  rw [bigSep_univ_prod]
  refine bigSep_congr fun c _ => ?_
  rw [bigSep_univ_prod]

/-- the flat output whole, at any contents, the 16384 rows. -/
theorem o_tiles (d : Dev nD) (f : Buf (Elt F) (oLoc d)) :
    (oLoc d ↦{fullShare} f : sProp 𝕄)
      = bigSep Finset.univ fun c : Fin ((K (F := F)).nCore 0) => bigSep Finset.univ fun s : Fin ((K (F := F)).nSub 0) =>
          bigSep Finset.univ fun q : Fin 32 => bigSep Finset.univ fun t : Row => oPts d (cv c s) q t f := by
  have e1 : (oLoc d ↦{fullShare} f : sProp 𝕄) = bigSep Finset.univ fun j : OJ (F := F) => oLoc d ↦[oSet j]{fullShare} f := by
    rw [← pointsTo_biUnion Finset.univ (ℓ := oLoc d) oSet oSet_disjoint, oSet_cover]; try rfl
  refine e1.trans ?_
  rw [bigSep_univ_prod]
  refine bigSep_congr fun c _ => ?_
  rw [bigSep_univ_prod]
  refine bigSep_congr fun s _ => ?_
  rw [bigSep_univ_prod]

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)) := by
  unfold unscopedBufs
  rw [show (Finset.univ.filter fun b : Ref sig .tc => ¬ b.isScoped) = {main_arg0, main_v0} by decide,
    SparseCore.bigSep_insert' (by decide), bigSep_singleton]

theorem st_c (d : Dev nD) (c : Fin ((K (F := F)).nCore 0)) :
    (P m).st 0 d c = bigSep Finset.univ fun s : Fin ((K (F := F)).nSub 0) => tileIn m d (cv c s) := by
  simp only [P]
theorem dn_c (d : Dev nD) (c : Fin ((K (F := F)).nCore 0)) :
    (P m).dn 0 d c = bigSep Finset.univ fun s : Fin ((K (F := F)).nSub 0) => tileOut m d (cv c s) := by
  simp only [P]

/-- What the call takes for the two SparseCores is the two arrays whole; -/
theorem st0_eq (d : Dev nD) :
    (bigSep Finset.univ fun c : Fin ((K (F := F)).nCore 0) => (P m).st 0 d c)
      = iprop((xLoc d ↦{fullShare} m (xLoc d)) ∗ (oLoc d ↦{fullShare} m (oLoc d))) := by
  refine (bigSep_congr fun c _ => st_c m d c).trans ?_
  unfold tileIn
  have e2 : ∀ c : Fin ((K (F := F)).nCore 0),
      (bigSep Finset.univ fun s : Fin ((K (F := F)).nSub 0) => iprop(bigSep Finset.univ (xPts m d (cv c s))
        ∗ bigSep Finset.univ fun q : Fin 32 => bigSep Finset.univ fun t : Row => oPts d (cv c s) q t (m (oLoc d))))
      = iprop((bigSep Finset.univ fun s : Fin ((K (F := F)).nSub 0) => bigSep Finset.univ (xPts m d (cv c s)))
          ∗ bigSep Finset.univ fun s : Fin ((K (F := F)).nSub 0) => bigSep Finset.univ fun q : Fin 32 => bigSep Finset.univ fun t : Row =>
              oPts d (cv c s) q t (m (oLoc d))) := fun c => bigSep_sep' _ _ _
  refine (bigSep_congr fun c _ => e2 c).trans ?_
  refine (bigSep_sep' _ _ _).trans ?_
  exact congrArg₂ (fun a b : sProp 𝕄 => iprop(a ∗ b)) (x_tiles m d).symm (o_tiles d (m (oLoc d))).symm

/-- and what it hands back, the input as it was and the output at its target contents. -/
theorem dn0_eq (d : Dev nD) :
    (bigSep Finset.univ fun c : Fin ((K (F := F)).nCore 0) => (P m).dn 0 d c)
      = iprop((xLoc d ↦{fullShare} m (xLoc d)) ∗ (oLoc d ↦{fullShare} target m d)) := by
  refine (bigSep_congr fun c _ => dn_c m d c).trans ?_
  unfold tileOut
  have e2 : ∀ c : Fin ((K (F := F)).nCore 0),
      (bigSep Finset.univ fun s : Fin ((K (F := F)).nSub 0) => iprop(bigSep Finset.univ (xPts m d (cv c s))
        ∗ bigSep Finset.univ (rowsDone m d (cv c s))))
      = iprop((bigSep Finset.univ fun s : Fin ((K (F := F)).nSub 0) => bigSep Finset.univ (xPts m d (cv c s)))
          ∗ bigSep Finset.univ fun s : Fin ((K (F := F)).nSub 0) => bigSep Finset.univ (rowsDone m d (cv c s))) := fun c => bigSep_sep' _ _ _
  refine (bigSep_congr fun c _ => e2 c).trans ?_
  refine (bigSep_sep' _ _ _).trans ?_
  exact congrArg₂ (fun a b : sProp 𝕄 => iprop(a ∗ b)) (x_tiles m d).symm (o_tiles d (target m d)).symm

/-- What @main leaves the claim: the input unchanged, the output the input's rows end to end. -/
abbrev FIN (d : Dev nD) : sProp 𝕄 := iprop((xLoc d ↦{fullShare} m (xLoc d)) ∗ (oLoc d ↦{fullShare} target m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  iexact Ho

def fq (d : Dev nD) (s' : Phys nD τ sig (Elt F)) : Prop := s'.mem.mem (xLoc d) = m (xLoc d) ∧ s'.mem.mem (oLoc d) = target m d

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := target m d)) $$ [HSI Ho]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (xLoc c) = m (xLoc c) ∧ r.2.mem (oLoc c) = target m c

/-- Every weakly fair execution of the 35 threads ends, nothing faulting, the input unchanged and the output the
    input's rows end to end. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Kernel.Copy

end
-- ==== Proof.StripeI.lean ====
/-
  Where each worker reads and writes.  The kernel numbers its 32 workers w = 2·(subcore) + (core); worker w
  serves batch entry w / 8 and the 512 rows starting at (w mod 8)·512 of that entry's 4096 × 2048 matrix.
  Chunk r (of 32) is the 16 rows starting at row (w mod 8)·512 + 16·r, and row t of it is written to the
  flat output at element ((w mod 8)·512 + 16·r + t)·2048 — the row-major position of that row, which is why
  the whole kernel is a reshape.  The kernel computes w / 8 and w mod 8 by a signed floor-division chain; here
  that chain is evaluated once for the 32 workers, and the rest is affine arithmetic without overflow.
-/
import proofs.«214764_g20993800143467_cont_8to1_1661_21_alg».proof.Proof.Gen.KernelIdeal
import Idealize.ShloMosaic.Lib.Affine

namespace Cert.KernelIdeal.Stripe

open Idealize.ShloMosaic Cert.KernelIdeal

/-- The worker's number: two workers per vector subcore index, one on each SparseCore. -/
def wid (i : grid0.Coords) : Nat := 2 * (i 1).val + (i 0).val

theorem wid_lt (i : grid0.Coords) : wid i < 32 := by
  have h0 : (i 0).val < 2 := (i 0).isLt
  have h1 : (i 1).val < 16 := (i 1).isLt
  unfold wid; omega

/-- The batch entry of worker (a, b): the floor division of 2b + a by 8, as the kernel's integer chain spells it. -/
def batchWord (a b : Nat) : BitVec 32 :=
  let arg1 : BitVec 32 := BitVec.ofNat 32 b
  let c2_i32 : BitVec 32 := 2#32
  let v0 : BitVec 32 := Scalar.muli arg1 c2_i32
  let arg0 : BitVec 32 := BitVec.ofNat 32 a
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  Scalar.select v16 v17 v2

/-- The first row of worker (a, b)'s stripe: ((2b + a) mod 8)·512, the modulus spelt with its sign correction. -/
def rowWord (a b : Nat) : BitVec 32 :=
  let arg1 : BitVec 32 := BitVec.ofNat 32 b
  let c2_i32 : BitVec 32 := 2#32
  let v0 : BitVec 32 := Scalar.muli arg1 c2_i32
  let arg0 : BitVec 32 := BitVec.ofNat 32 a
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  Scalar.muli v28 c512_i32

/-- For each of the 32 workers the division chain gives the floor quotient by 8. -/
theorem batchWord_eq : ∀ (a : Fin 2) (b : Fin 16), batchWord a.val b.val = BitVec.ofNat 32 ((2 * b.val + a.val) / 8) := by
  decide +kernel

/-- For each of the 32 workers the modulus chain gives 512 times the remainder mod 8. -/
theorem rowWord_eq : ∀ (a : Fin 2) (b : Fin 16), rowWord a.val b.val = BitVec.ofNat 32 ((2 * b.val + a.val) % 8 * 512) := by
  decide +kernel

/-- The source offsets of a chunk, over the two chains. -/
theorem off1_unfold (i : grid0.Coords) (c : BitVec 32) :
    k0_off1 i c = ![(batchWord (i 0).val (i 1).val).toNat, (Scalar.addi (rowWord (i 0).val (i 1).val) c).toNat, 0] := rfl

/-- The destination offsets of row `t` of the chunk whose first element is `C` past the stripe's. -/
def offO (i : grid0.Coords) (C : BitVec 32) (t : Nat) : Fin 2 → Nat :=
  ![(batchWord (i 0).val (i 1).val).toNat,
    (Scalar.addi (Scalar.addi (Scalar.muli (rowWord (i 0).val (i 1).val) 2048#32) C) (Scalar.muli (Scf.iv 0#32 1#32 t) 2048#32)).toNat]

theorem off3_unfold (i : grid0.Coords) (t : Fin k0_t1_loop.trips) : k0_off3 i t = offO i 0#32 t.val := rfl

/-- The two chains at a worker's coordinates. -/
theorem batchWord_at (a b : Nat) (ha : a < 2) (hb : b < 16) : batchWord a b = BitVec.ofNat 32 ((2 * b + a) / 8) :=
  batchWord_eq ⟨a, ha⟩ ⟨b, hb⟩
theorem rowWord_at (a b : Nat) (ha : a < 2) (hb : b < 16) : rowWord a b = BitVec.ofNat 32 ((2 * b + a) % 8 * 512) :=
  rowWord_eq ⟨a, ha⟩ ⟨b, hb⟩

/-- Chunk `r` of worker `i` starts at row (w mod 8)·512 + 16·r of batch entry w / 8. -/
theorem off1_closed (i : grid0.Coords) (r : Fin 32) :
    k0_off1 i (BitVec.ofNat 32 (16 * r.val)) = ![wid i / 8, wid i % 8 * 512 + 16 * r.val, 0] := by
  have ha : (i 0).val < 2 := (i 0).isLt
  have hb : (i 1).val < 16 := (i 1).isLt
  have hr : r.val < 32 := r.isLt
  rw [off1_unfold, batchWord_at _ _ ha hb, rowWord_at _ _ ha hb]
  have hB : Affine.IsInt (BitVec.ofNat 32 ((2 * (i 1).val + (i 0).val) / 8)) (((2 * (i 1).val + (i 0).val) / 8 : Nat) : Int) :=
    Affine.ofNat _ ⟨rfl, by omega⟩
  have hR : Affine.IsInt (BitVec.ofNat 32 ((2 * (i 1).val + (i 0).val) % 8 * 512)) (((2 * (i 1).val + (i 0).val) % 8 * 512 : Nat) : Int) :=
    Affine.ofNat _ ⟨rfl, by omega⟩
  have hC : Affine.IsInt (BitVec.ofNat 32 (16 * r.val)) ((16 * r.val : Nat) : Int) := Affine.ofNat _ ⟨rfl, by omega⟩
  have hS := Affine.addi hR hC (e := (((2 * (i 1).val + (i 0).val) % 8 * 512 + 16 * r.val : Nat) : Int)) ⟨by omega, by omega, by omega⟩
  have e1 := Affine.toNat_of hB (by omega)
  have e2 := Affine.toNat_of hS (by omega)
  rw [show (BitVec.ofNat 32 ((2 * (i 1).val + (i 0).val) / 8)).toNat = (2 * (i 1).val + (i 0).val) / 8 by omega,
    show (Scalar.addi (BitVec.ofNat 32 ((2 * (i 1).val + (i 0).val) % 8 * 512)) (BitVec.ofNat 32 (16 * r.val))).toNat
      = (2 * (i 1).val + (i 0).val) % 8 * 512 + 16 * r.val by omega]
  rfl

/-- Row `t` of chunk `r` of worker `i` lands at element ((w mod 8)·512 + 16·r + t)·2048 of batch entry w / 8. -/
theorem offO_closed (i : grid0.Coords) (r : Fin 32) (t : Nat) (ht : t < 16) :
    offO i (BitVec.ofNat 32 (32768 * r.val)) t = ![wid i / 8, (wid i % 8 * 512 + 16 * r.val + t) * 2048] := by
  have ha : (i 0).val < 2 := (i 0).isLt
  have hb : (i 1).val < 16 := (i 1).isLt
  have hr : r.val < 32 := r.isLt
  unfold offO
  rw [batchWord_at _ _ ha hb, rowWord_at _ _ ha hb]
  have hB : Affine.IsInt (BitVec.ofNat 32 ((2 * (i 1).val + (i 0).val) / 8)) (((2 * (i 1).val + (i 0).val) / 8 : Nat) : Int) :=
    Affine.ofNat _ ⟨rfl, by omega⟩
  have hR : Affine.IsInt (BitVec.ofNat 32 ((2 * (i 1).val + (i 0).val) % 8 * 512)) (((2 * (i 1).val + (i 0).val) % 8 * 512 : Nat) : Int) :=
    Affine.ofNat _ ⟨rfl, by omega⟩
  have h2048 : Affine.IsInt (2048#32) 2048 := Affine.ofNat _ ⟨rfl, by omega⟩
  have hE := Affine.muli hR h2048 (e := (((2 * (i 1).val + (i 0).val) % 8 * 512 * 2048 : Nat) : Int)) ⟨by omega, by omega, by omega⟩
  have hC : Affine.IsInt (BitVec.ofNat 32 (32768 * r.val)) ((32768 * r.val : Nat) : Int) := Affine.ofNat _ ⟨rfl, by omega⟩
  have hEC := Affine.addi hE hC (e := (((2 * (i 1).val + (i 0).val) % 8 * 512 * 2048 + 32768 * r.val : Nat) : Int)) ⟨by omega, by omega, by omega⟩
  have h0 : Affine.IsInt (0#32) 0 := Affine.ofNat _ ⟨rfl, by omega⟩
  have h1 : Affine.IsInt (1#32) 1 := Affine.ofNat _ ⟨rfl, by omega⟩
  have hiv : Affine.IsInt (Scf.iv 0#32 1#32 t) ((t : Nat) : Int) := Affine.iv h0 h1 t ⟨by omega, by omega, by omega⟩
  have hT := Affine.muli hiv h2048 (e := ((t * 2048 : Nat) : Int)) ⟨by omega, by omega, by omega⟩
  have hAll := Affine.addi hEC hT (e := (((2 * (i 1).val + (i 0).val) % 8 * 512 * 2048 + 32768 * r.val + t * 2048 : Nat) : Int))
    ⟨by omega, by omega, by omega⟩
  have e1 := Affine.toNat_of hB (by omega)
  have e2 := Affine.toNat_of hAll (by omega)
  rw [show (BitVec.ofNat 32 ((2 * (i 1).val + (i 0).val) / 8)).toNat = (2 * (i 1).val + (i 0).val) / 8 by omega,
    show (Scalar.addi (Scalar.addi (Scalar.muli (BitVec.ofNat 32 ((2 * (i 1).val + (i 0).val) % 8 * 512)) 2048#32) (BitVec.ofNat 32 (32768 * r.val)))
        (Scalar.muli (Scf.iv 0#32 1#32 t) 2048#32)).toNat = ((2 * (i 1).val + (i 0).val) % 8 * 512 + 16 * r.val + t) * 2048 by omega]
  rfl

end Cert.KernelIdeal.Stripe
-- ==== Proof.PiecesI.lean ====
/-
  The kernel's body, said once.  A worker streams its 512 rows through a ring of three 16-row slots: chunk r is
  fetched into slot r mod 3 (one copy, on the slot's inbound semaphore), and copied out row by row (sixteen copies,
  all on the slot's outbound semaphore, then sixteen waits).  The printed body spells the 32 chunks out one after the
  other; here the four moves are written once over (slot, chunk), the body is their sequence — two fetches ahead, a
  slot's copies-out drained before the slot is fetched into again — and the printed body is that sequence, by unfolding.
-/
import proofs.«214764_g20993800143467_cont_8to1_1661_21_alg».proof.Proof.Gen.KernelIdeal
import proofs.«214764_g20993800143467_cont_8to1_1661_21_alg».proof.Proof.StripeI

set_option synthInstance.maxSize 4096

noncomputable section

namespace Cert.KernelIdeal.Copy

open Idealize.ShloMosaic Idealize.SL.Sem Cert.KernelIdeal Cert.KernelIdeal.Gen Cert.KernelIdeal.Stripe

variable {F : FTy → Type} [FloatOps F]

/-- The three arrays as a vector subcore names them: the input, the flat output, the subcore's ring of three slots. -/
abbrev xV : Memref sig .scVector .hbm S4x4096x2048 .f32 := Memref.whole main_arg0_scv
abbrev oV : Memref sig .scVector .hbm S4x8388608 .f32 := Memref.whole main_v0_scv
abbrev sB : Memref sig .scVector .vmem S3x16x2048 .f32 := Memref.whole cc0_scratch0

theorem slot_inb (s : Fin 3) : ∀ a, (![s.val, 0, 0] : Fin 3 → Nat) a + S1x16x2048.size a ≤ S3x16x2048.size a := by
  have := s.isLt; intro a
  match a with
  | ⟨0, _⟩ => show s.val + 1 ≤ 3; omega
  | ⟨1, _⟩ => show 0 + 16 ≤ 16; omega
  | ⟨2, _⟩ => show 0 + 2048 ≤ 2048; omega
theorem sem_inb (s : Fin 3) : ∀ a, (![s.val] : Fin 1 → Nat) a + S1.size a ≤ S3.size a := by
  have := s.isLt; intro a
  match a with
  | ⟨0, _⟩ => show s.val + 1 ≤ 3; omega

/-- Slot `s` of the ring, a 16 × 2048 block. -/
abbrev slotM (s : Fin 3) : Memref sig .scVector .vmem S16x2048 .f32 :=
  ((sB.slice (Rect.unit (s := S3x16x2048) ![s.val, 0, 0] S1x16x2048.size (slot_inb s)) (fun _ => rfl)).squeeze S16x2048 squeezes_S1x16x2048_S16x2048)
/-- Slot `s`'s inbound and outbound semaphores. -/
abbrev inSem (s : Fin 3) : DmaSems sig S_ := (cc0_scratch1.slice (Rect.unit (s := S3) ![s.val] S1.size (sem_inb s))).squeeze S_ squeezes_S1_S_
abbrev outSem (s : Fin 3) : DmaSems sig S_ := (cc0_scratch2.slice (Rect.unit (s := S3) ![s.val] S1.size (sem_inb s))).squeeze S_ squeezes_S1_S_

/-- Chunk `r` of the worker's stripe of the input: 16 rows of one batch entry. -/
abbrev xChunk (i : grid0.Coords) (r : Fin 32) : Memref sig .scVector .hbm S16x2048 .f32 :=
  ((xV.slice (Rect.unit (s := S4x4096x2048) (k0_off1 i (BitVec.ofNat 32 (16 * r.val))) S1x16x2048.size (k0_off1_inb i r)) (fun _ => rfl)).squeeze S16x2048 squeezes_S1x16x2048_S16x2048)

/-- Row `t` of a slot, as a loop's trip addresses it. -/
def bOff (t : Nat) : Fin 2 → Nat := ![(Scf.iv 0#32 1#32 t).toNat, 0]
theorem bOff_eq (t : Fin k0_t1_loop.trips) : bOff t.val = ![t.val, 0] := k0_off2_eq t
theorem bOff_inb (t : Fin k0_t1_loop.trips) : ∀ a, bOff t.val a + S1x2048.size a ≤ S16x2048.size a := k0_off2_inb t
abbrev bufRow (s : Fin 3) (t : Fin k0_t1_loop.trips) : Memref sig .scVector .vmem S2048 .f32 :=
  (((slotM s).slice (Rect.unit (s := S16x2048) (bOff t.val) S1x2048.size (bOff_inb t)) (fun _ => rfl)).squeeze S2048 squeezes_S1x2048_S2048)

/-- Row `t` of chunk `r` in the flat output. -/
theorem offO_inb (i : grid0.Coords) (r : Fin 32) (t : Fin k0_t1_loop.trips) :
    ∀ a, offO i (BitVec.ofNat 32 (32768 * r.val)) t.val a + S1x2048.size a ≤ S4x8388608.size a := by
  have ht : t.val < 16 := t.isLt
  have hw := wid_lt i; have hr := r.isLt
  rw [offO_closed i r t.val ht]
  intro a
  match a with
  | ⟨0, _⟩ => show wid i / 8 + 1 ≤ 4; omega
  | ⟨1, _⟩ => show (wid i % 8 * 512 + 16 * r.val + t.val) * 2048 + 2048 ≤ 8388608; omega
abbrev oRow (i : grid0.Coords) (r : Fin 32) (t : Fin k0_t1_loop.trips) : Memref sig .scVector .hbm S2048 .f32 :=
  ((oV.slice (Rect.unit (s := S4x8388608) (offO i (BitVec.ofNat 32 (32768 * r.val)) t.val) S1x2048.size (offO_inb i r t)) (fun _ => rfl)).squeeze S2048 squeezes_S1x2048_S2048)

/-- Start fetching chunk `r` into slot `s`. -/
def fetch (i : grid0.Coords) (s : Fin 3) (r : Fin 32) : Prog (TpuEff nD τ sig (Elt F) Λ₀ (.scVector ((i 0).castLE hcore0) ((i 1).castLE hsub0))) PUnit :=
  Prog.lift (.enqueueDma (xChunk i r) (.here (slotM s)) (.dma (inSem s).sem) ((View.wordExact_bits rfl).reshape _ _) ((View.wordExact_bits rfl).reshape _ _) ⟨Or.inl rfl, trivial⟩)
/-- Wait for that fetch. -/
def fetched (i : grid0.Coords) (s : Fin 3) (r : Fin 32) : Prog (TpuEff nD τ sig (Elt F) Λ₀ (.scVector ((i 0).castLE hcore0) ((i 1).castLE hsub0))) PUnit :=
  Prog.lift (.waitDma2 (inSem s).sem (xChunk i r) (slotM s) ((View.wordExact_bits rfl).reshape _ _) ((View.wordExact_bits rfl).reshape _ _))
/-- Start copying slot `s`, holding chunk `r`, out to the flat output: one copy per row. -/
def drain (i : grid0.Coords) (s : Fin 3) (r : Fin 32) : Prog (TpuEff nD τ sig (Elt F) Λ₀ (.scVector ((i 0).castLE hcore0) ((i 1).castLE hsub0))) PUnit :=
  Scf.Loop.for k0_t1_loop k0_t1_ok ⟨⟩ fun t _ => do
    Prog.lift (.enqueueDma (bufRow s t) (.here (oRow i r t)) (.dma (outSem s).sem) ((View.wordExact_bits rfl).reshape _ _) ((View.wordExact_bits rfl).reshape _ _) ⟨Or.inl rfl, trivial⟩)
    pure ⟨⟩
/-- Wait for those sixteen copies. -/
def drained (i : grid0.Coords) (s : Fin 3) (r : Fin 32) : Prog (TpuEff nD τ sig (Elt F) Λ₀ (.scVector ((i 0).castLE hcore0) ((i 1).castLE hsub0))) PUnit :=
  Scf.Loop.for k0_t1_loop k0_t1_ok ⟨⟩ fun t _ => do
    Prog.lift (.waitDma2 (outSem s).sem (bufRow s t) (oRow i r t) ((View.wordExact_bits rfl).reshape _ _) ((View.wordExact_bits rfl).reshape _ _))
    pure ⟨⟩

abbrev sl (r : Nat) : Fin 3 := ⟨r % 3, Nat.mod_lt _ (by decide)⟩
abbrev ch (r : Nat) : Fin 32 := ⟨r % 32, Nat.mod_lt _ (by decide)⟩

/-- The steady state, `n` chunks from chunk `r` on: drain chunk r − 1's copies-out, fetch chunk r + 2 into the slot
    they freed, take chunk r's fetch, start its copies-out. -/
def steady (i : grid0.Coords) : Nat → Nat → Prog (TpuEff nD τ sig (Elt F) Λ₀ (.scVector ((i 0).castLE hcore0) ((i 1).castLE hsub0))) PUnit → Prog (TpuEff nD τ sig (Elt F) Λ₀ (.scVector ((i 0).castLE hcore0) ((i 1).castLE hsub0))) PUnit
  | 0, _, k => k
  | n + 1, r, k => do
      drained i (sl (r + 2)) (ch (r - 1))
      fetch i (sl (r + 2)) (ch (r + 2))
      fetched i (sl r) (ch r)
      drain i (sl r) (ch r)
      steady i n (r + 1) k

/-- The whole body. -/
def body (i : grid0.Coords) : Prog (TpuEff nD τ sig (Elt F) Λ₀ (.scVector ((i 0).castLE hcore0) ((i 1).castLE hsub0))) PUnit := do
  fetch i 0 0
  fetch i 1 1
  fetch i 2 2
  fetched i 0 0
  drain i 0 0
  steady i 29 1 (do
    fetched i (sl 30) (ch 30)
    drain i (sl 30) (ch 30)
    fetched i (sl 31) (ch 31)
    drain i (sl 31) (ch 31)
    drained i (sl 29) (ch 29)
    drained i (sl 30) (ch 30)
    drained i (sl 31) (ch 31)
    pure ⟨⟩)

/-! ## The printed parts are these moves

The printed body is cut by count into thirty parts; each is a run of the moves above, and the words it passes on
(the stripe's first row and first element) are read by no move. -/

set_option maxRecDepth 200000

theorem part2_eq (i : grid0.Coords) (v29 : BitVec 32) :
    k0_part2 (F := F) i xV (Memref.isWhole_whole _) oV (Memref.isWhole_whole _) sB (Memref.isWhole_whole _) cc0_scratch1 cc0_scratch2 v29
      = (do fetch i 0 0; fetch i 1 1; fetch i 2 2; pure ⟨⟩) := rfl
theorem part3_eq (i : grid0.Coords) (v29 v30 : BitVec 32) :
    k0_part3 (F := F) i xV (Memref.isWhole_whole _) oV (Memref.isWhole_whole _) sB (Memref.isWhole_whole _) cc0_scratch1 cc0_scratch2 v29 v30
      = (do fetched i 0 0; drain i 0 0; drained i 0 0; fetch i 0 3; pure ⟨⟩) := rfl
theorem part4_eq (i : grid0.Coords) (v29 v30 : BitVec 32) :
    k0_part4 (F := F) i xV (Memref.isWhole_whole _) oV (Memref.isWhole_whole _) sB (Memref.isWhole_whole _) cc0_scratch1 cc0_scratch2 v29 v30
      = (do fetched i 1 1; drain i 1 1; drained i 1 1; fetch i 1 4; pure ⟨⟩) := rfl
theorem part5_eq (i : grid0.Coords) (v29 v30 : BitVec 32) :
    k0_part5 (F := F) i xV (Memref.isWhole_whole _) oV (Memref.isWhole_whole _) sB (Memref.isWhole_whole _) cc0_scratch1 cc0_scratch2 v29 v30
      = (do fetched i 2 2; drain i 2 2; drained i 2 2; fetch i 2 5; fetched i 0 3; drain i 0 3; pure ⟨⟩) := rfl
theorem part6_eq (i : grid0.Coords) (v29 v30 : BitVec 32) :
    k0_part6 (F := F) i xV (Memref.isWhole_whole _) oV (Memref.isWhole_whole _) sB (Memref.isWhole_whole _) cc0_scratch1 cc0_scratch2 v29 v30
      = (do drained i 0 3; fetch i 0 6; fetched i 1 4; drain i 1 4; drained i 1 4; pure ⟨⟩) := rfl
theorem part7_eq (i : grid0.Coords) (v29 v30 : BitVec 32) :
    k0_part7 (F := F) i xV (Memref.isWhole_whole _) oV (Memref.isWhole_whole _) sB (Memref.isWhole_whole _) cc0_scratch1 cc0_scratch2 v29 v30
      = (do fetch i 1 7; fetched i 2 5; drain i 2 5; drained i 2 5; pure ⟨⟩) := rfl
theorem part8_eq (i : grid0.Coords) (v29 v30 : BitVec 32) :
    k0_part8 (F := F) i xV (Memref.isWhole_whole _) oV (Memref.isWhole_whole _) sB (Memref.isWhole_whole _) cc0_scratch1 cc0_scratch2 v29 v30
      = (do fetch i 2 8; fetched i 0 6; drain i 0 6; drained i 0 6; pure ⟨⟩) := rfl
theorem part9_eq (i : grid0.Coords) (v29 v30 : BitVec 32) :
    k0_part9 (F := F) i xV (Memref.isWhole_whole _) oV (Memref.isWhole_whole _) sB (Memref.isWhole_whole _) cc0_scratch1 cc0_scratch2 v29 v30
      = (do fetch i 0 9; fetched i 1 7; drain i 1 7; drained i 1 7; pure ⟨⟩) := rfl
theorem part10_eq (i : grid0.Coords) (v29 v30 : BitVec 32) :
    k0_part10 (F := F) i xV (Memref.isWhole_whole _) oV (Memref.isWhole_whole _) sB (Memref.isWhole_whole _) cc0_scratch1 cc0_scratch2 v29 v30
      = (do fetch i 1 10; fetched i 2 8; drain i 2 8; drained i 2 8; fetch i 2 11; pure ⟨⟩) := rfl
theorem part11_eq (i : grid0.Coords) (v29 v30 : BitVec 32) :
    k0_part11 (F := F) i xV (Memref.isWhole_whole _) oV (Memref.isWhole_whole _) sB (Memref.isWhole_whole _) cc0_scratch1 cc0_scratch2 v29 v30
      = (do fetched i 0 9; drain i 0 9; drained i 0 9; fetch i 0 12; pure ⟨⟩) := rfl
theorem part12_eq (i : grid0.Coords) (v29 v30 : BitVec 32) :
    k0_part12 (F := F) i xV (Memref.isWhole_whole _) oV (Memref.isWhole_whole _) sB (Memref.isWhole_whole _) cc0_scratch1 cc0_scratch2 v29 v30
      = (do fetched i 1 10; drain i 1 10; drained i 1 10; fetch i 1 13; pure ⟨⟩) := rfl
theorem part13_eq (i : grid0.Coords) (v29 v30 : BitVec 32) :
    k0_part13 (F := F) i xV (Memref.isWhole_whole _) oV (Memref.isWhole_whole _) sB (Memref.isWhole_whole _) cc0_scratch1 cc0_scratch2 v29 v30
      = (do fetched i 2 11; drain i 2 11; drained i 2 11; fetch i 2 14; pure ⟨⟩) := rfl
theorem part14_eq (i : grid0.Coords) (v29 v30 : BitVec 32) :
    k0_part14 (F := F) i xV (Memref.isWhole_whole _) oV (Memref.isWhole_whole _) sB (Memref.isWhole_whole _) cc0_scratch1 cc0_scratch2 v29 v30
      = (do fetched i 0 12; drain i 0 12; drained i 0 12; fetch i 0 15; fetched i 1 13; drain i 1 13; pure ⟨⟩) := rfl
theorem part15_eq (i : grid0.Coords) (v29 v30 : BitVec 32) :
    k0_part15 (F := F) i xV (Memref.isWhole_whole _) oV (Memref.isWhole_whole _) sB (Memref.isWhole_whole _) cc0_scratch1 cc0_scratch2 v29 v30
      = (do drained i 1 13; fetch i 1 16; fetched i 2 14; drain i 2 14; drained i 2 14; pure ⟨⟩) := rfl
theorem part16_eq (i : grid0.Coords) (v29 v30 : BitVec 32) :
    k0_part16 (F := F) i xV (Memref.isWhole_whole _) oV (Memref.isWhole_whole _) sB (Memref.isWhole_whole _) cc0_scratch1 cc0_scratch2 v29 v30
      = (do fetch i 2 17; fetched i 0 15; drain i 0 15; drained i 0 15; pure ⟨⟩) := rfl
theorem part17_eq (i : grid0.Coords) (v29 v30 : BitVec 32) :
    k0_part17 (F := F) i xV (Memref.isWhole_whole _) oV (Memref.isWhole_whole _) sB (Memref.isWhole_whole _) cc0_scratch1 cc0_scratch2 v29 v30
      = (do fetch i 0 18; fetched i 1 16; drain i 1 16; drained i 1 16; pure ⟨⟩) := rfl
theorem part18_eq (i : grid0.Coords) (v29 v30 : BitVec 32) :
    k0_part18 (F := F) i xV (Memref.isWhole_whole _) oV (Memref.isWhole_whole _) sB (Memref.isWhole_whole _) cc0_scratch1 cc0_scratch2 v29 v30
      = (do fetch i 1 19; fetched i 2 17; drain i 2 17; drained i 2 17; pure ⟨⟩) := rfl
theorem part19_eq (i : grid0.Coords) (v29 v30 : BitVec 32) :
    k0_part19 (F := F) i xV (Memref.isWhole_whole _) oV (Memref.isWhole_whole _) sB (Memref.isWhole_whole _) cc0_scratch1 cc0_scratch2 v29 v30
      = (do fetch i 2 20; fetched i 0 18; drain i 0 18; drained i 0 18; fetch i 0 21; pure ⟨⟩) := rfl
theorem part20_eq (i : grid0.Coords) (v29 v30 : BitVec 32) :
    k0_part20 (F := F) i xV (Memref.isWhole_whole _) oV (Memref.isWhole_whole _) sB (Memref.isWhole_whole _) cc0_scratch1 cc0_scratch2 v29 v30
      = (do fetched i 1 19; drain i 1 19; drained i 1 19; fetch i 1 22; pure ⟨⟩) := rfl
theorem part21_eq (i : grid0.Coords) (v29 v30 : BitVec 32) :
    k0_part21 (F := F) i xV (Memref.isWhole_whole _) oV (Memref.isWhole_whole _) sB (Memref.isWhole_whole _) cc0_scratch1 cc0_scratch2 v29 v30
      = (do fetched i 2 20; drain i 2 20; drained i 2 20; fetch i 2 23; pure ⟨⟩) := rfl
theorem part22_eq (i : grid0.Coords) (v29 v30 : BitVec 32) :
    k0_part22 (F := F) i xV (Memref.isWhole_whole _) oV (Memref.isWhole_whole _) sB (Memref.isWhole_whole _) cc0_scratch1 cc0_scratch2 v29 v30
      = (do fetched i 0 21; drain i 0 21; drained i 0 21; fetch i 0 24; pure ⟨⟩) := rfl
theorem part23_eq (i : grid0.Coords) (v29 v30 : BitVec 32) :
    k0_part23 (F := F) i xV (Memref.isWhole_whole _) oV (Memref.isWhole_whole _) sB (Memref.isWhole_whole _) cc0_scratch1 cc0_scratch2 v29 v30
      = (do fetched i 1 22; drain i 1 22; drained i 1 22; fetch i 1 25; fetched i 2 23; drain i 2 23; pure ⟨⟩) := rfl
theorem part24_eq (i : grid0.Coords) (v29 v30 : BitVec 32) :
    k0_part24 (F := F) i xV (Memref.isWhole_whole _) oV (Memref.isWhole_whole _) sB (Memref.isWhole_whole _) cc0_scratch1 cc0_scratch2 v29 v30
      = (do drained i 2 23; fetch i 2 26; fetched i 0 24; drain i 0 24; drained i 0 24; pure ⟨⟩) := rfl
theorem part25_eq (i : grid0.Coords) (v29 v30 : BitVec 32) :
    k0_part25 (F := F) i xV (Memref.isWhole_whole _) oV (Memref.isWhole_whole _) sB (Memref.isWhole_whole _) cc0_scratch1 cc0_scratch2 v29 v30
      = (do fetch i 0 27; fetched i 1 25; drain i 1 25; drained i 1 25; pure ⟨⟩) := rfl
theorem part26_eq (i : grid0.Coords) (v29 v30 : BitVec 32) :
    k0_part26 (F := F) i xV (Memref.isWhole_whole _) oV (Memref.isWhole_whole _) sB (Memref.isWhole_whole _) cc0_scratch1 cc0_scratch2 v29 v30
      = (do fetch i 1 28; fetched i 2 26; drain i 2 26; drained i 2 26; pure ⟨⟩) := rfl
theorem part27_eq (i : grid0.Coords) (v29 v30 : BitVec 32) :
    k0_part27 (F := F) i xV (Memref.isWhole_whole _) oV (Memref.isWhole_whole _) sB (Memref.isWhole_whole _) cc0_scratch1 cc0_scratch2 v29 v30
      = (do fetch i 2 29; fetched i 0 27; drain i 0 27; drained i 0 27; pure ⟨⟩) := rfl
theorem part28_eq (i : grid0.Coords) (v29 v30 : BitVec 32) :
    k0_part28 (F := F) i xV (Memref.isWhole_whole _) oV (Memref.isWhole_whole _) sB (Memref.isWhole_whole _) cc0_scratch1 cc0_scratch2 v29 v30
      = (do fetch i 0 30; fetched i 1 28; drain i 1 28; drained i 1 28; fetch i 1 31; pure ⟨⟩) := rfl
theorem part29_eq (i : grid0.Coords) (v29 v30 : BitVec 32) :
    k0_part29 (F := F) i xV (Memref.isWhole_whole _) oV (Memref.isWhole_whole _) sB (Memref.isWhole_whole _) cc0_scratch1 cc0_scratch2 v29 v30
      = (do fetched i 2 29; drain i 2 29; fetched i 0 30; drain i 0 30; pure ⟨⟩) := rfl
theorem part1_pure (i : grid0.Coords) : ∃ p, k0_part1 (F := F) i xV (Memref.isWhole_whole _) oV (Memref.isWhole_whole _) sB (Memref.isWhole_whole _) cc0_scratch1 cc0_scratch2 = pure p := ⟨_, rfl⟩
theorem part30_eq (i : grid0.Coords) :
    k0_part30 (F := F) i xV (Memref.isWhole_whole _) oV (Memref.isWhole_whole _) sB (Memref.isWhole_whole _) cc0_scratch1 cc0_scratch2
      = (do
          let ⟨v29, v30⟩ ← k0_part1 (F := F) i xV (Memref.isWhole_whole _) oV (Memref.isWhole_whole _) sB (Memref.isWhole_whole _) cc0_scratch1 cc0_scratch2
          k0_part2 (F := F) i xV (Memref.isWhole_whole _) oV (Memref.isWhole_whole _) sB (Memref.isWhole_whole _) cc0_scratch1 cc0_scratch2 v29
          k0_part3 (F := F) i xV (Memref.isWhole_whole _) oV (Memref.isWhole_whole _) sB (Memref.isWhole_whole _) cc0_scratch1 cc0_scratch2 v29 v30
          k0_part4 (F := F) i xV (Memref.isWhole_whole _) oV (Memref.isWhole_whole _) sB (Memref.isWhole_whole _) cc0_scratch1 cc0_scratch2 v29 v30
          k0_part5 (F := F) i xV (Memref.isWhole_whole _) oV (Memref.isWhole_whole _) sB (Memref.isWhole_whole _) cc0_scratch1 cc0_scratch2 v29 v30
          k0_part6 (F := F) i xV (Memref.isWhole_whole _) oV (Memref.isWhole_whole _) sB (Memref.isWhole_whole _) cc0_scratch1 cc0_scratch2 v29 v30
          k0_part7 (F := F) i xV (Memref.isWhole_whole _) oV (Memref.isWhole_whole _) sB (Memref.isWhole_whole _) cc0_scratch1 cc0_scratch2 v29 v30
          k0_part8 (F := F) i xV (Memref.isWhole_whole _) oV (Memref.isWhole_whole _) sB (Memref.isWhole_whole _) cc0_scratch1 cc0_scratch2 v29 v30
          k0_part9 (F := F) i xV (Memref.isWhole_whole _) oV (Memref.isWhole_whole _) sB (Memref.isWhole_whole _) cc0_scratch1 cc0_scratch2 v29 v30
          k0_part10 (F := F) i xV (Memref.isWhole_whole _) oV (Memref.isWhole_whole _) sB (Memref.isWhole_whole _) cc0_scratch1 cc0_scratch2 v29 v30
          k0_part11 (F := F) i xV (Memref.isWhole_whole _) oV (Memref.isWhole_whole _) sB (Memref.isWhole_whole _) cc0_scratch1 cc0_scratch2 v29 v30
          k0_part12 (F := F) i xV (Memref.isWhole_whole _) oV (Memref.isWhole_whole _) sB (Memref.isWhole_whole _) cc0_scratch1 cc0_scratch2 v29 v30
          k0_part13 (F := F) i xV (Memref.isWhole_whole _) oV (Memref.isWhole_whole _) sB (Memref.isWhole_whole _) cc0_scratch1 cc0_scratch2 v29 v30
          k0_part14 (F := F) i xV (Memref.isWhole_whole _) oV (Memref.isWhole_whole _) sB (Memref.isWhole_whole _) cc0_scratch1 cc0_scratch2 v29 v30
          k0_part15 (F := F) i xV (Memref.isWhole_whole _) oV (Memref.isWhole_whole _) sB (Memref.isWhole_whole _) cc0_scratch1 cc0_scratch2 v29 v30
          k0_part16 (F := F) i xV (Memref.isWhole_whole _) oV (Memref.isWhole_whole _) sB (Memref.isWhole_whole _) cc0_scratch1 cc0_scratch2 v29 v30
          k0_part17 (F := F) i xV (Memref.isWhole_whole _) oV (Memref.isWhole_whole _) sB (Memref.isWhole_whole _) cc0_scratch1 cc0_scratch2 v29 v30
          k0_part18 (F := F) i xV (Memref.isWhole_whole _) oV (Memref.isWhole_whole _) sB (Memref.isWhole_whole _) cc0_scratch1 cc0_scratch2 v29 v30
          k0_part19 (F := F) i xV (Memref.isWhole_whole _) oV (Memref.isWhole_whole _) sB (Memref.isWhole_whole _) cc0_scratch1 cc0_scratch2 v29 v30
          k0_part20 (F := F) i xV (Memref.isWhole_whole _) oV (Memref.isWhole_whole _) sB (Memref.isWhole_whole _) cc0_scratch1 cc0_scratch2 v29 v30
          k0_part21 (F := F) i xV (Memref.isWhole_whole _) oV (Memref.isWhole_whole _) sB (Memref.isWhole_whole _) cc0_scratch1 cc0_scratch2 v29 v30
          k0_part22 (F := F) i xV (Memref.isWhole_whole _) oV (Memref.isWhole_whole _) sB (Memref.isWhole_whole _) cc0_scratch1 cc0_scratch2 v29 v30
          k0_part23 (F := F) i xV (Memref.isWhole_whole _) oV (Memref.isWhole_whole _) sB (Memref.isWhole_whole _) cc0_scratch1 cc0_scratch2 v29 v30
          k0_part24 (F := F) i xV (Memref.isWhole_whole _) oV (Memref.isWhole_whole _) sB (Memref.isWhole_whole _) cc0_scratch1 cc0_scratch2 v29 v30
          k0_part25 (F := F) i xV (Memref.isWhole_whole _) oV (Memref.isWhole_whole _) sB (Memref.isWhole_whole _) cc0_scratch1 cc0_scratch2 v29 v30
          k0_part26 (F := F) i xV (Memref.isWhole_whole _) oV (Memref.isWhole_whole _) sB (Memref.isWhole_whole _) cc0_scratch1 cc0_scratch2 v29 v30
          k0_part27 (F := F) i xV (Memref.isWhole_whole _) oV (Memref.isWhole_whole _) sB (Memref.isWhole_whole _) cc0_scratch1 cc0_scratch2 v29 v30
          k0_part28 (F := F) i xV (Memref.isWhole_whole _) oV (Memref.isWhole_whole _) sB (Memref.isWhole_whole _) cc0_scratch1 cc0_scratch2 v29 v30
          k0_part29 (F := F) i xV (Memref.isWhole_whole _) oV (Memref.isWhole_whole _) sB (Memref.isWhole_whole _) cc0_scratch1 cc0_scratch2 v29 v30
          fetched i 1 31; drain i 1 31; drained i 2 29; drained i 0 30
          pure v30) := rfl
theorem top_eq (i : grid0.Coords) :
    cc0__sc_copy (F := F) i xV (Memref.isWhole_whole _) oV (Memref.isWhole_whole _) sB (Memref.isWhole_whole _) cc0_scratch1 cc0_scratch2
      = (do
          let _ ← k0_part30 (F := F) i xV (Memref.isWhole_whole _) oV (Memref.isWhole_whole _) sB (Memref.isWhole_whole _) cc0_scratch1 cc0_scratch2
          drained i 1 31
          pure ⟨⟩) := rfl

/-- The printed body is the sequence `body`: part by part, then by the monad's associativity. -/
theorem body_eq (i : grid0.Coords) : cc0__sc_copy (F := F) i xV (Memref.isWhole_whole _) oV (Memref.isWhole_whole _) sB (Memref.isWhole_whole _) cc0_scratch1 cc0_scratch2 = body i := by
  obtain ⟨⟨w29, w30⟩, hp⟩ := part1_pure (F := F) i
  rw [top_eq, part30_eq, hp]
  simp only [part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, bind_assoc, pure_bind]
  rfl

end Cert.KernelIdeal.Copy

end
-- ==== Proof.ValueI.lean ====
/-
  The output as one function of the input.  The flat output's element (b, e) is the input's element
  (b, e / 2048, e mod 2048): rows of 2048 laid end to end.  A row copy of the kernel moves row t of a slot holding
  chunk r — the input's rows ρ + t, ρ = (w mod 8)·512 + 16·r, of batch entry w / 8 — to the 2048 output elements
  from (ρ + t)·2048 on, so what it leaves there is this function: element j of that row is the input's (b, ρ + t, j),
  and ((ρ + t)·2048 + j) / 2048 = ρ + t, ((ρ + t)·2048 + j) mod 2048 = j.
-/
import proofs.«214764_g20993800143467_cont_8to1_1661_21_alg».proof.Proof.PiecesI
import Idealize.ShloMosaic.Lib.ValueIdx
import Idealize.ShloMosaic.Lib.ValueLayout

noncomputable section

namespace Cert.KernelIdeal.Copy

open Idealize.ShloMosaic Idealize.SL.Sem Cert.KernelIdeal Cert.KernelIdeal.Gen Cert.KernelIdeal.Stripe
open Idealize.ShloMosaic.ValueIdx

/-- The input position a flat output position comes from. -/
def unflat (j : S4x8388608.Idx) : S4x4096x2048.Idx :=
  ix3 (n0 := 4) (n1 := 4096) (n2 := 2048) (j 0)
    ⟨(j 1).val / 2048, by have h : (j 1).val < 8388608 := (j 1).isLt; omega⟩
    ⟨(j 1).val % 2048, Nat.mod_lt _ (by decide)⟩

/-- The flat output, as a function of the input's contents. -/
def reshaped {Val : EltTy → Type} (x : S4x4096x2048.Idx → Val .f32) : S4x8388608.Idx → Val .f32 := fun j => x (unflat j)

theorem trip_lt (t : Fin k0_t1_loop.trips) : t.val < 16 := lt_of_lt_of_eq t.isLt (by decide)

/-- Row `t` of a 16 × 2048 block, read as a vector: its element `j` is the block's element (t, j). -/
theorem emb_row_of {κ : Kind} {sp : Space} (M : Memref sig κ sp S16x2048 .f32) (off : Fin 2 → Nat)
    (inb : ∀ a, off a + S1x2048.size a ≤ S16x2048.size a) (t : Fin 16) (hoff : off = ![t.val, 0]) (j0 : Fin 2048) :
    ((M.slice (Rect.unit (s := S16x2048) off S1x2048.size inb) (fun _ => rfl)).squeeze S2048 squeezes_S1x2048_S2048).view.emb (ix1 j0)
      = M.view.emb (ix2 t j0) := by
  simp only [Memref.view_squeeze, Memref.view_slice, View.emb_reshape, View.emb_slice, Function.Embedding.trans_apply, Equiv.coe_toEmbedding]
  congr 1
  rw [Shape.reshapeEquiv_cons_one]
  funext a; apply Fin.ext
  rw [Rect.emb_apply]
  subst hoff
  match a with
  | ⟨0, _⟩ => show t.val + 1 * 0 = t.val; omega
  | ⟨1, _⟩ => show 0 + 1 * j0.val = j0.val; omega

theorem emb_bufRow (s : Fin 3) (t : Fin k0_t1_loop.trips) (j0 : Fin 2048) :
    (bufRow s t).view.emb (ix1 j0) = (slotM s).view.emb (ix2 (n0 := 16) (n1 := 2048) ⟨t.val, trip_lt t⟩ j0) :=
  emb_row_of (slotM s) (bOff t.val) (bOff_inb t) ⟨t.val, trip_lt t⟩ (bOff_eq t) j0

/-- Element (t, j) of a 16-row chunk cut out of the whole input at `off`. -/
theorem emb_chunk_of (off : Fin 3 → Nat) (inb : ∀ a, off a + S1x16x2048.size a ≤ S4x4096x2048.size a) (t : Fin 16) (j0 : Fin 2048) :
    ((xV.slice (Rect.unit (s := S4x4096x2048) off S1x16x2048.size inb) (fun _ => rfl)).squeeze S16x2048 squeezes_S1x16x2048_S16x2048).view.emb (ix2 t j0)
      = (Rect.unit (s := S4x4096x2048) off S1x16x2048.size inb).emb (ix3 (⟨0, Nat.one_pos⟩ : Fin 1) t j0) := by
  simp only [Memref.view_squeeze, Memref.view_slice, Memref.view_whole, View.emb_reshape, View.emb_slice,
    Function.Embedding.trans_apply, Equiv.coe_toEmbedding]
  show (Rect.unit (s := S4x4096x2048) off S1x16x2048.size inb).emb (Shape.reshapeEquiv _ (ix2 t j0)) = _
  rw [reshapeEquiv_ix2_1ab]

/-- Element `j` of a 2048-element row cut out of the whole flat output at `off`. -/
theorem emb_orow_of (off : Fin 2 → Nat) (inb : ∀ a, off a + S1x2048.size a ≤ S4x8388608.size a) (j0 : Fin 2048) :
    ((oV.slice (Rect.unit (s := S4x8388608) off S1x2048.size inb) (fun _ => rfl)).squeeze S2048 squeezes_S1x2048_S2048).view.emb (ix1 j0)
      = (Rect.unit (s := S4x8388608) off S1x2048.size inb).emb (Fin.cons (⟨0, Nat.one_pos⟩ : Fin 1) (ix1 j0)) := by
  simp only [Memref.view_squeeze, Memref.view_slice, Memref.view_whole, View.emb_reshape, View.emb_slice,
    Function.Embedding.trans_apply, Equiv.coe_toEmbedding]
  show (Rect.unit (s := S4x8388608) off S1x2048.size inb).emb (Shape.reshapeEquiv _ (ix1 j0)) = _
  rw [Shape.reshapeEquiv_cons_one]
  rfl

/-- Element (t, j) of chunk `r` of the input is where element `j` of row `t` of that chunk in the flat output comes from. -/
theorem emb_row (i : grid0.Coords) (r : Fin 32) (t : Fin k0_t1_loop.trips) (j0 : Fin 2048) :
    (xChunk i r).view.emb (ix2 (n0 := 16) (n1 := 2048) ⟨t.val, trip_lt t⟩ j0) = unflat ((oRow i r t).view.emb (ix1 j0)) := by
  have ht := trip_lt t
  have hj : j0.val < 2048 := j0.isLt
  have hx := off1_closed i r
  have ho := offO_closed i r t.val ht
  rw [show (xChunk i r).view.emb (ix2 (n0 := 16) (n1 := 2048) ⟨t.val, trip_lt t⟩ j0) = _ from emb_chunk_of _ (k0_off1_inb i r) ⟨t.val, trip_lt t⟩ j0,
    show (oRow i r t).view.emb (ix1 j0) = _ from emb_orow_of _ (offO_inb i r t) j0]
  funext a; apply Fin.ext
  match a with
  | ⟨0, _⟩ =>
    show k0_off1 i (BitVec.ofNat 32 (16 * r.val)) 0 + 1 * 0 = offO i (BitVec.ofNat 32 (32768 * r.val)) t.val 0 + 1 * 0
    rw [hx, ho]; rfl
  | ⟨1, _⟩ =>
    show k0_off1 i (BitVec.ofNat 32 (16 * r.val)) 1 + 1 * t.val
      = (offO i (BitVec.ofNat 32 (32768 * r.val)) t.val 1 + 1 * j0.val) / 2048
    rw [hx, ho]
    show wid i % 8 * 512 + 16 * r.val + 1 * t.val = ((wid i % 8 * 512 + 16 * r.val + t.val) * 2048 + 1 * j0.val) / 2048
    omega
  | ⟨2, _⟩ =>
    show k0_off1 i (BitVec.ofNat 32 (16 * r.val)) 2 + 1 * j0.val
      = (offO i (BitVec.ofNat 32 (32768 * r.val)) t.val 1 + 1 * j0.val) % 2048
    rw [hx, ho]
    show 0 + 1 * j0.val = ((wid i % 8 * 512 + 16 * r.val + t.val) * 2048 + 1 * j0.val) % 2048
    omega

/-- What a row copy lands, from a slot that holds chunk `r`, is the reshaped input's row. -/
theorem row_value {Val : EltTy → Type} (i : grid0.Coords) (s : Fin 3) (r : Fin 32) (t : Fin k0_t1_loop.trips)
    (mx : S4x4096x2048.Idx → Val .f32) (f : S3x16x2048.Idx → Val .f32) (g : S4x8388608.Idx → Val .f32)
    (hH : (slotM s).view.read Val f = (xChunk i r).view.read Val mx) :
    ∀ x ∈ (oRow i r t).view.set,
      (oRow i r t).view.write Val g (ReadAs.same.apply ((bufRow s t).view.read Val f)) Finset.univ x = reshaped mx x := by
  intro x hx
  obtain ⟨j, -, rfl⟩ := Finset.mem_map.mp (show x ∈ Finset.univ.map (oRow i r t).view.emb from hx)
  obtain ⟨j0, rfl⟩ : ∃ j0 : Fin 2048, j = ix1 j0 := ⟨j 0, eq_ix1 j⟩
  rw [View.write_emb_of_mem _ _ (Finset.mem_univ _)]
  have h2 := congrFun hH (ix2 (n0 := 16) (n1 := 2048) ⟨t.val, trip_lt t⟩ j0)
  rw [View.read_apply, View.read_apply, emb_row i r t j0] at h2
  show _root_.cast _ ((bufRow s t).view.read Val f (ix1 j0)) = mx (unflat ((oRow i r t).view.emb (ix1 j0)))
  rw [View.read_apply, emb_bufRow]
  simp only [cast_eq] at h2 ⊢
  exact h2

end Cert.KernelIdeal.Copy

end
-- ==== Proof.MovesI.lean ====
/-
  What each of the four moves does to what a worker holds.  A worker holds its 32 chunks of the input, the 512 rows
  of the output it is to write, its three slots and their six semaphore counters.  A fetch lends a chunk and a slot
  to the copy engine and gets them back at its wait, the slot then holding the chunk; the sixteen row copies of a
  drain lend the slot's rows and the output's rows, on one semaphore, and only the last of their sixteen waits
  hands anything back: every row of the output then holds its row of the chunk.
-/
import proofs.«214764_g20993800143467_cont_8to1_1661_21_alg».proof.Defs
import proofs.«214764_g20993800143467_cont_8to1_1661_21_alg».proof.Proof.Gen.KernelIdeal
import proofs.«214764_g20993800143467_cont_8to1_1661_21_alg».proof.Proof.StripeI
import proofs.«214764_g20993800143467_cont_8to1_1661_21_alg».proof.Proof.PiecesI
import proofs.«214764_g20993800143467_cont_8to1_1661_21_alg».proof.Proof.ValueI
import Idealize.ShloMosaic.Lib.SparseCore.Launch
import Idealize.ShloMosaic.Lib.Batch
import Idealize.ShloMosaic.Lib.Pipeline.Kit
import Idealize.ShloMosaic.Lib.Tactic

noncomputable section

namespace Cert.KernelIdeal.Copy

open Cert.KernelIdeal Cert.KernelIdeal.Gen Cert.KernelIdeal.Stripe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

variable [FloatOps F]
variable (d : Dev nD) (i : grid0.Coords)

/-- The worker's thread. -/
abbrev thr : Thread nD τ := V d ((i 0).castLE hcore0) ((i 1).castLE hsub0)

/-- Chunk `r` of the input, held. -/
abbrev xPts (r : Fin 32) : sProp 𝕄 := (xChunk i r).view.loc (thr d i) ↦[(xChunk i r).view.set]{fullShare} m (xLoc d)
/-- Slot `s`, held at `f`. -/
abbrev slotPts (s : Fin 3) (f : Buf (Elt F) ((slotM s).view.loc (thr d i))) : sProp 𝕄 :=
  (slotM s).view.loc (thr d i) ↦[(slotM s).view.set]{fullShare} f
/-- Slot `s` holds chunk `r`: read as a 16 × 2048 block it is that chunk of the input. -/
def Holds (s : Fin 3) (r : Fin 32) (f : Buf (Elt F) ((slotM s).view.loc (thr d i))) : Prop :=
  (slotM s).view.read (Elt F) f = (xChunk i r).view.read (Elt F) (m (xLoc d))
abbrev slotHolds (s : Fin 3) (r : Fin 32) : sProp 𝕄 := iprop(∃ f, ⌜Holds m d i s r f⌝ ∗ slotPts d i s f)

abbrev inCell (s : Fin 3) : SemLoc sig := SemLoc.dma (inSem s).sem
abbrev outCell (s : Fin 3) : SemLoc sig := SemLoc.dma (outSem s).sem

/-- The credit of a fetch. -/
abbrev NIn (s : Fin 3) : ℕ := (slotM s).view.amount (inCell s)
theorem NIn_pos (s : Fin 3) : 0 < NIn s := View.amount_pos _ _ (by decide)

/-- A fetch in flight: at its wait the slot comes back holding the chunk, and the chunk comes back. -/
abbrev fetching (s : Fin 3) (r : Fin 32) : sProp 𝕄 :=
  Transfers.Flight (EC (F := F)) (thr d i) (inCell s) (none : HIx 1) (NIn s) iprop(slotHolds m d i s r ∗ xPts m d i r)

/-- Starting a fetch. -/
theorem fetch_spec (s : Fin 3) (r : Fin 32) {α : Type} (k : PUnit → Prog (TpuEff nD τ sig (Elt F) Λ₀ (thr d i).2) α) (Q : α → sProp 𝕄)
    (fd : Buf (Elt F) ((slotM s).view.loc (thr d i))) :
    iprop(xPts m d i r ∗ slotPts d i s fd ∗ semVal (thr d i, inCell s) 0)
      ⊢ iprop((fetching m d i s r -∗ wp frame (wpE (defs₀ (F := F)) 𝒱₀ (thr d i) none) Set.univ (k ⟨⟩) Q)
          -∗ wp frame (wpE (defs₀ (F := F)) 𝒱₀ (thr d i) none) Set.univ (fetch i s r >>= k) Q) := by
  simp only [fetch, Prog.lift, Prog.bind_op, Prog.bind_ret]
  iintro ⟨Hx, Hs, Hv⟩ Hk
  iapply (Transfers.wp_dmaLocal (EC (F := F)) 𝒱₀ (thr d i) none (none : HIx 1) (NIn s) rfl (NIn_pos s) (Finset.Subset.refl _)) $$ [Hx Hs Hv]
  · isplitl [Hx]; · iexact Hx
    isplitl [Hs]; · iexact Hs
    iexact Hv
  iintro Hf
  iapply Hk
  iapply (Transfers.Flight_mono (EC (F := F)) (thr d i) ?h) $$ Hf
  case h =>
    iintro ⟨Hs, Hx⟩
    isplitl [Hs]
    · iexists ((slotM s).view.write (Elt F) fd (ReadAs.same.apply ((xChunk i r).view.read (Elt F) (m (xLoc d)))) Finset.univ)
      isplitr
      · ipureintro
        unfold Holds
        rw [View.read_write_univ]
      · iexact Hs
    · iexact Hx

/-- Taking a fetch. -/
theorem fetched_spec (s : Fin 3) (r r' : Fin 32) {α : Type} (k : PUnit → Prog (TpuEff nD τ sig (Elt F) Λ₀ (thr d i).2) α) (Q : α → sProp 𝕄)
    (O : CellTallies nD τ sig (HIx 1)) (W : Waits sig (HIx 1)) :
    iprop(fetching m d i s r ∗ owes (thr d i) O W ∗ Transfers.MayWaits (thr d i) (none : HIx 1) O)
      ⊢ iprop((iprop(slotHolds m d i s r ∗ xPts m d i r ∗ semVal (thr d i, inCell s) 0 ∗ owes (thr d i) O (insert (inCell s, none) W))
              -∗ wp frame (wpE (defs₀ (F := F)) 𝒱₀ (thr d i) none) Set.univ (k ⟨⟩) Q)
          -∗ wp frame (wpE (defs₀ (F := F)) 𝒱₀ (thr d i) none) Set.univ (fetched i s r' >>= k) Q) := by
  simp only [fetched, Prog.lift, Prog.bind_op, Prog.bind_ret]
  iintro ⟨Hf, HO, #Hmw⟩ Hk
  iapply (Transfers.wp_waitLocalO (EC (F := F)) 𝒱₀ (thr d i) none (none : HIx 1) (N := NIn s) rfl) $$ [Hf HO]
  · isplitl [Hf]; · iexact Hf
    isplitl [HO]; · iexact HO
    iapply (Transfers.MayWaits.elim (inCell s)); iexact Hmw
  iintro ⟨⟨Hs, Hx⟩, Hv, HO⟩
  iapply Hk
  isplitl [Hs]; · iexact Hs
  isplitl [Hx]; · iexact Hx
  isplitl [Hv]; · iexact Hv
  iexact HO

/-! ## A slot is its sixteen rows -/

abbrev Row : Type := Fin k0_t1_loop.trips
theorem trips16 : k0_t1_loop.trips = 16 := by decide

theorem set_bufRow (s : Fin 3) (t : Row) :
    (bufRow s t).view.set = (Rect.unit (s := S16x2048) (bOff t.val) S1x2048.size (bOff_inb t)).set.map (slotM s).view.emb := by
  show (((slotM s).view.slice _).reshape S2048 _).set = _
  rw [View.set_reshape, View.set_slice]

theorem rows_disjoint (s : Fin 3) : ∀ t ∈ (Finset.univ : Finset Row), ∀ t' ∈ (Finset.univ : Finset Row), t ≠ t' →
    Disjoint (bufRow s t).view.set (bufRow s t').view.set := by
  intro t _ t' _ hne
  rw [set_bufRow, set_bufRow, Finset.disjoint_map]
  have hv : t.val ≠ t'.val := fun e => hne (Fin.ext e)
  refine Rect.unit_disjoint (0 : Fin 2) ?_
  rw [bOff_eq t, bOff_eq t']
  show t.val + 1 ≤ t'.val ∨ t'.val + 1 ≤ t.val
  omega

theorem rows_cover (s : Fin 3) : (Finset.univ : Finset Row).biUnion (fun t => (bufRow s t).view.set) = (slotM s).view.set := by
  apply Finset.Subset.antisymm
  · intro x hx
    obtain ⟨t, -, hxt⟩ := Finset.mem_biUnion.mp hx
    have hsub : (bufRow s t).view.set ⊆ (slotM s).view.set := by
      show (((slotM s).view.slice _).reshape S2048 _).set ⊆ _
      rw [View.set_reshape]; exact View.set_slice_subset _ _
    exact hsub hxt
  · intro x hx
    obtain ⟨y, -, rfl⟩ := Finset.mem_map.mp (show x ∈ Finset.univ.map (slotM s).view.emb from hx)
    have hy : (y 0).val < 16 := (y 0).isLt
    refine Finset.mem_biUnion.mpr ⟨⟨(y 0).val, by rw [trips16]; exact hy⟩, Finset.mem_univ _, ?_⟩
    rw [set_bufRow]
    refine Finset.mem_map.mpr ⟨y, ?_, rfl⟩
    rw [Rect.mem_set_unit, bOff_eq]
    intro a
    match a with
    | ⟨0, _⟩ => exact ⟨Nat.le_refl _, Nat.lt_succ_self _⟩
    | ⟨1, _⟩ => exact ⟨Nat.zero_le _, by have h2 : (y 1).val < 2048 := (y 1).isLt; show (y 1).val < 0 + 2048; omega⟩

/-- Row `t` of slot `s`, held at the slot's contents. -/
abbrev rowPts (s : Fin 3) (t : Row) (f : Buf (Elt F) ((slotM s).view.loc (thr d i))) : sProp 𝕄 :=
  (bufRow s t).view.loc (thr d i) ↦[(bufRow s t).view.set]{fullShare} f

theorem slot_rows (s : Fin 3) (f : Buf (Elt F) ((slotM s).view.loc (thr d i))) :
    slotPts d i s f = bigSep Finset.univ fun t : Row => rowPts d i s t f := by
  unfold slotPts
  rw [← rows_cover s]
  exact pointsTo_biUnion Finset.univ _ (rows_disjoint s)

/-! ## The copies out -/

/-- Row `t` of chunk `r` of the output, held at `g`. -/
abbrev oPts (r : Fin 32) (t : Row) (g : Buf (Elt F) (oLoc d)) : sProp 𝕄 :=
  (oRow i r t).view.loc (thr d i) ↦[(oRow i r t).view.set]{fullShare} g

/-- The output the kernel is to leave: the input's elements, rows end to end. -/
abbrev target : Buf (Elt F) (oLoc d) := reshaped (m (xLoc d))

/-- The credit of one row's copy. -/
abbrev NOut : ℕ := sig.dmaCredit .scVector (Kind.scVector.table .hbm) (main_v0_scv : Ref sig .scVector).idx S2048 .f32
theorem NOut_pos : 0 < NOut := sig.dmaCredit_pos _ _ _ _ _ (by decide)

/-- What row `t`'s copy hands back: the output's row at its target contents, and the slot's row. -/
abbrev dlv (s : Fin 3) (r : Fin 32) (f : Buf (Elt F) ((slotM s).view.loc (thr d i))) (t : Row) : sProp 𝕄 :=
  iprop(oPts d i r t (target m d) ∗ rowPts d i s t f)

/-- Slot `s`'s copies-out of chunk `r`: `k` issued, `u` units waited for. -/
abbrev draining (s : Fin 3) (r : Fin 32) (f : Buf (Elt F) ((slotM s).view.loc (thr d i))) (k u : ℕ) : sProp 𝕄 :=
  Transfers.Batch (EC (F := F)) (thr d i) (outCell s) (none : HIx 1) NOut (dlv m d i s r f) k u

/-- What a row copy lands is the target's row (Value.lean's index equation, stated where it is used). -/
theorem row_lands (s : Fin 3) (r : Fin 32) (t : Row) (f : Buf (Elt F) ((slotM s).view.loc (thr d i))) (hH : Holds m d i s r f)
    (g : Buf (Elt F) (oLoc d)) :
    ∀ x ∈ (oRow i r t).view.set,
      (oRow i r t).view.write (Elt F) g (ReadAs.same.apply ((bufRow s t).view.read (Elt F) f)) Finset.univ x = target m d x :=
  row_value i s r t (m (xLoc d)) f g hH

/-- The invariant of the issuing loop: `n` rows' copies issued, the others' rows still in hand. -/
def drainInv (s : Fin 3) (r : Fin 32) (f : Buf (Elt F) ((slotM s).view.loc (thr d i))) (n : ℕ) (_ : PUnit) : sProp 𝕄 :=
  iprop(draining m d i s r f n 0
    ∗ bigSep (Transfers.pending (n := k0_t1_loop.trips) n) fun t => iprop(rowPts d i s t f ∗ ∃ g, oPts d i r t g))

/-- Starting the sixteen copies-out of a slot that holds chunk `r`. -/
theorem drain_spec (s : Fin 3) (r : Fin 32) {α : Type} (k : PUnit → Prog (TpuEff nD τ sig (Elt F) Λ₀ (thr d i).2) α) (Q : α → sProp 𝕄)
    (f : Buf (Elt F) ((slotM s).view.loc (thr d i))) (hH : Holds m d i s r f) :
    iprop(slotPts d i s f ∗ (bigSep Finset.univ fun t : Row => iprop(∃ g, oPts d i r t g)) ∗ semVal (thr d i, outCell s) 0)
      ⊢ iprop((draining m d i s r f k0_t1_loop.trips 0 -∗ wp frame (wpE (defs₀ (F := F)) 𝒱₀ (thr d i) none) Set.univ (k ⟨⟩) Q)
          -∗ wp frame (wpE (defs₀ (F := F)) 𝒱₀ (thr d i) none) Set.univ (drain i s r >>= k) Q) := by
  iintro ⟨Hs, Ho, Hv⟩ Hk
  imod (Transfers.batch_alloc' (Lvl := ℕ) (EC (F := F)) (thr d i) (none : HIx 1) NOut (dlv m d i s r f) (sm := outCell s) (E := Set.univ)) $$ Hv with HB
  ihave Hr := (Entails.of_eq (slot_rows d i s f)) $$ Hs
  unfold drain
  iapply (Scf.wp_for_bind frame (wpE (defs₀ (F := F)) 𝒱₀ (thr d i) none) Set.univ k0_t1_loop.lb k0_t1_loop.ub k0_t1_loop.st k0_t1_ok ⟨⟩ _
      (drainInv m d i s r f) ?step) $$ [HB Hr Ho]
  case step =>
    intro t _
    unfold drainInv
    simp only [Prog.lift, Prog.bind_op, Prog.bind_ret, Prog.pure_eq_ret]
    rw [Transfers.bigSep_pending_step _ t.val t.isLt]
    iintro ⟨HB, ⟨Hrow, %g, Hog⟩, Hrest⟩
    have hD : iprop(((oRow i r t).view.loc (thr d i) ↦[(oRow i r t).view.set]{fullShare}
          ((oRow i r t).view.write (Elt F) g (ReadAs.same.apply ((bufRow s t).view.read (Elt F) f)) Finset.univ))
        ∗ ((bufRow s t).view.loc (thr d i) ↦[(bufRow s t).view.set]{fullShare} f)) ⊢ dlv m d i s r f ⟨t.val, t.isLt⟩ := by
      iintro ⟨Ho, Hrow⟩
      isplitl [Ho]
      · iapply (Entails.of_eq (pointsTo_congr (row_lands m d i s r t f hH g))); iexact Ho
      · iexact Hrow
    iapply (Transfers.wp_dmaBatch (EC (F := F)) 𝒱₀ (thr d i) none (none : HIx 1) NOut (show (oRow i r t).view.amount (outCell s) = NOut from rfl) (Finset.Subset.refl _) t.isLt (Nat.zero_le _) hD) $$ [Hrow Hog HB]
    · isplitl [Hrow]; · iexact Hrow
      isplitl [Hog]; · iexact Hog
      iexact HB
    iintro HB
    rw [wp_ret]; imodintro
    isplitl [HB]; · iexact HB
    iexact Hrest
  · unfold drainInv
    isplitl [HB]; · iexact HB
    rw [Transfers.pending_zero, bigSep_sep']
    isplitl [Hr]; · iexact Hr
    iexact Ho
  iintro %_ HI
  unfold drainInv
  icases HI with ⟨HB, -⟩
  iapply Hk; iexact HB

/-! ## What the worker owes, and its waits -/

/-- The worker's debts to the launch, with whatever waits it has recorded at its own index beyond `W`. -/
abbrev owing (O : CellTallies nD τ sig (HIx 1)) (W : Waits sig (HIx 1)) : sProp 𝕄 :=
  iprop(∃ W', ⌜∀ p ∈ W', p ∈ W ∨ p.2 = none⌝ ∗ owes (thr d i) O W')

/-- Taking a fetch, the debts carried along. -/
theorem fetched_spec' (s : Fin 3) (r r' : Fin 32) {α : Type} (k : PUnit → Prog (TpuEff nD τ sig (Elt F) Λ₀ (thr d i).2) α) (Q : α → sProp 𝕄)
    (O : CellTallies nD τ sig (HIx 1)) (W : Waits sig (HIx 1)) :
    iprop(fetching m d i s r ∗ owing d i O W ∗ Transfers.MayWaits (thr d i) (none : HIx 1) O)
      ⊢ iprop((iprop(slotHolds m d i s r ∗ xPts m d i r ∗ semVal (thr d i, inCell s) 0 ∗ owing d i O W)
              -∗ wp frame (wpE (defs₀ (F := F)) 𝒱₀ (thr d i) none) Set.univ (k ⟨⟩) Q)
          -∗ wp frame (wpE (defs₀ (F := F)) 𝒱₀ (thr d i) none) Set.univ (fetched i s r' >>= k) Q) := by
  iintro ⟨Hf, ⟨%W', %hW', HO⟩, #Hmw⟩ Hk
  iapply (fetched_spec m d i s r r' k Q O W') $$ [Hf HO]
  · isplitl [Hf]; · iexact Hf
    isplitl [HO]; · iexact HO
    iexact Hmw
  iintro ⟨Hs, Hx, Hv, HO⟩
  iapply Hk
  isplitl [Hs]; · iexact Hs
  isplitl [Hx]; · iexact Hx
  isplitl [Hv]; · iexact Hv
  iexists (insert (inCell s, none) W'); isplitr
  · ipureintro; intro p hp
    rcases Finset.mem_insert.mp hp with rfl | hp
    · exact .inr rfl
    · exact hW' p hp
  · iexact HO

/-- The invariant of the waiting loop: before the last wait the batch with `n` rows' units consumed; after it every
    delivery and the semaphore's counter at zero. -/
def drainedInv (s : Fin 3) (r : Fin 32) (f : Buf (Elt F) ((slotM s).view.loc (thr d i))) (O : CellTallies nD τ sig (HIx 1)) (W : Waits sig (HIx 1))
    (n : ℕ) (_ : PUnit) : sProp 𝕄 :=
  iprop(Transfers.MayWaits (thr d i) (none : HIx 1) O ∗ owing d i O W
    ∗ ((⌜n < k0_t1_loop.trips⌝ ∗ draining m d i s r f k0_t1_loop.trips (n * NOut))
        ∨ (⌜n = k0_t1_loop.trips⌝ ∗ (bigSep Finset.univ (dlv m d i s r f)) ∗ semVal (thr d i, outCell s) 0)))

/-- Waiting for the sixteen copies-out: the slot comes back as it was, the output's rows at their target contents. -/
theorem drained_spec (s : Fin 3) (r r' : Fin 32) {α : Type} (k : PUnit → Prog (TpuEff nD τ sig (Elt F) Λ₀ (thr d i).2) α) (Q : α → sProp 𝕄)
    (f : Buf (Elt F) ((slotM s).view.loc (thr d i))) (O : CellTallies nD τ sig (HIx 1)) (W : Waits sig (HIx 1)) :
    iprop(draining m d i s r f k0_t1_loop.trips 0 ∗ owing d i O W ∗ Transfers.MayWaits (thr d i) (none : HIx 1) O)
      ⊢ iprop((iprop(slotPts d i s f ∗ (bigSep Finset.univ fun t : Row => oPts d i r t (target m d)) ∗ semVal (thr d i, outCell s) 0 ∗ owing d i O W)
              -∗ wp frame (wpE (defs₀ (F := F)) 𝒱₀ (thr d i) none) Set.univ (k ⟨⟩) Q)
          -∗ wp frame (wpE (defs₀ (F := F)) 𝒱₀ (thr d i) none) Set.univ (drained i s r' >>= k) Q) := by
  iintro ⟨HB, HO, #Hmw⟩ Hk
  unfold drained
  iapply (Scf.wp_for_bind frame (wpE (defs₀ (F := F)) 𝒱₀ (thr d i) none) Set.univ k0_t1_loop.lb k0_t1_loop.ub k0_t1_loop.st k0_t1_ok ⟨⟩ _
      (drainedInv m d i s r f O W) ?step) $$ [HB HO]
  case step =>
    intro t _
    unfold drainedInv
    simp only [Prog.lift, Prog.bind_op, Prog.bind_ret, Prog.pure_eq_ret]
    have ht : t.val < k0_t1_loop.trips := t.isLt
    iintro ⟨#Hmw, ⟨%W', %hW', HO⟩, Hcase⟩
    icases Hcase with (⟨-, HB⟩ | ⟨%habs, -⟩)
    swap
    · exact absurd habs (Nat.ne_of_lt ht)
    have hins : ∀ p ∈ insert (outCell s, (none : HIx 1)) W', p ∈ W ∨ p.2 = none := by
      intro p hp
      rcases Finset.mem_insert.mp hp with rfl | hp
      · exact .inr rfl
      · exact hW' p hp
    by_cases hlast : t.val + 1 < k0_t1_loop.trips
    · have hu : t.val * NOut + NOut < NOut * k0_t1_loop.trips := by
        have h1 := (Nat.mul_lt_mul_right (NOut_pos)).mpr hlast
        rw [Nat.add_mul, Nat.one_mul] at h1
        rw [Nat.mul_comm NOut]; exact h1
      iapply (Transfers.wp_waitBatchO (EC (F := F)) 𝒱₀ (thr d i) none (none : HIx 1) (N := NOut) rfl hu (O := O) (W := W')) $$ [HB HO]
      · isplitl [HB]; · iexact HB
        isplitl [HO]; · iexact HO
        iapply (Transfers.MayWaits.elim (outCell s)); iexact Hmw
      iintro ⟨HB, HO⟩
      rw [wp_ret]; imodintro
      isplitr; · iexact Hmw
      isplitl [HO]
      · iexists _; isplitr
        · ipureintro; exact hins
        · iexact HO
      ileft; isplitr
      · ipureintro; exact hlast
      · rw [Nat.add_mul, Nat.one_mul]; iexact HB
    · have hu : t.val * NOut + NOut = NOut * k0_t1_loop.trips := by
        have h1 : t.val + 1 = k0_t1_loop.trips := by omega
        rw [← h1, Nat.mul_comm NOut, Nat.add_mul, Nat.one_mul]
      iapply (Transfers.wp_waitBatchLastO (EC (F := F)) 𝒱₀ (thr d i) none (none : HIx 1) (N := NOut) rfl NOut_pos hu (O := O) (W := W')) $$ [HB HO]
      · isplitl [HB]; · iexact HB
        isplitl [HO]; · iexact HO
        iapply (Transfers.MayWaits.elim (outCell s)); iexact Hmw
      iintro ⟨HD, Hv, HO⟩
      rw [wp_ret]; imodintro
      isplitr; · iexact Hmw
      isplitl [HO]
      · iexists _; isplitr
        · ipureintro; exact hins
        · iexact HO
      iright; isplitr
      · ipureintro; omega
      · isplitl [HD]; · iexact HD
        iexact Hv
  · unfold drainedInv
    isplitr; · iexact Hmw
    isplitl [HO]; · iexact HO
    ileft; isplitr
    · ipureintro; rw [trips16]; decide
    · rw [Nat.zero_mul]; iexact HB
  iintro %_ HI
  unfold drainedInv
  icases HI with ⟨-, HO, Hcase⟩
  icases Hcase with (⟨%habs, -⟩ | ⟨-, HD, Hv⟩)
  · exact absurd habs (Nat.lt_irrefl _)
  iapply Hk
  ihave HD' := (Entails.of_eq (bigSep_sep' Finset.univ (fun t : Row => oPts d i r t (target m d)) (fun t : Row => rowPts d i s t f))) $$ HD
  icases HD' with ⟨Hos, Hrows⟩
  isplitl [Hrows]; · iapply (Entails.of_eq (slot_rows d i s f).symm); iexact Hrows
  isplitl [Hos]; · iexact Hos
  isplitl [Hv]; · iexact Hv
  iexact HO

/-! ## The stages of the ring -/

/-- The rows of chunk `q` of the output, unwritten; written. -/
abbrev rowsAny (q : Fin 32) : sProp 𝕄 := bigSep Finset.univ fun t : Row => iprop(∃ g, oPts d i q t g)
abbrev rowsDone (q : Fin 32) : sProp 𝕄 := bigSep Finset.univ fun t : Row => oPts d i q t (target m d)

/-- At stage `r`: the input chunks in the worker's hand (all but chunks r and r + 1, which are being fetched), the output
    chunks not yet started, and the output chunks finished (up to chunk r − 2; chunk r − 1 is being copied out). -/
def aside (r : ℕ) : Finset (Fin 32) := Finset.univ.filter fun q => q.val < r ∨ r + 1 < q.val
def mid (r : ℕ) : Finset (Fin 32) := Finset.univ.filter fun q => q.val < r ∨ r + 2 < q.val
def todo (r : ℕ) : Finset (Fin 32) := Finset.univ.filter fun q => r ≤ q.val
def done (r : ℕ) : Finset (Fin 32) := Finset.univ.filter fun q => q.val + 2 ≤ r

theorem aside_eq (r : ℕ) (h : r + 2 < 32) : aside r = insert (ch (r + 2)) (mid r) := by
  ext q; simp only [aside, mid, Finset.mem_filter, Finset.mem_univ, true_and, Finset.mem_insert, Fin.ext_iff]; omega
theorem aside_notMem (r : ℕ) (h : r + 2 < 32) : ch (r + 2) ∉ mid r := by
  simp only [mid, Finset.mem_filter, Finset.mem_univ, true_and]; omega
theorem aside_succ (r : ℕ) (h : r + 2 < 32) : aside (r + 1) = insert (ch r) (mid r) := by
  ext q; simp only [aside, mid, Finset.mem_filter, Finset.mem_univ, true_and, Finset.mem_insert, Fin.ext_iff]; omega
theorem aside_succ_notMem (r : ℕ) (h : r + 2 < 32) : ch r ∉ mid r := by
  simp only [mid, Finset.mem_filter, Finset.mem_univ, true_and]; omega
theorem todo_eq (r : ℕ) (h : r < 32) : todo r = insert (ch r) (todo (r + 1)) := by
  ext q; simp only [todo, Finset.mem_filter, Finset.mem_univ, true_and, Finset.mem_insert, Fin.ext_iff]; omega
theorem todo_notMem (r : ℕ) (h : r < 32) : ch r ∉ todo (r + 1) := by
  simp only [todo, Finset.mem_filter, Finset.mem_univ, true_and]; omega
theorem done_succ (r : ℕ) (h1 : 1 ≤ r) (h : r < 32) : done (r + 1) = insert (ch (r - 1)) (done r) := by
  ext q; simp only [done, Finset.mem_filter, Finset.mem_univ, true_and, Finset.mem_insert, Fin.ext_iff]; omega
theorem done_notMem (r : ℕ) (h1 : 1 ≤ r) (h : r < 32) : ch (r - 1) ∉ done r := by
  simp only [done, Finset.mem_filter, Finset.mem_univ, true_and]; omega

theorem sl_add3 (r : ℕ) : sl (r + 1 + 2) = sl r := Fin.ext (by show (r + 1 + 2) % 3 = r % 3; omega)

/-- Stage `r` (1 ≤ r ≤ 30): chunks r and r + 1 being fetched, chunk r − 1 being copied out of the slot chunk r + 2
    will take. -/
def stage (O : CellTallies nD τ sig (HIx 1)) (W : Waits sig (HIx 1)) (r : ℕ) : sProp 𝕄 :=
  iprop(owing d i O W
    ∗ fetching m d i (sl r) (ch r) ∗ fetching m d i (sl (r + 1)) (ch (r + 1))
    ∗ (∃ f, draining m d i (sl (r + 2)) (ch (r - 1)) f k0_t1_loop.trips 0)
    ∗ semVal (thr d i, inCell (sl (r + 2))) 0
    ∗ semVal (thr d i, outCell (sl r)) 0 ∗ semVal (thr d i, outCell (sl (r + 1))) 0
    ∗ bigSep (aside r) (xPts m d i)
    ∗ bigSep (todo r) (rowsAny d i)
    ∗ bigSep (done r) (rowsDone m d i))

theorem stage_open (O : CellTallies nD τ sig (HIx 1)) (W : Waits sig (HIx 1)) (r : ℕ) (h29 : r ≤ 29) :
    stage m d i O W r ⊢ iprop(owing d i O W
      ∗ fetching m d i (sl r) (ch r) ∗ fetching m d i (sl (r + 1)) (ch (r + 1))
      ∗ (∃ f, draining m d i (sl (r + 2)) (ch (r - 1)) f k0_t1_loop.trips 0)
      ∗ semVal (thr d i, inCell (sl (r + 2))) 0
      ∗ semVal (thr d i, outCell (sl r)) 0 ∗ semVal (thr d i, outCell (sl (r + 1))) 0
      ∗ (xPts m d i (ch (r + 2)) ∗ bigSep (mid r) (xPts m d i))
      ∗ (rowsAny d i (ch r) ∗ bigSep (todo (r + 1)) (rowsAny d i))
      ∗ bigSep (done r) (rowsDone m d i)) := by
  unfold stage
  rw [aside_eq r (by omega), SparseCore.bigSep_insert' (aside_notMem r (by omega)), todo_eq r (by omega), SparseCore.bigSep_insert' (todo_notMem r (by omega))]

theorem stage_close (O : CellTallies nD τ sig (HIx 1)) (W : Waits sig (HIx 1)) (r : ℕ) (h1 : 1 ≤ r) (h29 : r ≤ 29) :
    iprop(owing d i O W
      ∗ fetching m d i (sl (r + 1)) (ch (r + 1)) ∗ fetching m d i (sl (r + 2)) (ch (r + 2))
      ∗ (∃ f, draining m d i (sl r) (ch r) f k0_t1_loop.trips 0)
      ∗ semVal (thr d i, inCell (sl r)) 0
      ∗ semVal (thr d i, outCell (sl (r + 1))) 0 ∗ semVal (thr d i, outCell (sl (r + 2))) 0
      ∗ (xPts m d i (ch r) ∗ bigSep (mid r) (xPts m d i))
      ∗ bigSep (todo (r + 1)) (rowsAny d i)
      ∗ (rowsDone m d i (ch (r - 1)) ∗ bigSep (done r) (rowsDone m d i))) ⊢ stage m d i O W (r + 1) := by
  unfold stage
  rw [sl_add3, aside_succ r (by omega), SparseCore.bigSep_insert' (aside_succ_notMem r (by omega)), done_succ r h1 (by omega),
    SparseCore.bigSep_insert' (done_notMem r h1 (by omega))]
  exact .refl

/-- One turn of the ring. -/
theorem turn (O : CellTallies nD τ sig (HIx 1)) (W : Waits sig (HIx 1)) (r : ℕ) (h1 : 1 ≤ r) (h29 : r ≤ 29)
    (k : Prog (TpuEff nD τ sig (Elt F) Λ₀ (thr d i).2) PUnit) (Q : PUnit → sProp 𝕄) :
    iprop(Transfers.MayWaits (thr d i) (none : HIx 1) O ∗ stage m d i O W r)
      ⊢ iprop((stage m d i O W (r + 1) -∗ wp frame (wpE (defs₀ (F := F)) 𝒱₀ (thr d i) none) Set.univ k Q)
          -∗ wp frame (wpE (defs₀ (F := F)) 𝒱₀ (thr d i) none) Set.univ
              (drained i (sl (r + 2)) (ch (r - 1)) >>= fun _ => fetch i (sl (r + 2)) (ch (r + 2)) >>= fun _ =>
                fetched i (sl r) (ch r) >>= fun _ => drain i (sl r) (ch r) >>= fun _ => k) Q) := by
  iintro ⟨#Hmw, Hst⟩ Hk
  ihave Hst' := (stage_open m d i O W r h29) $$ Hst
  icases Hst' with ⟨HO, Hf0, Hf1, ⟨%f, HB⟩, Hvi, Hvo0, Hvo1, ⟨Hx2, Hx⟩, ⟨Hrows, Htodo⟩, Hdone⟩
  -- the copies-out of chunk r − 1 drained
  iapply (drained_spec m d i (sl (r + 2)) (ch (r - 1)) (ch (r - 1)) _ Q f O W) $$ [HB HO]
  · isplitl [HB]; · iexact HB
    isplitl [HO]; · iexact HO
    iexact Hmw
  iintro ⟨Hs, Hrd, Hvo2, HO⟩
  -- chunk r + 2 fetched into the slot they freed
  iapply (fetch_spec m d i (sl (r + 2)) (ch (r + 2)) _ Q f) $$ [Hx2 Hs Hvi]
  · isplitl [Hx2]; · iexact Hx2
    isplitl [Hs]; · iexact Hs
    iexact Hvi
  iintro Hf2
  -- chunk r's fetch taken
  iapply (fetched_spec' m d i (sl r) (ch r) (ch r) _ Q O W) $$ [Hf0 HO]
  · isplitl [Hf0]; · iexact Hf0
    isplitl [HO]; · iexact HO
    iexact Hmw
  iintro ⟨⟨%f', %hH, Hs0⟩, Hx0, Hvi0, HO⟩
  -- and its copies-out started
  iapply (drain_spec m d i (sl r) (ch r) (fun _ => k) Q f' hH) $$ [Hs0 Hrows Hvo0]
  · isplitl [Hs0]; · iexact Hs0
    isplitl [Hrows]; · iexact Hrows
    iexact Hvo0
  iintro HB'
  iapply Hk
  iapply (stage_close m d i O W r h1 h29)
  isplitl [HO]; · iexact HO
  isplitl [Hf1]; · iexact Hf1
  isplitl [Hf2]; · iexact Hf2
  isplitl [HB']; · iexists f'; iexact HB'
  isplitl [Hvi0]; · iexact Hvi0
  isplitl [Hvo1]; · iexact Hvo1
  isplitl [Hvo2]; · iexact Hvo2
  isplitl [Hx0 Hx]
  · isplitl [Hx0]; · iexact Hx0
    iexact Hx
  isplitl [Htodo]; · iexact Htodo
  isplitl [Hrd]; · iexact Hrd
  iexact Hdone

/-- The turns from stage `r` to stage 30. -/
theorem turns (O : CellTallies nD τ sig (HIx 1)) (W : Waits sig (HIx 1)) (n : ℕ) :
    ∀ (r : ℕ), 1 ≤ r → r + n = 30 → ∀ (k : Prog (TpuEff nD τ sig (Elt F) Λ₀ (thr d i).2) PUnit) (Q : PUnit → sProp 𝕄),
      iprop(Transfers.MayWaits (thr d i) (none : HIx 1) O ∗ stage m d i O W r)
        ⊢ iprop((stage m d i O W 30 -∗ wp frame (wpE (defs₀ (F := F)) 𝒱₀ (thr d i) none) Set.univ k Q)
            -∗ wp frame (wpE (defs₀ (F := F)) 𝒱₀ (thr d i) none) Set.univ (steady i n r k) Q) := by
  induction n with
  | zero =>
    intro r _ hr k Q
    obtain rfl : r = 30 := by omega
    iintro ⟨-, H⟩ Hk
    iapply Hk; iexact H
  | succ n ih =>
    intro r h1 hr k Q
    show _ ⊢ iprop(_ -∗ wp _ _ _ (drained i (sl (r + 2)) (ch (r - 1)) >>= fun _ => fetch i (sl (r + 2)) (ch (r + 2)) >>= fun _ =>
      fetched i (sl r) (ch r) >>= fun _ => drain i (sl r) (ch r) >>= fun _ => steady i n (r + 1) k) Q)
    iintro ⟨#Hmw, H⟩ Hk
    iapply (turn m d i O W r h1 (by omega) (steady i n (r + 1) k) Q) $$ [H]
    · isplitr; · iexact Hmw
      iexact H
    iintro H
    iapply (ih (r + 1) (by omega) (by omega) k Q) $$ [H]
    · isplitr; · iexact Hmw
      iexact H
    iexact Hk

/-! ## The whole task -/

theorem univ_x : (Finset.univ : Finset (Fin 32)) = insert (ch 0) (insert (ch 1) (aside 0)) := by decide
theorem univ_x_notMem0 : ch 0 ∉ insert (ch 1) (aside 0) := by decide
theorem univ_x_notMem1 : ch 1 ∉ aside 0 := by decide
theorem univ_todo : (Finset.univ : Finset (Fin 32)) = todo 0 := by decide
theorem done_one : done 1 = ∅ := by decide
theorem todo_30 : todo 30 = insert (ch 30) {ch 31} := by decide
theorem todo_30_notMem : ch 30 ∉ ({ch 31} : Finset (Fin 32)) := by decide
theorem univ_x_end : (Finset.univ : Finset (Fin 32)) = insert (ch 30) (insert (ch 31) (aside 30)) := by decide
theorem univ_x_end_notMem0 : ch 30 ∉ insert (ch 31) (aside 30) := by decide
theorem univ_x_end_notMem1 : ch 31 ∉ aside 30 := by decide
theorem univ_done_end : (Finset.univ : Finset (Fin 32)) = insert (ch 29) (insert (ch 30) (insert (ch 31) (done 30))) := by decide
theorem univ_done_notMem0 : ch 29 ∉ insert (ch 30) (insert (ch 31) (done 30)) := by decide
theorem univ_done_notMem1 : ch 30 ∉ insert (ch 31) (done 30) := by decide
theorem univ_done_notMem2 : ch 31 ∉ done 30 := by decide

/-- The worker's input chunks, the first three apart; its output rows, chunk 0's apart; and at the end the last. -/
theorem x_open : bigSep Finset.univ (xPts m d i) = iprop(xPts m d i (ch 0) ∗ xPts m d i (ch 1) ∗ xPts m d i (ch 2) ∗ bigSep (mid 0) (xPts m d i)) := by
  rw [univ_x, SparseCore.bigSep_insert' univ_x_notMem0, SparseCore.bigSep_insert' univ_x_notMem1, aside_eq 0 (by omega), SparseCore.bigSep_insert' (aside_notMem 0 (by omega))]
theorem rows_open : bigSep Finset.univ (rowsAny (F := F) d i) = iprop(rowsAny (F := F) d i (ch 0) ∗ bigSep (todo 1) (rowsAny (F := F) d i)) := by
  rw [univ_todo, todo_eq 0 (by omega), SparseCore.bigSep_insert' (todo_notMem 0 (by omega))]
theorem x_close : iprop(xPts m d i (ch 30) ∗ xPts m d i (ch 31) ∗ bigSep (aside 30) (xPts m d i)) = bigSep Finset.univ (xPts m d i) := by
  rw [univ_x_end, SparseCore.bigSep_insert' univ_x_end_notMem0, SparseCore.bigSep_insert' univ_x_end_notMem1]
theorem rows_close : iprop(rowsDone m d i (ch 29) ∗ rowsDone m d i (ch 30) ∗ rowsDone m d i (ch 31) ∗ bigSep (done 30) (rowsDone m d i))
    = bigSep Finset.univ (rowsDone m d i) := by
  rw [univ_done_end, SparseCore.bigSep_insert' univ_done_notMem0, SparseCore.bigSep_insert' univ_done_notMem1, SparseCore.bigSep_insert' univ_done_notMem2]

/-- What a worker holds when its task starts: its chunks of the input, its rows of the output at whatever they hold,
    its three slots, its six counters at zero. -/
def tileStart (O : CellTallies nD τ sig (HIx 1)) (W : Waits sig (HIx 1)) : sProp 𝕄 :=
  iprop(owing d i O W
    ∗ bigSep Finset.univ (xPts m d i) ∗ bigSep Finset.univ (rowsAny d i)
    ∗ (∃ f, slotPts d i (sl 0) f) ∗ (∃ f, slotPts d i (sl 1) f) ∗ (∃ f, slotPts d i (sl 2) f)
    ∗ semVal (thr d i, inCell (sl 0)) 0 ∗ semVal (thr d i, inCell (sl 1)) 0 ∗ semVal (thr d i, inCell (sl 2)) 0
    ∗ semVal (thr d i, outCell (sl 0)) 0 ∗ semVal (thr d i, outCell (sl 1)) 0 ∗ semVal (thr d i, outCell (sl 2)) 0)

/-- and when it ends: the same, every row of the output at its target contents. -/
def tileEnd (O : CellTallies nD τ sig (HIx 1)) (W : Waits sig (HIx 1)) : sProp 𝕄 :=
  iprop(owing d i O W
    ∗ bigSep Finset.univ (xPts m d i) ∗ bigSep Finset.univ (rowsDone m d i)
    ∗ (∃ f, slotPts d i (sl 0) f) ∗ (∃ f, slotPts d i (sl 1) f) ∗ (∃ f, slotPts d i (sl 2) f)
    ∗ semVal (thr d i, inCell (sl 0)) 0 ∗ semVal (thr d i, inCell (sl 1)) 0 ∗ semVal (thr d i, inCell (sl 2)) 0
    ∗ semVal (thr d i, outCell (sl 0)) 0 ∗ semVal (thr d i, outCell (sl 1)) 0 ∗ semVal (thr d i, outCell (sl 2)) 0)

theorem stage_one (O : CellTallies nD τ sig (HIx 1)) (W : Waits sig (HIx 1)) :
    iprop(owing d i O W
      ∗ fetching m d i (sl 1) (ch 1) ∗ fetching m d i (sl 2) (ch 2)
      ∗ (∃ f, draining m d i (sl 0) (ch 0) f k0_t1_loop.trips 0)
      ∗ semVal (thr d i, inCell (sl 0)) 0
      ∗ semVal (thr d i, outCell (sl 1)) 0 ∗ semVal (thr d i, outCell (sl 2)) 0
      ∗ (xPts m d i (ch 0) ∗ bigSep (mid 0) (xPts m d i))
      ∗ bigSep (todo 1) (rowsAny d i)) ⊢ stage m d i O W 1 := by
  unfold stage
  rw [aside_succ 0 (by omega), SparseCore.bigSep_insert' (aside_succ_notMem 0 (by omega)), done_one, bigSep_empty]
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iempintro

theorem stage_thirty (O : CellTallies nD τ sig (HIx 1)) (W : Waits sig (HIx 1)) :
    stage m d i O W 30 ⊢ iprop(owing d i O W
      ∗ fetching m d i (sl 30) (ch 30) ∗ fetching m d i (sl 31) (ch 31)
      ∗ (∃ f, draining m d i (sl 29) (ch 29) f k0_t1_loop.trips 0)
      ∗ semVal (thr d i, inCell (sl 29)) 0
      ∗ semVal (thr d i, outCell (sl 30)) 0 ∗ semVal (thr d i, outCell (sl 31)) 0
      ∗ bigSep (aside 30) (xPts m d i)
      ∗ (rowsAny d i (ch 30) ∗ rowsAny d i (ch 31))
      ∗ bigSep (done 30) (rowsDone m d i)) := by
  unfold stage
  rw [todo_30, SparseCore.bigSep_insert' todo_30_notMem, bigSep_singleton]

/-- The task: every chunk fetched, every row copied out, everything back. -/
theorem tile_run (O : CellTallies nD τ sig (HIx 1)) (W : Waits sig (HIx 1)) :
    iprop(Transfers.MayWaits (thr d i) (none : HIx 1) O ∗ tileStart m d i O W)
      ⊢ wp frame (wpE (defs₀ (F := F)) 𝒱₀ (thr d i) none) Set.univ (body (F := F) i) fun _ => tileEnd m d i O W := by
  unfold tileStart body
  rw [x_open, rows_open]
  iintro ⟨#Hmw, HO, ⟨Hx0, Hx1, Hx2, Hx⟩, ⟨Hr0, Htodo⟩, ⟨%f0, Hs0⟩, ⟨%f1, Hs1⟩, ⟨%f2, Hs2⟩, Hi0, Hi1, Hi2, Ho0, Ho1, Ho2⟩
  iapply (fetch_spec m d i (sl 0) (ch 0) _ _ f0) $$ [Hx0 Hs0 Hi0]
  · isplitl [Hx0]; · iexact Hx0
    isplitl [Hs0]; · iexact Hs0
    iexact Hi0
  iintro Hf0
  iapply (fetch_spec m d i (sl 1) (ch 1) _ _ f1) $$ [Hx1 Hs1 Hi1]
  · isplitl [Hx1]; · iexact Hx1
    isplitl [Hs1]; · iexact Hs1
    iexact Hi1
  iintro Hf1
  iapply (fetch_spec m d i (sl 2) (ch 2) _ _ f2) $$ [Hx2 Hs2 Hi2]
  · isplitl [Hx2]; · iexact Hx2
    isplitl [Hs2]; · iexact Hs2
    iexact Hi2
  iintro Hf2
  iapply (fetched_spec' m d i (sl 0) (ch 0) (ch 0) _ _ O W) $$ [Hf0 HO]
  · isplitl [Hf0]; · iexact Hf0
    isplitl [HO]; · iexact HO
    iexact Hmw
  iintro ⟨⟨%g0, %hH0, Hs0⟩, Hx0, Hi0, HO⟩
  iapply (drain_spec m d i (sl 0) (ch 0) _ _ g0 hH0) $$ [Hs0 Hr0 Ho0]
  · isplitl [Hs0]; · iexact Hs0
    isplitl [Hr0]; · iexact Hr0
    iexact Ho0
  iintro HB0
  iapply (turns m d i O W 29 1 (by omega) (by omega) _ _) $$ [HO Hf1 Hf2 HB0 Hi0 Ho1 Ho2 Hx0 Hx Htodo]
  · isplitr; · iexact Hmw
    iapply (stage_one m d i O W)
    isplitl [HO]; · iexact HO
    isplitl [Hf1]; · iexact Hf1
    isplitl [Hf2]; · iexact Hf2
    isplitl [HB0]; · iexists g0; iexact HB0
    isplitl [Hi0]; · iexact Hi0
    isplitl [Ho1]; · iexact Ho1
    isplitl [Ho2]; · iexact Ho2
    isplitl [Hx0 Hx]
    · isplitl [Hx0]; · iexact Hx0
      iexact Hx
    iexact Htodo
  iintro Hst
  ihave Hst' := (stage_thirty m d i O W) $$ Hst
  icases Hst' with ⟨HO, Hf30, Hf31, ⟨%f29, HB29⟩, Hi29, Ho30, Ho31, Hx, ⟨Hr30, Hr31⟩, Hdone⟩
  iapply (fetched_spec' m d i (sl 30) (ch 30) (ch 30) _ _ O W) $$ [Hf30 HO]
  · isplitl [Hf30]; · iexact Hf30
    isplitl [HO]; · iexact HO
    iexact Hmw
  iintro ⟨⟨%g30, %hH30, Hs30⟩, Hx30, Hi30, HO⟩
  iapply (drain_spec m d i (sl 30) (ch 30) _ _ g30 hH30) $$ [Hs30 Hr30 Ho30]
  · isplitl [Hs30]; · iexact Hs30
    isplitl [Hr30]; · iexact Hr30
    iexact Ho30
  iintro HB30
  iapply (fetched_spec' m d i (sl 31) (ch 31) (ch 31) _ _ O W) $$ [Hf31 HO]
  · isplitl [Hf31]; · iexact Hf31
    isplitl [HO]; · iexact HO
    iexact Hmw
  iintro ⟨⟨%g31, %hH31, Hs31⟩, Hx31, Hi31, HO⟩
  iapply (drain_spec m d i (sl 31) (ch 31) _ _ g31 hH31) $$ [Hs31 Hr31 Ho31]
  · isplitl [Hs31]; · iexact Hs31
    isplitl [Hr31]; · iexact Hr31
    iexact Ho31
  iintro HB31
  iapply (drained_spec m d i (sl 29) (ch 29) (ch 29) _ _ f29 O W) $$ [HB29 HO]
  · isplitl [HB29]; · iexact HB29
    isplitl [HO]; · iexact HO
    iexact Hmw
  iintro ⟨Hs29, Hd29, Ho29, HO⟩
  iapply (drained_spec m d i (sl 30) (ch 30) (ch 30) _ _ g30 O W) $$ [HB30 HO]
  · isplitl [HB30]; · iexact HB30
    isplitl [HO]; · iexact HO
    iexact Hmw
  iintro ⟨Hs30, Hd30, Ho30, HO⟩
  iapply (drained_spec m d i (sl 31) (ch 31) (ch 31) _ _ g31 O W) $$ [HB31 HO]
  · isplitl [HB31]; · iexact HB31
    isplitl [HO]; · iexact HO
    iexact Hmw
  iintro ⟨Hs31, Hd31, Ho31, HO⟩
  rw [wp_pure]; imodintro
  unfold tileEnd
  rw [← x_close, ← rows_close]
  isplitl [HO]; · iexact HO
  isplitl [Hx30 Hx31 Hx]
  · isplitl [Hx30]; · iexact Hx30
    isplitl [Hx31]; · iexact Hx31
    iexact Hx
  isplitl [Hd29 Hd30 Hd31 Hdone]
  · isplitl [Hd29]; · iexact Hd29
    isplitl [Hd30]; · iexact Hd30
    isplitl [Hd31]; · iexact Hd31
    iexact Hdone
  isplitl [Hs30]; · iexists _; iexact Hs30
  isplitl [Hs31]; · iexists _; iexact Hs31
  isplitl [Hs29]; · iexists _; iexact Hs29
  isplitl [Hi30]; · iexact Hi30
  isplitl [Hi31]; · iexact Hi31
  isplitl [Hi29]; · iexact Hi29
  isplitl [Ho30]; · iexact Ho30
  isplitl [Ho31]; · iexact Ho31
  iexact Ho29

end Cert.KernelIdeal.Copy

end
-- ==== Proof.LaunchI.lean ====
/-
  From one worker's task to the program.  The launch hands each of the 32 workers its stripe — its 32 chunks of the
  input and its 512 rows of the output — and takes them back with every row written.  The stripes tile both arrays:
  worker w = 2·(subcore) + (core) has batch entry w / 8, rows (w mod 8)·512 …, so the chunks (w, r) are the 1024
  blocks of 16 rows of the input, and the rows (w, r, t) are the 16384 rows of the output, each met exactly once.
-/
import proofs.«214764_g20993800143467_cont_8to1_1661_21_alg».proof.Proof.MovesI

noncomputable section

namespace Cert.KernelIdeal.Copy

open Cert.KernelIdeal Cert.KernelIdeal.Gen Cert.KernelIdeal.Stripe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)
variable [FloatOps F]
variable (d : Dev nD) (i : grid0.Coords)

/-! ## A worker's own storage: three slots, six counters -/

/-- The elements of slot `s` among the ring's. -/
abbrev slotSet (s : Fin 3) : Finset S3x16x2048.Idx := (slotM s).view.set

theorem set_slotM (s : Fin 3) : slotSet s = (Rect.unit (s := S3x16x2048) ![s.val, 0, 0] S1x16x2048.size (slot_inb s)).set := by
  show (((View.whole cc0_scratch0).slice _).reshape S16x2048 _).set = _
  rw [View.set_reshape, View.set_slice_whole]

theorem slots_disjoint : ∀ s ∈ (Finset.univ : Finset (Fin 3)), ∀ s' ∈ (Finset.univ : Finset (Fin 3)), s ≠ s' →
    Disjoint (slotSet s) (slotSet s') := by
  intro s _ s' _ hne
  rw [set_slotM, set_slotM]
  have hv : s.val ≠ s'.val := fun e => hne (Fin.ext e)
  refine Rect.unit_disjoint (0 : Fin 3) ?_
  show s.val + 1 ≤ s'.val ∨ s'.val + 1 ≤ s.val
  omega

theorem slots_cover : (Finset.univ : Finset (Fin 3)).biUnion slotSet = (Finset.univ : Finset S3x16x2048.Idx) := by
  ext x
  simp only [Finset.mem_biUnion, Finset.mem_univ, true_and, iff_true]
  have h0 : (x 0).val < 3 := (x 0).isLt
  have h1 : (x 1).val < 16 := (x 1).isLt
  have h2 : (x 2).val < 2048 := (x 2).isLt
  refine ⟨⟨(x 0).val, h0⟩, ?_⟩
  rw [set_slotM, Rect.mem_set_unit]
  intro a
  match a with
  | ⟨0, _⟩ => exact ⟨Nat.le_refl _, Nat.lt_succ_self _⟩
  | ⟨1, _⟩ => exact ⟨Nat.zero_le _, by show (x 1).val < 0 + 16; omega⟩
  | ⟨2, _⟩ => exact ⟨Nat.zero_le _, by show (x 2).val < 0 + 2048; omega⟩

/-- The worker's ring, whole. -/
abbrev ringPts (f : Buf (Elt F) ((thr d i).loc cc0_scratch0)) : sProp 𝕄 := (thr d i).loc cc0_scratch0 ↦{fullShare} f

theorem ring_slots (f : Buf (Elt F) ((thr d i).loc cc0_scratch0)) :
    ringPts d i f = bigSep Finset.univ fun s : Fin 3 => slotPts d i s f := by
  unfold ringPts
  rw [← pointsTo_biUnion Finset.univ (ℓ := (thr d i).loc cc0_scratch0) slotSet slots_disjoint, slots_cover]; try rfl

theorem slots_ring : (bigSep Finset.univ fun s : Fin 3 => iprop(∃ f, slotPts d i s f)) ⊢ (iprop(∃ f, ringPts d i f) : sProp 𝕄) := by
  refine (bigSep_exists_pi Finset.univ (fun s (f : Buf (Elt F) ((thr d i).loc cc0_scratch0)) => slotPts d i s f)).trans ?_
  iintro ⟨%fs, H⟩
  ihave H' := (pointsTo_biUnion_join Finset.univ slotSet fs (fs 0) slots_disjoint) $$ H
  icases H' with ⟨%g, -, Hg⟩
  rw [slots_cover]
  iexists g; iexact Hg

theorem three (Φ : Fin 3 → sProp 𝕄) : bigSep Finset.univ Φ = iprop(Φ (sl 0) ∗ Φ (sl 1) ∗ Φ (sl 2)) := by
  rw [show (Finset.univ : Finset (Fin 3)) = insert (sl 0) (insert (sl 1) {sl 2}) by decide,
    SparseCore.bigSep_insert' (by decide), SparseCore.bigSep_insert' (by decide), bigSep_singleton]

/-! ## The six counters and the ring among the worker's own -/

abbrev cell (a : SemLoc sig) : GSem nD τ sig := (thr d i, a)

theorem cell_ne {a b : SemLoc sig} (h : a ≠ b) : cell d i a ≠ cell d i b := fun e => h (Prod.mk.inj e).2
theorem cell_mem {a : SemLoc sig} (h : a.isScoped .scVector = true) : cell d i a ∈ ownCells (thr d i) :=
  mem_ownCells.mpr ⟨rfl, h⟩

abbrev er (S : Finset (GSem nD τ sig)) (a : SemLoc sig) : Finset (GSem nD τ sig) := S.erase (cell d i a)

theorem ownSems0_six :
    (ownSems0 (thr d i) : sProp 𝕄)
      = iprop(semVal (thr d i, inCell (sl 0)) 0 ∗ semVal (thr d i, inCell (sl 1)) 0 ∗ semVal (thr d i, inCell (sl 2)) 0
          ∗ semVal (thr d i, outCell (sl 0)) 0 ∗ semVal (thr d i, outCell (sl 1)) 0 ∗ semVal (thr d i, outCell (sl 2)) 0
          ∗ bigSep (er d i (er d i (er d i (er d i (er d i (er d i (ownCells (thr d i)) (inCell (sl 0))) (inCell (sl 1))) (inCell (sl 2)))
              (outCell (sl 0))) (outCell (sl 1))) (outCell (sl 2))) fun g => semVal g 0) := by
  unfold SparseCore.Cfg.ownSems0
  rw [SparseCore.bigSep_erase' (cell_mem d i (a := inCell (sl 0)) (by decide)),
    SparseCore.bigSep_erase' (Finset.mem_erase.mpr ⟨cell_ne d i (a := inCell (sl 1)) (b := inCell (sl 0)) (by decide), cell_mem d i (a := inCell (sl 1)) (by decide)⟩),
    SparseCore.bigSep_erase' (Finset.mem_erase.mpr ⟨cell_ne d i (a := inCell (sl 2)) (b := inCell (sl 1)) (by decide),
      Finset.mem_erase.mpr ⟨cell_ne d i (a := inCell (sl 2)) (b := inCell (sl 0)) (by decide), cell_mem d i (a := inCell (sl 2)) (by decide)⟩⟩),
    SparseCore.bigSep_erase' (Finset.mem_erase.mpr ⟨cell_ne d i (a := outCell (sl 0)) (b := inCell (sl 2)) (by decide),
      Finset.mem_erase.mpr ⟨cell_ne d i (a := outCell (sl 0)) (b := inCell (sl 1)) (by decide),
      Finset.mem_erase.mpr ⟨cell_ne d i (a := outCell (sl 0)) (b := inCell (sl 0)) (by decide), cell_mem d i (a := outCell (sl 0)) (by decide)⟩⟩⟩),
    SparseCore.bigSep_erase' (Finset.mem_erase.mpr ⟨cell_ne d i (a := outCell (sl 1)) (b := outCell (sl 0)) (by decide),
      Finset.mem_erase.mpr ⟨cell_ne d i (a := outCell (sl 1)) (b := inCell (sl 2)) (by decide),
      Finset.mem_erase.mpr ⟨cell_ne d i (a := outCell (sl 1)) (b := inCell (sl 1)) (by decide),
      Finset.mem_erase.mpr ⟨cell_ne d i (a := outCell (sl 1)) (b := inCell (sl 0)) (by decide), cell_mem d i (a := outCell (sl 1)) (by decide)⟩⟩⟩⟩),
    SparseCore.bigSep_erase' (Finset.mem_erase.mpr ⟨cell_ne d i (a := outCell (sl 2)) (b := outCell (sl 1)) (by decide),
      Finset.mem_erase.mpr ⟨cell_ne d i (a := outCell (sl 2)) (b := outCell (sl 0)) (by decide),
      Finset.mem_erase.mpr ⟨cell_ne d i (a := outCell (sl 2)) (b := inCell (sl 2)) (by decide),
      Finset.mem_erase.mpr ⟨cell_ne d i (a := outCell (sl 2)) (b := inCell (sl 1)) (by decide),
      Finset.mem_erase.mpr ⟨cell_ne d i (a := outCell (sl 2)) (b := inCell (sl 0)) (by decide), cell_mem d i (a := outCell (sl 2)) (by decide)⟩⟩⟩⟩⟩)]

/-- The ring is among the subcore's own buffers: it, at some contents, and the rest. -/
theorem ownBufs_ring :
    (ownBufs (thr d i) : sProp 𝕄)
      = iprop((∃ f, ringPts d i f)
          ∗ bigSep ((ownRefs (τ := τ) (thr d i).2).erase ((thr d i).2.devRef cc0_scratch0))
              fun b => iprop(∃ f, (((thr d i).1, b) : Loc nD τ sig) ↦{fullShare} f)) := by
  unfold SparseCore.Cfg.ownBufs
  exact SparseCore.bigSep_erase' (SparseCore.Cfg.mem_ownRefs_of_owner (p := (thr d i).2) (b := (thr d i).2.devRef cc0_scratch0) rfl)

/-! ## The task, as the launch theorem asks for it -/

/-- What a worker is handed: its chunks of the input, its rows of the output as the launch left them. -/
def tileIn : sProp 𝕄 :=
  iprop(bigSep Finset.univ (xPts m d i) ∗ bigSep Finset.univ fun q : Fin 32 => bigSep Finset.univ fun t : Row => oPts d i q t (m (oLoc d)))
/-- What it hands back: the same, every row written. -/
def tileOut : sProp 𝕄 := iprop(bigSep Finset.univ (xPts m d i) ∗ bigSep Finset.univ (rowsDone m d i))

theorem row_weaken (q : Fin 32) (t : Row) : oPts d i q t (m (oLoc d)) ⊢ (iprop(∃ g, oPts d i q t g) : sProp 𝕄) := by
  iintro H; iexists _; iexact H
theorem rows_weaken (q : Fin 32) : (bigSep Finset.univ fun t : Row => oPts d i q t (m (oLoc d))) ⊢ (rowsAny d i q : sProp 𝕄) :=
  SparseCore.ent (bigSep_mono fun t _ => row_weaken m d i q t)
theorem stripe_weaken : (bigSep Finset.univ fun q : Fin 32 => bigSep Finset.univ fun t : Row => oPts d i q t (m (oLoc d)))
    ⊢ (bigSep Finset.univ (rowsAny d i) : sProp 𝕄) :=
  SparseCore.ent (bigSep_mono fun q _ => rows_weaken m d i q)

theorem tile_body (hF : (K (F := F)).Facts) (O : CellTallies nD τ sig (HIx 1)) (W : Waits sig (HIx 1)) (hO : ∀ g, O g none = 0) :
    iprop(levAts (K (F := F)).L (K (F := F)).lev ∗ emp ∗ tileIn m d i ∗ scopedBufs (thr d i) ∗ scopedSems0 (thr d i) ∗ owes (thr d i) O W)
      ⊢ wp frame (wpE (defs₀ (F := F)) 𝒱₀ (thr d i) none) Set.univ
          (cc0__sc_copy (F := F) i xV (Memref.isWhole_whole _) oV (Memref.isWhole_whole _) sB (Memref.isWhole_whole _) cc0_scratch1 cc0_scratch2)
          fun _ => iprop(tileOut m d i ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d _ _, SparseCore.Cfg.scopedSems0_V (Val := Elt F) d _ _, ownSems0_six, ownBufs_ring]
  unfold tileIn
  iintro ⟨#Hlv, -, ⟨Hx, Ho⟩, ⟨⟨%fr, Hring⟩, Hbufs⟩, ⟨Hi0, Hi1, Hi2, Ho0, Ho1, Ho2, Hsems⟩, HO⟩
  ihave Hmw := ((K (F := F)).mayWaits_none (thr := thr d i) hO) $$ Hlv
  ihave Hsl := (Entails.of_eq ((ring_slots d i fr).trans (three (fun s => slotPts d i s fr)))) $$ Hring
  icases Hsl with ⟨Hs0, Hs1, Hs2⟩
  iapply (wp_wand_r frame (wpE (defs₀ (F := F)) 𝒱₀ (thr d i) none) Set.univ)
  isplitl [Hx Ho Hs0 Hs1 Hs2 Hi0 Hi1 Hi2 Ho0 Ho1 Ho2 HO]
  · iapply (tile_run m d i O W)
    isplitr; · iexact Hmw
    unfold tileStart
    isplitl [HO]
    · iexists W; isplitr
      · ipureintro; exact fun p hp => .inl hp
      · iexact HO
    isplitl [Hx]; · iexact Hx
    isplitl [Ho]
    · iapply (stripe_weaken m d i); iexact Ho
    isplitl [Hs0]; · iexists _; iexact Hs0
    isplitl [Hs1]; · iexists _; iexact Hs1
    isplitl [Hs2]; · iexists _; iexact Hs2
    isplitl [Hi0]; · iexact Hi0
    isplitl [Hi1]; · iexact Hi1
    isplitl [Hi2]; · iexact Hi2
    isplitl [Ho0]; · iexact Ho0
    isplitl [Ho1]; · iexact Ho1
    iexact Ho2
  iintro %_ Hend
  unfold tileEnd tileOut
  icases Hend with ⟨HO, Hx, Hrows, Hs0, Hs1, Hs2, Hi0, Hi1, Hi2, Ho0, Ho1, Ho2⟩
  isplitl [Hx Hrows]
  · isplitl [Hx]; · iexact Hx
    iexact Hrows
  isplitl [Hs0 Hs1 Hs2 Hbufs]
  · isplitl [Hs0 Hs1 Hs2]
    · iapply (slots_ring d i)
      iapply (Entails.of_eq (three (fun s => iprop(∃ f, slotPts d i s f))).symm)
      isplitl [Hs0]; · iexact Hs0
      isplitl [Hs1]; · iexact Hs1
      iexact Hs2
    · iexact Hbufs
  isplitl [Hi0 Hi1 Hi2 Ho0 Ho1 Ho2 Hsems]
  · isplitl [Hi0]; · iexact Hi0
    isplitl [Hi1]; · iexact Hi1
    isplitl [Hi2]; · iexact Hi2
    isplitl [Ho0]; · iexact Ho0
    isplitl [Ho1]; · iexact Ho1
    isplitl [Ho2]; · iexact Ho2
    iexact Hsems
  iexact HO

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_copy (coordsV c s)
          xV (Memref.isWhole_whole _) oV (Memref.isWhole_whole _) sB (Memref.isWhole_whole _) cc0_scratch1 cc0_scratch2) ⟨⟩ c s := rfl

/-- The coordinates of the worker on SparseCore `c`, vector subcore `s`. -/
abbrev coordsT (c : Fin τ.nSC) (s : Fin τ.nSub) : grid0.Coords := coordsV ⟨c.val, c.isLt⟩ ⟨s.val, s.isLt⟩

/-- The coordinates of the worker the call numbers (c, s). -/
abbrev cv (c : Fin ((K (F := F)).nCore 0)) (s : Fin ((K (F := F)).nSub 0)) : grid0.Coords :=
  coordsT ((K (F := F)).core 0 c) ((K (F := F)).sub 0 s)

/-- The one call hands each SparseCore its sixteen workers' stripes, each worker its own, and takes them back written. -/
def P : (K (F := F)).Pay (nD := nD) (Val := Elt F) (Name := ℕ) (U := UU) where
  st := fun q d c => bigSep Finset.univ fun s : Fin ((K (F := F)).nSub q) => tileIn m d (coordsT ((K (F := F)).core q c) ((K (F := F)).sub q s))
  dn := fun q d c => bigSep Finset.univ fun s : Fin ((K (F := F)).nSub q) => tileOut m d (coordsT ((K (F := F)).core q c) ((K (F := F)).sub q s))
  go := fun q d c s => tileIn m d (coordsT ((K (F := F)).core q c) ((K (F := F)).sub q s))
  td := fun q d c s => tileOut m d (coordsT ((K (F := F)).core q c) ((K (F := F)).sub q s))
  x := fun _ _ => iprop(emp)

instance P_storable : (P (F := F) m).IsStorable where
  st q d c := by unfold P tileIn; infer_instance
  dn q d c := by unfold P tileOut; infer_instance
  go q d c s := by unfold P tileIn; infer_instance
  td q d c s := by unfold P tileOut; infer_instance

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show (bigSep Finset.univ fun s : Fin ((K (F := F)).nSub 0) => (P m).go 0 d c s) ⊢ |={Set.univ}=> iprop(
      (bigSep Finset.univ fun s : Fin ((K (F := F)).nSub 0) => (P m).go 0 d c s)
      ∗ ((bigSep Finset.univ fun s : Fin ((K (F := F)).nSub 0) => (P m).td 0 d c s)
          -∗ bigSep Finset.univ fun s : Fin ((K (F := F)).nSub 0) => (P m).td 0 d c s))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The stripes tile the two arrays -/

omit [FloatOps F] in
theorem wid_cv (c : Fin ((K (F := F)).nCore 0)) (s : Fin ((K (F := F)).nSub 0)) : wid (cv (F := F) c s) = 2 * s.val + c.val := rfl

theorem set_xChunk (i : grid0.Coords) (r : Fin 32) :
    ((xChunk i r).view.set : Finset S4x4096x2048.Idx)
      = (Rect.unit (s := S4x4096x2048) (k0_off1 i (BitVec.ofNat 32 (16 * r.val))) S1x16x2048.size (k0_off1_inb i r)).set := by
  show (((View.whole main_arg0_scv).slice _).reshape S16x2048 _).set = _
  rw [View.set_reshape, View.set_slice_whole]
theorem set_oRow (i : grid0.Coords) (r : Fin 32) (t : Row) :
    ((oRow i r t).view.set : Finset S4x8388608.Idx)
      = (Rect.unit (s := S4x8388608) (offO i (BitVec.ofNat 32 (32768 * r.val)) t.val) S1x2048.size (offO_inb i r t)).set := by
  show (((View.whole main_v0_scv).slice _).reshape S2048 _).set = _
  rw [View.set_reshape, View.set_slice_whole]
theorem row_lt (t : Row) : t.val < 16 := lt_of_lt_of_eq t.isLt trips16

/-- The elements of chunk `r` of worker `i`: batch entry w / 8, sixteen rows from (w mod 8)·512 + 16·r. -/
theorem mem_xSet (i : grid0.Coords) (r : Fin 32) (x : S4x4096x2048.Idx) :
    x ∈ ((xChunk i r).view.set : Finset S4x4096x2048.Idx)
      ↔ (x 0).val = wid i / 8 ∧ wid i % 8 * 512 + 16 * r.val ≤ (x 1).val ∧ (x 1).val < wid i % 8 * 512 + 16 * r.val + 16 := by
  rw [set_xChunk, Rect.mem_set_unit, off1_closed]
  constructor
  · intro h
    have h0 : wid i / 8 ≤ (x 0).val ∧ (x 0).val < wid i / 8 + 1 := h 0
    have h1 : wid i % 8 * 512 + 16 * r.val ≤ (x 1).val ∧ (x 1).val < wid i % 8 * 512 + 16 * r.val + 16 := h 1
    omega
  · rintro ⟨e0, l1, u1⟩ a
    match a with
    | ⟨0, _⟩ => show wid i / 8 ≤ (x 0).val ∧ (x 0).val < wid i / 8 + 1; omega
    | ⟨1, _⟩ => exact ⟨l1, u1⟩
    | ⟨2, _⟩ => exact ⟨Nat.zero_le _, by have h2 : (x 2).val < 2048 := (x 2).isLt; show (x 2).val < 0 + 2048; omega⟩

/-- The elements of row `t` of chunk `r` of worker `i` in the flat output: 2048 elements from ((w mod 8)·512 + 16·r + t)·2048. -/
theorem mem_oSet (i : grid0.Coords) (r : Fin 32) (t : Row) (y : S4x8388608.Idx) :
    y ∈ ((oRow i r t).view.set : Finset S4x8388608.Idx)
      ↔ (y 0).val = wid i / 8 ∧ (wid i % 8 * 512 + 16 * r.val + t.val) * 2048 ≤ (y 1).val
          ∧ (y 1).val < (wid i % 8 * 512 + 16 * r.val + t.val) * 2048 + 2048 := by
  have ht : t.val < 16 := row_lt t
  rw [set_oRow, Rect.mem_set_unit, offO_closed i r t.val ht]
  constructor
  · intro h
    have h0 : wid i / 8 ≤ (y 0).val ∧ (y 0).val < wid i / 8 + 1 := h 0
    have h1 : (wid i % 8 * 512 + 16 * r.val + t.val) * 2048 ≤ (y 1).val ∧ (y 1).val < (wid i % 8 * 512 + 16 * r.val + t.val) * 2048 + 2048 := h 1
    omega
  · rintro ⟨e0, l1, u1⟩ a
    match a with
    | ⟨0, _⟩ => show wid i / 8 ≤ (y 0).val ∧ (y 0).val < wid i / 8 + 1; omega
    | ⟨1, _⟩ => exact ⟨l1, u1⟩

abbrev XJ : Type := Fin ((K (F := F)).nCore 0) × Fin ((K (F := F)).nSub 0) × Fin 32
abbrev OJ : Type := Fin ((K (F := F)).nCore 0) × Fin ((K (F := F)).nSub 0) × Fin 32 × Row

abbrev xSet (j : XJ (F := F)) : Finset S4x4096x2048.Idx := (xChunk (cv (F := F) j.1 j.2.1) j.2.2).view.set
abbrev oSet (j : OJ (F := F)) : Finset S4x8388608.Idx := (oRow (cv (F := F) j.1 j.2.1) j.2.2.1 j.2.2.2).view.set

omit [FloatOps F] in
theorem xSet_disjoint : ∀ j ∈ (Finset.univ : Finset (XJ (F := F))), ∀ j' ∈ (Finset.univ : Finset (XJ (F := F))), j ≠ j' → Disjoint (xSet j) (xSet j') := by
  rintro ⟨c, s, r⟩ - ⟨c', s', r'⟩ - hne
  refine Finset.disjoint_left.mpr fun x hx hx' => hne ?_
  have h1 := (mem_xSet (cv (F := F) c s) r x).mp hx
  have h2 := (mem_xSet (cv (F := F) c' s') r' x).mp hx'
  rw [wid_cv] at h1 h2
  have hc : c.val < 2 := c.isLt
  have hc' : c'.val < 2 := c'.isLt
  have hs : s.val < 16 := s.isLt
  have hs' : s'.val < 16 := s'.isLt
  have hr : r.val < 32 := r.isLt
  have hr' : r'.val < 32 := r'.isLt
  have ec : c.val = c'.val := by omega
  have es : s.val = s'.val := by omega
  have er : r.val = r'.val := by omega
  exact Prod.ext (Fin.ext ec) (Prod.ext (Fin.ext es) (Fin.ext er))

omit [FloatOps F] in
theorem xSet_cover : (Finset.univ : Finset (XJ (F := F))).biUnion xSet = (Finset.univ : Finset S4x4096x2048.Idx) := by
  ext x
  simp only [Finset.mem_biUnion, Finset.mem_univ, true_and, iff_true]
  have h0 : (x 0).val < 4 := (x 0).isLt
  have h1 : (x 1).val < 4096 := (x 1).isLt
  refine ⟨(⟨(8 * (x 0).val + (x 1).val / 512) % 2, Nat.mod_lt _ (by decide)⟩, ⟨(8 * (x 0).val + (x 1).val / 512) / 2, by show _ < 16; omega⟩,
    ⟨(x 1).val % 512 / 16, by omega⟩), ?_⟩
  refine (mem_xSet _ _ x).mpr ?_
  show (x 0).val = (2 * ((8 * (x 0).val + (x 1).val / 512) / 2) + (8 * (x 0).val + (x 1).val / 512) % 2) / 8
    ∧ (2 * ((8 * (x 0).val + (x 1).val / 512) / 2) + (8 * (x 0).val + (x 1).val / 512) % 2) % 8 * 512 + 16 * ((x 1).val % 512 / 16) ≤ (x 1).val
    ∧ (x 1).val < (2 * ((8 * (x 0).val + (x 1).val / 512) / 2) + (8 * (x 0).val + (x 1).val / 512) % 2) % 8 * 512 + 16 * ((x 1).val % 512 / 16) + 16
  omega

omit [FloatOps F] in
theorem oSet_disjoint : ∀ j ∈ (Finset.univ : Finset (OJ (F := F))), ∀ j' ∈ (Finset.univ : Finset (OJ (F := F))), j ≠ j' → Disjoint (oSet j) (oSet j') := by
  rintro ⟨c, s, r, t⟩ - ⟨c', s', r', t'⟩ - hne
  refine Finset.disjoint_left.mpr fun y hy hy' => hne ?_
  have h1 := (mem_oSet (cv (F := F) c s) r t y).mp hy
  have h2 := (mem_oSet (cv (F := F) c' s') r' t' y).mp hy'
  rw [wid_cv] at h1 h2
  have hc : c.val < 2 := c.isLt
  have hc' : c'.val < 2 := c'.isLt
  have hs : s.val < 16 := s.isLt
  have hs' : s'.val < 16 := s'.isLt
  have hr : r.val < 32 := r.isLt
  have hr' : r'.val < 32 := r'.isLt
  have ht : t.val < 16 := row_lt t
  have ht' : t'.val < 16 := row_lt t'
  have ec : c.val = c'.val := by omega
  have es : s.val = s'.val := by omega
  have er : r.val = r'.val := by omega
  have et : t.val = t'.val := by omega
  exact Prod.ext (Fin.ext ec) (Prod.ext (Fin.ext es) (Prod.ext (Fin.ext er) (Fin.ext et)))

omit [FloatOps F] in
theorem oSet_cover : (Finset.univ : Finset (OJ (F := F))).biUnion oSet = (Finset.univ : Finset S4x8388608.Idx) := by
  ext y
  simp only [Finset.mem_biUnion, Finset.mem_univ, true_and, iff_true]
  have h0 : (y 0).val < 4 := (y 0).isLt
  have h1 : (y 1).val < 8388608 := (y 1).isLt
  refine ⟨(⟨(8 * (y 0).val + (y 1).val / 2048 / 512) % 2, Nat.mod_lt _ (by decide)⟩,
    ⟨(8 * (y 0).val + (y 1).val / 2048 / 512) / 2, by show _ < 16; omega⟩,
    ⟨(y 1).val / 2048 % 512 / 16, by omega⟩, ⟨(y 1).val / 2048 % 16, lt_of_lt_of_eq (Nat.mod_lt _ (by decide)) trips16.symm⟩), ?_⟩
  refine (mem_oSet _ _ _ y).mpr ?_
  show (y 0).val = (2 * ((8 * (y 0).val + (y 1).val / 2048 / 512) / 2) + (8 * (y 0).val + (y 1).val / 2048 / 512) % 2) / 8
    ∧ ((2 * ((8 * (y 0).val + (y 1).val / 2048 / 512) / 2) + (8 * (y 0).val + (y 1).val / 2048 / 512) % 2) % 8 * 512
        + 16 * ((y 1).val / 2048 % 512 / 16) + (y 1).val / 2048 % 16) * 2048 ≤ (y 1).val
    ∧ (y 1).val < ((2 * ((8 * (y 0).val + (y 1).val / 2048 / 512) / 2) + (8 * (y 0).val + (y 1).val / 2048 / 512) % 2) % 8 * 512
        + 16 * ((y 1).val / 2048 % 512 / 16) + (y 1).val / 2048 % 16) * 2048 + 2048
  omega

/-- The input whole is the 1024 chunks; -/
theorem x_tiles (d : Dev nD) :
    (xLoc d ↦{fullShare} m (xLoc d) : sProp 𝕄)
      = bigSep Finset.univ fun c : Fin ((K (F := F)).nCore 0) => bigSep Finset.univ fun s : Fin ((K (F := F)).nSub 0) =>
          bigSep Finset.univ fun r : Fin 32 => xPts m d (cv c s) r := by
  have e1 : (xLoc d ↦{fullShare} m (xLoc d) : sProp 𝕄) = bigSep Finset.univ fun j : XJ (F := F) => xLoc d ↦[xSet j]{fullShare} m (xLoc d) := by
    rw [← pointsTo_biUnion Finset.univ (ℓ := xLoc d) xSet xSet_disjoint, xSet_cover]; try rfl
  refine e1.trans ?_
  rw [bigSep_univ_prod]
  refine bigSep_congr fun c _ => ?_
  rw [bigSep_univ_prod]

/-- the flat output whole, at any contents, the 16384 rows. -/
theorem o_tiles (d : Dev nD) (f : Buf (Elt F) (oLoc d)) :
    (oLoc d ↦{fullShare} f : sProp 𝕄)
      = bigSep Finset.univ fun c : Fin ((K (F := F)).nCore 0) => bigSep Finset.univ fun s : Fin ((K (F := F)).nSub 0) =>
          bigSep Finset.univ fun q : Fin 32 => bigSep Finset.univ fun t : Row => oPts d (cv c s) q t f := by
  have e1 : (oLoc d ↦{fullShare} f : sProp 𝕄) = bigSep Finset.univ fun j : OJ (F := F) => oLoc d ↦[oSet j]{fullShare} f := by
    rw [← pointsTo_biUnion Finset.univ (ℓ := oLoc d) oSet oSet_disjoint, oSet_cover]; try rfl
  refine e1.trans ?_
  rw [bigSep_univ_prod]
  refine bigSep_congr fun c _ => ?_
  rw [bigSep_univ_prod]
  refine bigSep_congr fun s _ => ?_
  rw [bigSep_univ_prod]

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)) := by
  unfold unscopedBufs
  rw [show (Finset.univ.filter fun b : Ref sig .tc => ¬ b.isScoped) = {main_arg0, main_v0} by decide,
    SparseCore.bigSep_insert' (by decide), bigSep_singleton]

theorem st_c (d : Dev nD) (c : Fin ((K (F := F)).nCore 0)) :
    (P m).st 0 d c = bigSep Finset.univ fun s : Fin ((K (F := F)).nSub 0) => tileIn m d (cv c s) := by
  simp only [P]
theorem dn_c (d : Dev nD) (c : Fin ((K (F := F)).nCore 0)) :
    (P m).dn 0 d c = bigSep Finset.univ fun s : Fin ((K (F := F)).nSub 0) => tileOut m d (cv c s) := by
  simp only [P]

/-- What the call takes for the two SparseCores is the two arrays whole; -/
theorem st0_eq (d : Dev nD) :
    (bigSep Finset.univ fun c : Fin ((K (F := F)).nCore 0) => (P m).st 0 d c)
      = iprop((xLoc d ↦{fullShare} m (xLoc d)) ∗ (oLoc d ↦{fullShare} m (oLoc d))) := by
  refine (bigSep_congr fun c _ => st_c m d c).trans ?_
  unfold tileIn
  have e2 : ∀ c : Fin ((K (F := F)).nCore 0),
      (bigSep Finset.univ fun s : Fin ((K (F := F)).nSub 0) => iprop(bigSep Finset.univ (xPts m d (cv c s))
        ∗ bigSep Finset.univ fun q : Fin 32 => bigSep Finset.univ fun t : Row => oPts d (cv c s) q t (m (oLoc d))))
      = iprop((bigSep Finset.univ fun s : Fin ((K (F := F)).nSub 0) => bigSep Finset.univ (xPts m d (cv c s)))
          ∗ bigSep Finset.univ fun s : Fin ((K (F := F)).nSub 0) => bigSep Finset.univ fun q : Fin 32 => bigSep Finset.univ fun t : Row =>
              oPts d (cv c s) q t (m (oLoc d))) := fun c => bigSep_sep' _ _ _
  refine (bigSep_congr fun c _ => e2 c).trans ?_
  refine (bigSep_sep' _ _ _).trans ?_
  exact congrArg₂ (fun a b : sProp 𝕄 => iprop(a ∗ b)) (x_tiles m d).symm (o_tiles d (m (oLoc d))).symm

/-- and what it hands back, the input as it was and the output at its target contents. -/
theorem dn0_eq (d : Dev nD) :
    (bigSep Finset.univ fun c : Fin ((K (F := F)).nCore 0) => (P m).dn 0 d c)
      = iprop((xLoc d ↦{fullShare} m (xLoc d)) ∗ (oLoc d ↦{fullShare} target m d)) := by
  refine (bigSep_congr fun c _ => dn_c m d c).trans ?_
  unfold tileOut
  have e2 : ∀ c : Fin ((K (F := F)).nCore 0),
      (bigSep Finset.univ fun s : Fin ((K (F := F)).nSub 0) => iprop(bigSep Finset.univ (xPts m d (cv c s))
        ∗ bigSep Finset.univ (rowsDone m d (cv c s))))
      = iprop((bigSep Finset.univ fun s : Fin ((K (F := F)).nSub 0) => bigSep Finset.univ (xPts m d (cv c s)))
          ∗ bigSep Finset.univ fun s : Fin ((K (F := F)).nSub 0) => bigSep Finset.univ (rowsDone m d (cv c s))) := fun c => bigSep_sep' _ _ _
  refine (bigSep_congr fun c _ => e2 c).trans ?_
  refine (bigSep_sep' _ _ _).trans ?_
  exact congrArg₂ (fun a b : sProp 𝕄 => iprop(a ∗ b)) (x_tiles m d).symm (o_tiles d (target m d)).symm

/-- What @main leaves the claim: the input unchanged, the output the input's rows end to end. -/
abbrev FIN (d : Dev nD) : sProp 𝕄 := iprop((xLoc d ↦{fullShare} m (xLoc d)) ∗ (oLoc d ↦{fullShare} target m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  iexact Ho

def fq (d : Dev nD) (s' : Phys nD τ sig (Elt F)) : Prop := s'.mem.mem (xLoc d) = m (xLoc d) ∧ s'.mem.mem (oLoc d) = target m d

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := target m d)) $$ [HSI Ho]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (xLoc c) = m (xLoc c) ∧ r.2.mem (oLoc c) = target m c

/-- Every weakly fair execution of the 35 threads ends, nothing faulting, the input unchanged and the output the
    input's rows end to end. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdeal.Copy

end
-- ==== Proof.lean ====
/-
  The claim: a SparseCore kernel that copies a [4, 4096, 2048] array into a [4, 8388608] array, 32 workers each
  streaming 512 rows through a ring of three 16-row slots, against `jnp.reshape`.  Both leave the output's element
  (b, e) at the input's element (b, e / 2048, e mod 2048): the kernel because each of its 16384 row copies puts row ρ
  of a batch entry at elements ρ·2048 … of that entry's flat row, the reference because a row-major reshape does.  No
  arithmetic is done on the data, so nothing is asked of the inputs.  The frames are the same runs with the values
  dropped; the idealization rewrote nothing, so the kernel and its idealization are one text read at two instances.
-/
import proofs.«214764_g20993800143467_cont_8to1_1661_21_alg».proof.Defs
import proofs.«214764_g20993800143467_cont_8to1_1661_21_alg».proof.Proof.Gen.Kernel
import proofs.«214764_g20993800143467_cont_8to1_1661_21_alg».proof.Proof.Gen.Kernel.Skeleton
import proofs.«214764_g20993800143467_cont_8to1_1661_21_alg».proof.Proof.Gen.KernelIdeal
import proofs.«214764_g20993800143467_cont_8to1_1661_21_alg».proof.Proof.Gen.KernelIdeal.Skeleton
import proofs.«214764_g20993800143467_cont_8to1_1661_21_alg».proof.Proof.Gen.ReferenceIdeal
import proofs.«214764_g20993800143467_cont_8to1_1661_21_alg».proof.Proof.Gen.Pre_finite_inputs
import proofs.«214764_g20993800143467_cont_8to1_1661_21_alg».proof.Proof.Gen.ReferenceIdeal.Run
import proofs.«214764_g20993800143467_cont_8to1_1661_21_alg».proof.Proof.Gen.ReferenceIdeal.Read
import proofs.«214764_g20993800143467_cont_8to1_1661_21_alg».proof.Proof.Launch
import proofs.«214764_g20993800143467_cont_8to1_1661_21_alg».proof.Proof.LaunchI
import Idealize.ShloMosaic.Adequacy
import Idealize.ShloMosaic.Init

noncomputable section

namespace Cert.Proof

open Idealize.ShloMosaic Idealize.SL.Sem

/-- The kernel at the word level: it runs to the end and leaves its input alone. -/
theorem frame_k : Cert.frame_Kernel := fun m ρ _ =>
  (θ_run Cert.Kernel.defs _ _).mono (fun _ h c => (h c).1) (Cert.Kernel.Copy.run_main (F := Bits) m ρ)

/-- The same of its idealization. -/
theorem frame_ki : Cert.frame_KernelIdeal := fun m ρ _ =>
  (θ_run Cert.KernelIdeal.defs _ _).mono (fun _ h c => (h c).1) (Cert.KernelIdeal.Copy.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's reshape, read at an index, is the same function of the input: with e < 8388608,
    (b·8388608 + e) / 8388608 = b, (b·8388608 + e) / 2048 mod 4096 = e / 2048 and (b·8388608 + e) mod 2048 = e mod 2048. -/
theorem ref_reshaped (x0 : (⟨Cert.ReferenceIdeal.S4x4096x2048, .f32⟩ : BufTy).Contents (Elt Ideal)) :
    Cert.ReferenceIdeal.Read.val_main_v0 (F := Ideal) x0 = Cert.KernelIdeal.Copy.reshaped x0 := by
  funext i
  rw [Cert.ReferenceIdeal.Read.val_main_v0_apply]
  unfold Cert.KernelIdeal.Copy.reshaped
  congr 1
  funext a; apply Fin.ext
  have h0 : (i 0).val < 4 := (i 0).isLt
  have h1 : (i 1).val < 8388608 := (i 1).isLt
  match a with
  | ⟨0, _⟩ => show ((i 0).val * 8388608 + (i 1).val) / 8388608 = (i 0).val; omega
  | ⟨1, _⟩ => show ((i 0).val * 8388608 + (i 1).val) / 2048 % 4096 = (i 1).val / 2048; omega
  | ⟨2, _⟩ => show ((i 0).val * 8388608 + (i 1).val) % 2048 = (i 1).val % 2048; omega

/-- At the ideal instance both programs end with the output the input's rows end to end. -/
theorem algebraic : Cert.algebraic_KernelIdeal_ReferenceIdeal := by
  intro m ρ m' ρ' _ hagree
  refine ⟨fun c => Cert.KernelIdeal.Copy.target m c, ?_, ?_⟩
  · exact (θ_run Cert.KernelIdeal.defs _ _).mono (fun _ h c => ⟨(h c).2, (h c).1⟩) (Cert.KernelIdeal.Copy.run_main (F := Ideal) m ρ)
  · refine (θ_run Cert.ReferenceIdeal.defs _ _).mono (fun _ h c => ⟨(h c).1.trans ?_, (h c).2⟩)
      (Cert.ReferenceIdeal.Value.run (F := Ideal) m' ρ')
    rw [hagree c]
    exact (Cert.ReferenceIdeal.Read.val_main_v0_eq _).trans (ref_reshaped _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
